-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x32x32 : Shape := ⟨4, ![64, 128, 32, 32]⟩
abbrev S4x128 : Shape := ⟨2, ![4, 128]⟩
abbrev S2x1152x256 : Shape := ⟨3, ![2, 1152, 256]⟩
abbrev S2x1x256 : Shape := ⟨3, ![2, 1, 256]⟩
abbrev S2x1152x128 : Shape := ⟨3, ![2, 1152, 128]⟩
abbrev S2x1x128 : Shape := ⟨3, ![2, 1, 128]⟩
abbrev S128x1024 : Shape := ⟨2, ![128, 1024]⟩
abbrev S1x1024 : Shape := ⟨2, ![1, 1024]⟩
abbrev S_ : Shape := ⟨0, ![]⟩

class Facts : Prop where
  bcast_S_S64x128x32x32 : S_.BroadcastsInDim S64x128x32x32 (![] : Fin 0 → Fin S64x128x32x32.rank)
  reducesTo_S64x128x32x32_S_d0_1_2_3 : S64x128x32x32.ReducesTo [0, 1, 2, 3] S_
  h_S_ : 0 < S_.numel
  bcast_S_S4x128 : S_.BroadcastsInDim S4x128 (![] : Fin 0 → Fin S4x128.rank)
  reducesTo_S4x128_S_d0_1 : S4x128.ReducesTo [0, 1] S_
  bcast_S_S2x1152x256 : S_.BroadcastsInDim S2x1152x256 (![] : Fin 0 → Fin S2x1152x256.rank)
  reducesTo_S2x1152x256_S_d0_1_2 : S2x1152x256.ReducesTo [0, 1, 2] S_
  bcast_S_S2x1x256 : S_.BroadcastsInDim S2x1x256 (![] : Fin 0 → Fin S2x1x256.rank)
  reducesTo_S2x1x256_S_d0_1_2 : S2x1x256.ReducesTo [0, 1, 2] S_
  bcast_S_S2x1152x128 : S_.BroadcastsInDim S2x1152x128 (![] : Fin 0 → Fin S2x1152x128.rank)
  reducesTo_S2x1152x128_S_d0_1_2 : S2x1152x128.ReducesTo [0, 1, 2] S_
  bcast_S_S2x1x128 : S_.BroadcastsInDim S2x1x128 (![] : Fin 0 → Fin S2x1x128.rank)
  reducesTo_S2x1x128_S_d0_1_2 : S2x1x128.ReducesTo [0, 1, 2] S_
  bcast_S_S128x1024 : S_.BroadcastsInDim S128x1024 (![] : Fin 0 → Fin S128x1024.rank)
  reducesTo_S128x1024_S_d0_1 : S128x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S128x1024 .f32) (main_arg8 : FVec F S1x1024 .f32) (main_v33 : IVec S_ 1) : IVec S_ 1 :=
  let main_v34 : FVec F S128x1024 .f32 := Host.absf main_arg7
  let main_cst_12 : FVec F S_ .f32 := constant S_ .f32 0x7F800000#32
  let main_v35 : FVec F S128x1024 .f32 := broadcastInDim S128x1024 ![] bcast_S_S128x1024 main_cst_12
  let main_v36 : IVec S128x1024 1 := cmpf .olt main_v34 main_v35
  let main_c_13 : IVec S_ 1 := constantI S_ 1 1#1
  let main_v37 : IVec S_ 1 := (fun x v => Host.reduce IntOp.andi x v reducesTo_S128x1024_S_d0_1 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  main_v43

def fn_part1 {F : FTy → Type} [FloatOps F] (main_arg4 : FVec F S2x1x256 .f32) (main_arg5 : FVec F S2x1152x128 .f32) (main_arg6 : FVec F S2x1x128 .f32) (main_arg7 : FVec F S128x1024 .f32) (main_arg8 : FVec F S1x1024 .f32) (main_v13 : IVec S_ 1) (main_v16 : IVec S2x1152x256 1) : IVec S_ 1 :=
  let main_c_5 : IVec S_ 1 := constantI S_ 1 1#1
  let main_v17 : IVec S_ 1 := (fun x v => Host.reduce IntOp.andi x v reducesTo_S2x1152x256_S_d0_1_2 h_S_) main_v16 main_c_5
  let main_v18 : IVec S_ 1 := andi main_v13 main_v17
  let main_v19 : FVec F S2x1x256 .f32 := Host.absf main_arg4
  let main_cst_6 : FVec F S_ .f32 := constant S_ .f32 0x7F800000#32
  let main_v20 : FVec F S2x1x256 .f32 := broadcastInDim S2x1x256 ![] bcast_S_S2x1x256 main_cst_6
  let main_v21 : IVec S2x1x256 1 := cmpf .olt main_v19 main_v20
  let main_c_7 : IVec S_ 1 := constantI S_ 1 1#1
  let main_v22 : IVec S_ 1 := (fun x v => Host.reduce IntOp.andi x v reducesTo_S2x1x256_S_d0_1_2 h_S_) main_v21 main_c_7
  let main_v23 : IVec S_ 1 := andi main_v18 main_v22
  let main_v24 : FVec F S2x1152x128 .f32 := Host.absf main_arg5
  let main_cst_8 : FVec F S_ .f32 := constant S_ .f32 0x7F800000#32
  let main_v25 : FVec F S2x1152x128 .f32 := broadcastInDim S2x1152x128 ![] bcast_S_S2x1152x128 main_cst_8
  let main_v26 : IVec S2x1152x128 1 := cmpf .olt main_v24 main_v25
  let main_c_9 : IVec S_ 1 := constantI S_ 1 1#1
  let main_v27 : IVec S_ 1 := (fun x v => Host.reduce IntOp.andi x v reducesTo_S2x1152x128_S_d0_1_2 h_S_) main_v26 main_c_9
  let main_v28 : IVec S_ 1 := andi main_v23 main_v27
  let main_v29 : FVec F S2x1x128 .f32 := Host.absf main_arg6
  let main_cst_10 : FVec F S_ .f32 := constant S_ .f32 0x7F800000#32
  let main_v30 : FVec F S2x1x128 .f32 := broadcastInDim S2x1x128 ![] bcast_S_S2x1x128 main_cst_10
  let main_v31 : IVec S2x1x128 1 := cmpf .olt main_v29 main_v30
  let main_c_11 : IVec S_ 1 := constantI S_ 1 1#1
  let main_v32 : IVec S_ 1 := (fun x v => Host.reduce IntOp.andi x v reducesTo_S2x1x128_S_d0_1_2 h_S_) main_v31 main_c_11
  let main_v33 : IVec S_ 1 := andi main_v28 main_v32
  fn_part2 (F := F) main_arg7 main_arg8 main_v33

def fn {F : FTy → Type} [FloatOps F] (main_arg0 : FVec F S64x128x32x32 .f32) (main_arg1 : FVec F S4x128 .f32) (main_arg2 : FVec F S4x128 .f32) (main_arg3 : FVec F S2x1152x256 .f32) (main_arg4 : FVec F S2x1x256 .f32) (main_arg5 : FVec F S2x1152x128 .f32) (main_arg6 : FVec F S2x1x128 .f32) (main_arg7 : FVec F S128x1024 .f32) (main_arg8 : FVec F S1x1024 .f32) : IVec S_ 1 :=
  let main_v0 : FVec F S64x128x32x32 .f32 := Host.absf main_arg0
  let main_cst : FVec F S_ .f32 := constant S_ .f32 0x7F800000#32
  let main_v1 : FVec F S64x128x32x32 .f32 := broadcastInDim S64x128x32x32 ![] bcast_S_S64x128x32x32 main_cst
  let main_v2 : IVec S64x128x32x32 1 := cmpf .olt main_v0 main_v1
  let main_c : IVec S_ 1 := constantI S_ 1 1#1
  let main_v3 : IVec S_ 1 := (fun x v => Host.reduce IntOp.andi x v reducesTo_S64x128x32x32_S_d0_1_2_3 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S2x1152x256 .f32 := Host.absf main_arg3
  let main_cst_4 : FVec F S_ .f32 := constant S_ .f32 0x7F800000#32
  let main_v15 : FVec F S2x1152x256 .f32 := broadcastInDim S2x1152x256 ![] bcast_S_S2x1152x256 main_cst_4
  let main_v16 : IVec S2x1152x256 1 := cmpf .olt main_v14 main_v15
  fn_part1 (F := F) main_arg4 main_arg5 main_arg6 main_arg7 main_arg8 main_v13 main_v16
-- ==== Kernel.lean ====
abbrev S64x128x32x32 : Shape := ⟨4, ![64, 128, 32, 32]⟩
abbrev S4x128 : Shape := ⟨2, ![4, 128]⟩
abbrev S2x1152x256 : Shape := ⟨3, ![2, 1152, 256]⟩
abbrev S2x1x256 : Shape := ⟨3, ![2, 1, 256]⟩
abbrev S2x1152x128 : Shape := ⟨3, ![2, 1152, 128]⟩
abbrev S2x1x128 : Shape := ⟨3, ![2, 1, 128]⟩
abbrev S128x1024 : Shape := ⟨2, ![128, 1024]⟩
abbrev S1x1024 : Shape := ⟨2, ![1, 1024]⟩
abbrev S64x32x32x128 : Shape := ⟨4, ![64, 32, 32, 128]⟩
abbrev S64x1x128 : Shape := ⟨3, ![64, 1, 128]⟩
abbrev S1x32x32x128 : Shape := ⟨4, ![1, 32, 32, 128]⟩
abbrev S1x1x128 : Shape := ⟨3, ![1, 1, 128]⟩
abbrev S34x48x128 : Shape := ⟨3, ![34, 48, 128]⟩
abbrev S1024x1152 : Shape := ⟨2, ![1024, 1152]⟩
abbrev S32x32x128 : Shape := ⟨3, ![32, 32, 128]⟩
abbrev S1024x128 : Shape := ⟨2, ![1024, 128]⟩
abbrev S1x1152x256 : Shape := ⟨3, ![1, 1152, 256]⟩
abbrev S1152x256 : Shape := ⟨2, ![1152, 256]⟩
abbrev S1x1x256 : Shape := ⟨3, ![1, 1, 256]⟩
abbrev S1x256 : Shape := ⟨2, ![1, 256]⟩
abbrev S1x128 : Shape := ⟨2, ![1, 128]⟩
abbrev S1024x256 : Shape := ⟨2, ![1024, 256]⟩
abbrev S1x1152x128 : Shape := ⟨3, ![1, 1152, 128]⟩
abbrev S1152x128 : Shape := ⟨2, ![1152, 128]⟩
abbrev S128 : Shape := ⟨1, ![128]⟩
abbrev S64x128 : Shape := ⟨2, ![64, 128]⟩
abbrev S64x1024 : Shape := ⟨2, ![64, 1024]⟩

abbrev nBuf : Space → Nat
  | .hbm => 16
  | .vmem => 16
  | .smem => 0
  | _ => 0

abbrev bufTy : (tb : Table) → Fin (tcTables nBuf tb) → BufTy
  | .hbm, ⟨0, _⟩ => ⟨S64x128x32x32, .f32⟩
  | .hbm, ⟨1, _⟩ => ⟨S4x128, .f32⟩
  | .hbm, ⟨2, _⟩ => ⟨S4x128, .f32⟩
  | .hbm, ⟨3, _⟩ => ⟨S2x1152x256, .f32⟩
  | .hbm, ⟨4, _⟩ => ⟨S2x1x256, .f32⟩
  | .hbm, ⟨5, _⟩ => ⟨S2x1152x128, .f32⟩
  | .hbm, ⟨6, _⟩ => ⟨S2x1x128, .f32⟩
  | .hbm, ⟨7, _⟩ => ⟨S128x1024, .f32⟩
  | .hbm, ⟨8, _⟩ => ⟨S1x1024, .f32⟩
  | .hbm, ⟨9, _⟩ => ⟨S64x32x32x128, .f32⟩
  | .hbm, ⟨10, _⟩ => ⟨S64x32x32x128, .bf16⟩
  | .hbm, ⟨11, _⟩ => ⟨S2x1152x256, .bf16⟩
  | .hbm, ⟨12, _⟩ => ⟨S2x1152x128, .bf16⟩
  | .hbm, ⟨13, _⟩ => ⟨S64x1x128, .f32⟩
  | .hbm, ⟨14, _⟩ => ⟨S64x128, .f32⟩
  | .hbm, ⟨15, _⟩ => ⟨S64x1024, .f32⟩
  | .local _ .vmem, ⟨0, _⟩ => ⟨S1x32x32x128, .bf16⟩
  | .local _ .vmem, ⟨1, _⟩ => ⟨S1x32x32x128, .bf16⟩
  | .local _ .vmem, ⟨2, _⟩ => ⟨S4x128, .f32⟩
  | .local _ .vmem, ⟨3, _⟩ => ⟨S4x128, .f32⟩
  | .local _ .vmem, ⟨4, _⟩ => ⟨S2x1152x256, .bf16⟩
  | .local _ .vmem, ⟨5, _⟩ => ⟨S2x1x256, .f32⟩
  | .local _ .vmem, ⟨6, _⟩ => ⟨S2x1152x128, .bf16⟩
  | .local _ .vmem, ⟨7, _⟩ => ⟨S2x1x128, .f32⟩
  | .local _ .vmem, ⟨8, _⟩ => ⟨S1x1x128, .f32⟩
  | .local _ .vmem, ⟨9, _⟩ => ⟨S1x1x128, .f32⟩
  | .local _ .vmem, ⟨10, _⟩ => ⟨S34x48x128, .bf16⟩
  | .local _ .vmem, ⟨11, _⟩ => ⟨S1024x1152, .bf16⟩
  | .local _ .vmem, ⟨12, _⟩ => ⟨S64x128, .f32⟩
  | .local _ .vmem, ⟨13, _⟩ => ⟨S128x1024, .f32⟩
  | .local _ .vmem, ⟨14, _⟩ => ⟨S1x1024, .f32⟩
  | .local _ .vmem, ⟨15, _⟩ => ⟨S64x1024, .f32⟩
  | _, _ => ⟨S64x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem1_0 : DmaSem sig := 11
abbrev cc1_sem2_0 : DmaSem sig := 12
abbrev cc1_sem3_0 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1152x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1152x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := .none

abbrev stage1_0 : Fin 1 → Memref sig .tc .vmem S64x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

class Facts₀ : Prop where
  transposes_S64x128x32x32_S64x32x32x128_0_2_3_1 : S64x128x32x32.Transposes [0, 2, 3, 1] S64x32x32x128
  bitsLt_bf16_f32 : FTy.bits .bf16 < FTy.bits .f32
  inb_S34x48x128_S34x48x128_0_0_0 : ∀ a, (![0, 0, 0] : Fin 3 → Nat) a + S34x48x128.size a ≤ S34x48x128.size a
  h_S34x48x128 : 0 < S34x48x128.numel
  shapeCasts_S34x48x128_S34x48x128 : S34x48x128.ShapeCasts S34x48x128
  packedbf16_S34x48x128_S34x48x128_0_0_0 : (Rect.unit (s := S34x48x128) ![0, 0, 0] S34x48x128.size inb_S34x48x128_S34x48x128_0_0_0).PackedRows (EltTy.packing .bf16)
  inb_S1x32x32x128_S1x32x32x128_0_0_0_0 : ∀ a, (![0, 0, 0, 0] : Fin 4 → Nat) a + S1x32x32x128.size a ≤ S1x32x32x128.size a
  h_S1x32x32x128 : 0 < S1x32x32x128.numel
  shapeCasts_S1x32x32x128_S32x32x128 : S1x32x32x128.ShapeCasts S32x32x128
  shapeCasts_S32x32x128_S1024x128 : S32x32x128.ShapeCasts S1024x128
  inb_S2x1152x256_S1x1152x256_0_0_0 : ∀ a, (![0, 0, 0] : Fin 3 → Nat) a + S1x1152x256.size a ≤ S2x1152x256.size a
  h_S1x1152x256 : 0 < S1x1152x256.numel
  shapeCasts_S1x1152x256_S1152x256 : S1x1152x256.ShapeCasts S1152x256
  inb_S2x1x256_S1x1x256_0_0_0 : ∀ a, (![0, 0, 0] : Fin 3 → Nat) a + S1x1x256.size a ≤ S2x1x256.size a
  h_S1x1x256 : 0 < S1x1x256.numel
  shapeCasts_S1x1x256_S1x256 : S1x1x256.ShapeCasts S1x256
  inb_S4x128_S1x128_0_0 : ∀ a, (![0, 0] : Fin 2 → Nat) a + S1x128.size a ≤ S4x128.size a
  h_S1x128 : 0 < S1x128.numel
  broadcasts_S1x128_S1024x128 : S1x128.Broadcasts S1024x128
  shapeCasts_S1024x128_S32x32x128 : S1024x128.ShapeCasts S32x32x128
  inb_S34x48x128_S32x32x128_1_8_0 : ∀ a, (![1, 8, 0] : Fin 3 → Nat) a + S32x32x128.size a ≤ S34x48x128.size a
  h_S32x32x128 : 0 < S32x32x128.numel
  shapeCasts_S32x32x128_S32x32x128 : S32x32x128.ShapeCasts S32x32x128
  packedbf16_S34x48x128_S32x32x128_1_8_0 : (Rect.unit (s := S34x48x128) ![1, 8, 0] S32x32x128.size inb_S34x48x128_S32x32x128_1_8_0).PackedRows (EltTy.packing .bf16)
  inb_S34x48x128_S32x32x128_0_7_0 : ∀ a, (![0, 7, 0] : Fin 3 → Nat) a + S32x32x128.size a ≤ S34x48x128.size a
  inb_S1024x1152_S1024x128_0_0 : ∀ a, (![0, 0] : Fin 2 → Nat) a + S1024x128.size a ≤ S1024x1152.size a
  h_S1024x128 : 0 < S1024x128.numel
  shapeCasts_S1024x128_S1024x128 : S1024x128.ShapeCasts S1024x128
  packedbf16_S1024x1152_S1024x128_0_0 : (Rect.unit (s := S1024x1152) ![0, 0] S1024x128.size inb_S1024x1152_S1024x128_0_0).PackedRows (EltTy.packing .bf16)
  inb_S34x48x128_S32x32x128_0_8_0 : ∀ a, (![0, 8, 0] : Fin 3 → Nat) a + S32x32x128.size a ≤ S34x48x128.size a
  inb_S1024x1152_S1024x128_0_128 : ∀ a, (![0, 128] : Fin 2 → Nat) a + S1024x128.size a ≤ S1024x1152.size a
  packedbf16_S1024x1152_S1024x128_0_128 : (Rect.unit (s := S1024x1152) ![0, 128] S1024x128.size inb_S1024x1152_S1024x128_0_128).PackedRows (EltTy.packing .bf16)
  inb_S34x48x128_S32x32x128_0_9_0 : ∀ a, (![0, 9, 0] : Fin 3 → Nat) a + S32x32x128.size a ≤ S34x48x128.size a
  inb_S1024x1152_S1024x128_0_256 : ∀ a, (![0, 256] : Fin 2 → Nat) a + S1024x128.size a ≤ S1024x1152.size a
  packedbf16_S1024x1152_S1024x128_0_256 : (Rect.unit (s := S1024x1152) ![0, 256] S1024x128.size inb_S1024x1152_S1024x128_0_256).PackedRows (EltTy.packing .bf16)
  inb_S34x48x128_S32x32x128_1_7_0 : ∀ a, (![1, 7, 0] : Fin 3 → Nat) a + S32x32x128.size a ≤ S34x48x128.size a
  inb_S1024x1152_S1024x128_0_384 : ∀ a, (![0, 384] : Fin 2 → Nat) a + S1024x128.size a ≤ S1024x1152.size a
  packedbf16_S1024x1152_S1024x128_0_384 : (Rect.unit (s := S1024x1152) ![0, 384] S1024x128.size inb_S1024x1152_S1024x128_0_384).PackedRows (EltTy.packing .bf16)
  inb_S1024x1152_S1024x128_0_512 : ∀ a, (![0, 512] : Fin 2 → Nat) a + S1024x128.size a ≤ S1024x1152.size a
  packedbf16_S1024x1152_S1024x128_0_512 : (Rect.unit (s := S1024x1152) ![0, 512] S1024x128.size inb_S1024x1152_S1024x128_0_512).PackedRows (EltTy.packing .bf16)
  inb_S34x48x128_S32x32x128_1_9_0 : ∀ a, (![1, 9, 0] : Fin 3 → Nat) a + S32x32x128.size a ≤ S34x48x128.size a
  inb_S1024x1152_S1024x128_0_640 : ∀ a, (![0, 640] : Fin 2 → Nat) a + S1024x128.size a ≤ S1024x1152.size a
  packedbf16_S1024x1152_S1024x128_0_640 : (Rect.unit (s := S1024x1152) ![0, 640] S1024x128.size inb_S1024x1152_S1024x128_0_640).PackedRows (EltTy.packing .bf16)
  inb_S34x48x128_S32x32x128_2_7_0 : ∀ a, (![2, 7, 0] : Fin 3 → Nat) a + S32x32x128.size a ≤ S34x48x128.size a
  inb_S1024x1152_S1024x128_0_768 : ∀ a, (![0, 768] : Fin 2 → Nat) a + S1024x128.size a ≤ S1024x1152.size a
  packedbf16_S1024x1152_S1024x128_0_768 : (Rect.unit (s := S1024x1152) ![0, 768] S1024x128.size inb_S1024x1152_S1024x128_0_768).PackedRows (EltTy.packing .bf16)
  inb_S34x48x128_S32x32x128_2_8_0 : ∀ a, (![2, 8, 0] : Fin 3 → Nat) a + S32x32x128.size a ≤ S34x48x128.size a
  inb_S1024x1152_S1024x128_0_896 : ∀ a, (![0, 896] : Fin 2 → Nat) a + S1024x128.size a ≤ S1024x1152.size a
  packedbf16_S1024x1152_S1024x128_0_896 : (Rect.unit (s := S1024x1152) ![0, 896] S1024x128.size inb_S1024x1152_S1024x128_0_896).PackedRows (EltTy.packing .bf16)
  inb_S34x48x128_S32x32x128_2_9_0 : ∀ a, (![2, 9, 0] : Fin 3 → Nat) a + S32x32x128.size a ≤ S34x48x128.size a
  inb_S1024x1152_S1024x128_0_1024 : ∀ a, (![0, 1024] : Fin 2 → Nat) a + S1024x128.size a ≤ S1024x1152.size a
  packedbf16_S1024x1152_S1024x128_0_1024 : (Rect.unit (s := S1024x1152) ![0, 1024] S1024x128.size inb_S1024x1152_S1024x128_0_1024).PackedRows (EltTy.packing .bf16)
  inb_S1024x1152_S1024x1152_0_0 : ∀ a, (![0, 0] : Fin 2 → Nat) a + S1024x1152.size a ≤ S1024x1152.size a
  h_S1024x1152 : 0 < S1024x1152.numel
  broadcasts_S1x256_S1024x256 : S1x256.Broadcasts S1024x256
  slices_S1024x256_o0_0_S1024x128 : S1024x256.Slices ![0, 0] S1024x128
  inb_S2x1152x128_S1x1152x128_0_0_0 : ∀ a, (![0, 0, 0] : Fin 3 → Nat) a + S1x1152x128.size a ≤ S2x1152x128.size a
  h_S1x1152x128 : 0 < S1x1152x128.numel
  shapeCasts_S1x1152x128_S1152x128 : S1x1152x128.ShapeCasts S1152x128
  inb_S2x1x128_S1x1x128_0_0_0 : ∀ a, (![0, 0, 0] : Fin 3 → Nat) a + S1x1x128.size a ≤ S2x1x128.size a
  h_S1x1x128 : 0 < S1x1x128.numel
  shapeCasts_S1x1x128_S1x128 : S1x1x128.ShapeCasts S1x128
  inb_S4x128_S1x128_1_0 : ∀ a, (![1, 0] : Fin 2 → Nat) a + S1x128.size a ≤ S4x128.size a
  slices_S1024x256_o0_128_S1024x128 : S1024x256.Slices ![0, 128] S1024x128
  inb_S2x1152x256_S1x1152x256_1_0_0 : ∀ a, (![1, 0, 0] : Fin 3 → Nat) a + S1x1152x256.size a ≤ S2x1152x256.size a
  inb_S2x1x256_S1x1x256_1_0_0 : ∀ a, (![1, 0, 0] : Fin 3 → Nat) a + S1x1x256.size a ≤ S2x1x256.size a
  inb_S4x128_S1x128_2_0 : ∀ a, (![2, 0] : Fin 2 → Nat) a + S1x128.size a ≤ S4x128.size a
  inb_S2x1152x128_S1x1152x128_1_0_0 : ∀ a, (![1, 0, 0] : Fin 3 → Nat) a + S1x1152x128.size a ≤ S2x1152x128.size a
  inb_S2x1x128_S1x1x128_1_0_0 : ∀ a, (![1, 0, 0] : Fin 3 → Nat) a + S1x1x128.size a ≤ S2x1x128.size a
  inb_S4x128_S1x128_3_0 : ∀ a, (![3, 0] : Fin 2 → Nat) a + S1x128.size a ≤ S4x128.size a
  reduces_S1024x128_S128 : S1024x128.Reduces [0] S128
  shapeCasts_S128_S1x128 : S128.ShapeCasts S1x128
  inb_S1x1x128_S1x1x128_0_0_0 : ∀ a, (![0, 0, 0] : Fin 3 → Nat) a + S1x1x128.size a ≤ S1x1x128.size a
  shapeCasts_S1x128_S1x1x128 : S1x128.ShapeCasts S1x1x128
  shapeCasts_S64x1x128_S64x128 : S64x1x128.ShapeCasts S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x1024_S128x1024_0_0 : ∀ a, (![0, 0] : Fin 2 → Nat) a + S128x1024.size a ≤ S128x1024.size a
  h_S128x1024 : 0 < S128x1024.numel
  inb_S1x1024_S1x1024_0_0 : ∀ a, (![0, 0] : Fin 2 → Nat) a + S1x1024.size a ≤ S1x1024.size a
  h_S1x1024 : 0 < S1x1024.numel
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  dot_S1024x1152_S1152x256_S1024x256_1_0_0_1_n_n_wf : DotDims.WF S1024x1152 S1152x256 S1024x256 [1] [0] [0] [1] [] []
  dot_S1024x1152_S1152x128_S1024x128_1_0_0_1_n_n_wf : DotDims.WF S1024x1152 S1152x128 S1024x128 [1] [0] [0] [1] [] []
  dot_S64x128_S128x1024_S64x1024_1_0_0_1_n_n_wf : DotDims.WF S64x128 S128x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x128.size a ≤ S64x32x32x128.size a
  hwx0_0 : ∀ i : grid0.Coords, EltTy.bits .bf16 = 32 ∨ (Rect.block (s := S64x32x32x128) S1x32x32x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x128.size a
  hwx0_2 : ∀ i : grid0.Coords, EltTy.bits .f32 = 32 ∨ (Rect.block (s := S4x128) S4x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x1152x256.size a ≤ S2x1152x256.size a
  hwx0_3 : ∀ i : grid0.Coords, EltTy.bits .bf16 = 32 ∨ (Rect.block (s := S2x1152x256) S2x1152x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x1x256.size a ≤ S2x1x256.size a
  hwx0_4 : ∀ i : grid0.Coords, EltTy.bits .f32 = 32 ∨ (Rect.block (s := S2x1x256) S2x1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x1152x128.size a ≤ S2x1152x128.size a
  hwx0_5 : ∀ i : grid0.Coords, EltTy.bits .bf16 = 32 ∨ (Rect.block (s := S2x1152x128) S2x1152x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x1x128.size a ≤ S2x1x128.size a
  hwx0_6 : ∀ i : grid0.Coords, EltTy.bits .f32 = 32 ∨ (Rect.block (s := S2x1x128) S2x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S64x1x128.size a
  hwx0_7 : ∀ i : grid0.Coords, EltTy.bits .f32 = 32 ∨ (Rect.block (s := S64x1x128) S1x1x128.size (cc0_transform_7 i) (hinb0_7 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole

variable [Facts₀]

def dot_S1024x1152_S1152x256_S1024x256_1_0_0_1_n_n : DotDims S1024x1152 S1152x256 S1024x256 where
  lhsContracting := [1]
  rhsContracting := [0]
  lhsNonContracting := [0]
  rhsNonContracting := [1]
  lhsBatch := []
  rhsBatch := []
  wf := dot_S1024x1152_S1152x256_S1024x256_1_0_0_1_n_n_wf
def dot_S1024x1152_S1152x128_S1024x128_1_0_0_1_n_n : DotDims S1024x1152 S1152x128 S1024x128 where
  lhsContracting := [1]
  rhsContracting := [0]
  lhsNonContracting := [0]
  rhsNonContracting := [1]
  lhsBatch := []
  rhsBatch := []
  wf := dot_S1024x1152_S1152x128_S1024x128_1_0_0_1_n_n_wf
def dot_S64x128_S128x1024_S64x1024_1_0_0_1_n_n : DotDims S64x128 S128x1024 S64x1024 where
  lhsContracting := [1]
  rhsContracting := [0]
  lhsNonContracting := [0]
  rhsNonContracting := [1]
  lhsBatch := []
  rhsBatch := []
  wf := dot_S64x128_S128x1024_S64x1024_1_0_0_1_n_n_wf

abbrev win0_0 : Pipeline.Window sig grid0 :=
  Pipeline.Window.ofSpec (Memref.whole main_v1) S1x32x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2x1152x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2x1152x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2x1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.whole (Memref.whole main_v5) false false (stage1_0 0) (sem1_0 0) (Memref.isWhole_whole _) (hstage1_0 0)

abbrev win1_1 : Pipeline.Window sig grid1 :=
  Pipeline.Window.whole (Memref.whole main_arg7) false false (stage1_1 0) (sem1_1 0) (Memref.isWhole_whole _) (hstage1_1 0)

abbrev win1_2 : Pipeline.Window sig grid1 :=
  Pipeline.Window.whole (Memref.whole main_arg8) false false (stage1_2 0) (sem1_2 0) (Memref.isWhole_whole _) (hstage1_2 0)

abbrev win1_3 : Pipeline.Window sig grid1 :=
  Pipeline.Window.whole (Memref.whole main_v6) true false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x128x32x32 : Shape := ⟨4, ![64, 128, 32, 32]⟩
abbrev S4x128 : Shape := ⟨2, ![4, 128]⟩
abbrev S2x1152x256 : Shape := ⟨3, ![2, 1152, 256]⟩
abbrev S2x1x256 : Shape := ⟨3, ![2, 1, 256]⟩
abbrev S2x1152x128 : Shape := ⟨3, ![2, 1152, 128]⟩
abbrev S2x1x128 : Shape := ⟨3, ![2, 1, 128]⟩
abbrev S128x1024 : Shape := ⟨2, ![128, 1024]⟩
abbrev S1x1024 : Shape := ⟨2, ![1, 1024]⟩
abbrev S64x32x32x128 : Shape := ⟨4, ![64, 32, 32, 128]⟩
abbrev S64x1x1024 : Shape := ⟨3, ![64, 1, 1024]⟩
abbrev S1x32x32x128 : Shape := ⟨4, ![1, 32, 32, 128]⟩
abbrev S1x1x1024 : Shape := ⟨3, ![1, 1, 1024]⟩
abbrev S34x48x128 : Shape := ⟨3, ![34, 48, 128]⟩
abbrev S32x32x128 : Shape := ⟨3, ![32, 32, 128]⟩
abbrev S1024x128 : Shape := ⟨2, ![1024, 128]⟩
abbrev S1x1152x256 : Shape := ⟨3, ![1, 1152, 256]⟩
abbrev S1152x256 : Shape := ⟨2, ![1152, 256]⟩
abbrev S1x1x256 : Shape := ⟨3, ![1, 1, 256]⟩
abbrev S1x256 : Shape := ⟨2, ![1, 256]⟩
abbrev S1x128 : Shape := ⟨2, ![1, 128]⟩
abbrev S1024x1152 : Shape := ⟨2, ![1024, 1152]⟩
abbrev S1024x256 : Shape := ⟨2, ![1024, 256]⟩
abbrev S1x1152x128 : Shape := ⟨3, ![1, 1152, 128]⟩
abbrev S1152x128 : Shape := ⟨2, ![1152, 128]⟩
abbrev S1x1x128 : Shape := ⟨3, ![1, 1, 128]⟩
abbrev S64x1024 : Shape := ⟨2, ![64, 1024]⟩

abbrev nBuf : Space → Nat
  | .hbm => 12
  | .vmem => 13
  | .smem => 0
  | _ => 0

abbrev bufTy : (tb : Table) → Fin (tcTables nBuf tb) → BufTy
  | .hbm, ⟨0, _⟩ => ⟨S64x128x32x32, .f32⟩
  | .hbm, ⟨1, _⟩ => ⟨S4x128, .f32⟩
  | .hbm, ⟨2, _⟩ => ⟨S4x128, .f32⟩
  | .hbm, ⟨3, _⟩ => ⟨S2x1152x256, .f32⟩
  | .hbm, ⟨4, _⟩ => ⟨S2x1x256, .f32⟩
  | .hbm, ⟨5, _⟩ => ⟨S2x1152x128, .f32⟩
  | .hbm, ⟨6, _⟩ => ⟨S2x1x128, .f32⟩
  | .hbm, ⟨7, _⟩ => ⟨S128x1024, .f32⟩
  | .hbm, ⟨8, _⟩ => ⟨S1x1024, .f32⟩
  | .hbm, ⟨9, _⟩ => ⟨S64x32x32x128, .f32⟩
  | .hbm, ⟨10, _⟩ => ⟨S64x1x1024, .f32⟩
  | .hbm, ⟨11, _⟩ => ⟨S64x1024, .f32⟩
  | .local _ .vmem, ⟨0, _⟩ => ⟨S1x32x32x128, .f32⟩
  | .local _ .vmem, ⟨1, _⟩ => ⟨S1x32x32x128, .f32⟩
  | .local _ .vmem, ⟨2, _⟩ => ⟨S4x128, .f32⟩
  | .local _ .vmem, ⟨3, _⟩ => ⟨S4x128, .f32⟩
  | .local _ .vmem, ⟨4, _⟩ => ⟨S2x1152x256, .f32⟩
  | .local _ .vmem, ⟨5, _⟩ => ⟨S2x1x256, .f32⟩
  | .local _ .vmem, ⟨6, _⟩ => ⟨S2x1152x128, .f32⟩
  | .local _ .vmem, ⟨7, _⟩ => ⟨S2x1x128, .f32⟩
  | .local _ .vmem, ⟨8, _⟩ => ⟨S128x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S34x48x128, .f32⟩
  | _, _ => ⟨S64x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1152x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1152x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S64x128x32x32_S64x32x32x128_0_2_3_1 : S64x128x32x32.Transposes [0, 2, 3, 1] S64x32x32x128
  inb_S34x48x128_S34x48x128_0_0_0 : ∀ a, (![0, 0, 0] : Fin 3 → Nat) a + S34x48x128.size a ≤ S34x48x128.size a
  h_S34x48x128 : 0 < S34x48x128.numel
  shapeCasts_S34x48x128_S34x48x128 : S34x48x128.ShapeCasts S34x48x128
  inb_S1x32x32x128_S1x32x32x128_0_0_0_0 : ∀ a, (![0, 0, 0, 0] : Fin 4 → Nat) a + S1x32x32x128.size a ≤ S1x32x32x128.size a
  h_S1x32x32x128 : 0 < S1x32x32x128.numel
  shapeCasts_S1x32x32x128_S32x32x128 : S1x32x32x128.ShapeCasts S32x32x128
  shapeCasts_S32x32x128_S1024x128 : S32x32x128.ShapeCasts S1024x128
  inb_S2x1152x256_S1x1152x256_0_0_0 : ∀ a, (![0, 0, 0] : Fin 3 → Nat) a + S1x1152x256.size a ≤ S2x1152x256.size a
  h_S1x1152x256 : 0 < S1x1152x256.numel
  shapeCasts_S1x1152x256_S1152x256 : S1x1152x256.ShapeCasts S1152x256
  inb_S2x1x256_S1x1x256_0_0_0 : ∀ a, (![0, 0, 0] : Fin 3 → Nat) a + S1x1x256.size a ≤ S2x1x256.size a
  h_S1x1x256 : 0 < S1x1x256.numel
  shapeCasts_S1x1x256_S1x256 : S1x1x256.ShapeCasts S1x256
  inb_S4x128_S1x128_0_0 : ∀ a, (![0, 0] : Fin 2 → Nat) a + S1x128.size a ≤ S4x128.size a
  h_S1x128 : 0 < S1x128.numel
  broadcasts_S1x128_S1024x128 : S1x128.Broadcasts S1024x128
  shapeCasts_S1024x128_S32x32x128 : S1024x128.ShapeCasts S32x32x128
  inb_S34x48x128_S32x32x128_1_8_0 : ∀ a, (![1, 8, 0] : Fin 3 → Nat) a + S32x32x128.size a ≤ S34x48x128.size a
  h_S32x32x128 : 0 < S32x32x128.numel
  shapeCasts_S32x32x128_S32x32x128 : S32x32x128.ShapeCasts S32x32x128
  inb_S34x48x128_S32x32x128_0_7_0 : ∀ a, (![0, 7, 0] : Fin 3 → Nat) a + S32x32x128.size a ≤ S34x48x128.size a
  inb_S34x48x128_S32x32x128_0_8_0 : ∀ a, (![0, 8, 0] : Fin 3 → Nat) a + S32x32x128.size a ≤ S34x48x128.size a
  inb_S34x48x128_S32x32x128_0_9_0 : ∀ a, (![0, 9, 0] : Fin 3 → Nat) a + S32x32x128.size a ≤ S34x48x128.size a
  inb_S34x48x128_S32x32x128_1_7_0 : ∀ a, (![1, 7, 0] : Fin 3 → Nat) a + S32x32x128.size a ≤ S34x48x128.size a
  inb_S34x48x128_S32x32x128_1_9_0 : ∀ a, (![1, 9, 0] : Fin 3 → Nat) a + S32x32x128.size a ≤ S34x48x128.size a
  inb_S34x48x128_S32x32x128_2_7_0 : ∀ a, (![2, 7, 0] : Fin 3 → Nat) a + S32x32x128.size a ≤ S34x48x128.size a
  inb_S34x48x128_S32x32x128_2_8_0 : ∀ a, (![2, 8, 0] : Fin 3 → Nat) a + S32x32x128.size a ≤ S34x48x128.size a
  inb_S34x48x128_S32x32x128_2_9_0 : ∀ a, (![2, 9, 0] : Fin 3 → Nat) a + S32x32x128.size a ≤ S34x48x128.size a
  concatenates_S1024x128_S1024x128_S1024x128_S1024x128_S1024x128_S1024x128_S1024x128_S1024x128_S1024x128_S1024x1152_d1 : Shape.Concatenates [S1024x128, S1024x128, S1024x128, S1024x128, S1024x128, S1024x128, S1024x128, S1024x128, S1024x128] S1024x1152 1
  broadcasts_S1x256_S1024x256 : S1x256.Broadcasts S1024x256
  slices_S1024x256_o0_0_S1024x128 : S1024x256.Slices ![0, 0] S1024x128
  slices_S1024x256_o0_128_S1024x128 : S1024x256.Slices ![0, 128] S1024x128
  inb_S2x1152x128_S1x1152x128_0_0_0 : ∀ a, (![0, 0, 0] : Fin 3 → Nat) a + S1x1152x128.size a ≤ S2x1152x128.size a
  h_S1x1152x128 : 0 < S1x1152x128.numel
  shapeCasts_S1x1152x128_S1152x128 : S1x1152x128.ShapeCasts S1152x128
  inb_S2x1x128_S1x1x128_0_0_0 : ∀ a, (![0, 0, 0] : Fin 3 → Nat) a + S1x1x128.size a ≤ S2x1x128.size a
  h_S1x1x128 : 0 < S1x1x128.numel
  shapeCasts_S1x1x128_S1x128 : S1x1x128.ShapeCasts S1x128
  inb_S4x128_S1x128_1_0 : ∀ a, (![1, 0] : Fin 2 → Nat) a + S1x128.size a ≤ S4x128.size a
  inb_S2x1152x256_S1x1152x256_1_0_0 : ∀ a, (![1, 0, 0] : Fin 3 → Nat) a + S1x1152x256.size a ≤ S2x1152x256.size a
  inb_S2x1x256_S1x1x256_1_0_0 : ∀ a, (![1, 0, 0] : Fin 3 → Nat) a + S1x1x256.size a ≤ S2x1x256.size a
  inb_S4x128_S1x128_2_0 : ∀ a, (![2, 0] : Fin 2 → Nat) a + S1x128.size a ≤ S4x128.size a
  inb_S2x1152x128_S1x1152x128_1_0_0 : ∀ a, (![1, 0, 0] : Fin 3 → Nat) a + S1x1152x128.size a ≤ S2x1152x128.size a
  inb_S2x1x128_S1x1x128_1_0_0 : ∀ a, (![1, 0, 0] : Fin 3 → Nat) a + S1x1x128.size a ≤ S2x1x128.size a
  inb_S4x128_S1x128_3_0 : ∀ a, (![3, 0] : Fin 2 → Nat) a + S1x128.size a ≤ S4x128.size a
  inb_S128x1024_S128x1024_0_0 : ∀ a, (![0, 0] : Fin 2 → Nat) a + S128x1024.size a ≤ S128x1024.size a
  h_S128x1024 : 0 < S128x1024.numel
  inb_S1x1024_S1x1024_0_0 : ∀ a, (![0, 0] : Fin 2 → Nat) a + S1x1024.size a ≤ S1x1024.size a
  h_S1x1024 : 0 < S1x1024.numel
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S64x1x1024_S64x1024 : S64x1x1024.ShapeCasts S64x1024
  dot_S1024x1152_S1152x256_S1024x256_1_0_0_1_n_n_wf : DotDims.WF S1024x1152 S1152x256 S1024x256 [1] [0] [0] [1] [] []
  dot_S1024x1152_S1152x128_S1024x128_1_0_0_1_n_n_wf : DotDims.WF S1024x1152 S1152x128 S1024x128 [1] [0] [0] [1] [] []
  dot_S1x1024_S1024x128_S1x128_1_0_0_1_n_n_wf : DotDims.WF S1x1024 S1024x128 S1x128 [1] [0] [0] [1] [] []
  dot_S1x128_S128x1024_S1x1024_1_0_0_1_n_n_wf : DotDims.WF S1x128 S128x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x128.size a ≤ S64x32x32x128.size a
  hwx0_0 : ∀ i : grid0.Coords, EltTy.bits .f32 = 32 ∨ (Rect.block (s := S64x32x32x128) S1x32x32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x128.size a
  hwx0_2 : ∀ i : grid0.Coords, EltTy.bits .f32 = 32 ∨ (Rect.block (s := S4x128) S4x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x1152x256.size a ≤ S2x1152x256.size a
  hwx0_3 : ∀ i : grid0.Coords, EltTy.bits .f32 = 32 ∨ (Rect.block (s := S2x1152x256) S2x1152x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x1x256.size a ≤ S2x1x256.size a
  hwx0_4 : ∀ i : grid0.Coords, EltTy.bits .f32 = 32 ∨ (Rect.block (s := S2x1x256) S2x1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x1152x128.size a ≤ S2x1152x128.size a
  hwx0_5 : ∀ i : grid0.Coords, EltTy.bits .f32 = 32 ∨ (Rect.block (s := S2x1152x128) S2x1152x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x1x128.size a ≤ S2x1x128.size a
  hwx0_6 : ∀ i : grid0.Coords, EltTy.bits .f32 = 32 ∨ (Rect.block (s := S2x1x128) S2x1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S128x1024.size a
  hwx0_7 : ∀ i : grid0.Coords, EltTy.bits .f32 = 32 ∨ (Rect.block (s := S128x1024) S128x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1024.size a ≤ S64x1x1024.size a
  hwx0_9 : ∀ i : grid0.Coords, EltTy.bits .f32 = 32 ∨ (Rect.block (s := S64x1x1024) S1x1x1024.size (cc0_transform_9 i) (hinb0_9 i)).WholeWords (EltTy.packing .f32)

variable [Facts₀]

def dot_S1024x1152_S1152x256_S1024x256_1_0_0_1_n_n : DotDims S1024x1152 S1152x256 S1024x256 where
  lhsContracting := [1]
  rhsContracting := [0]
  lhsNonContracting := [0]
  rhsNonContracting := [1]
  lhsBatch := []
  rhsBatch := []
  wf := dot_S1024x1152_S1152x256_S1024x256_1_0_0_1_n_n_wf
def dot_S1024x1152_S1152x128_S1024x128_1_0_0_1_n_n : DotDims S1024x1152 S1152x128 S1024x128 where
  lhsContracting := [1]
  rhsContracting := [0]
  lhsNonContracting := [0]
  rhsNonContracting := [1]
  lhsBatch := []
  rhsBatch := []
  wf := dot_S1024x1152_S1152x128_S1024x128_1_0_0_1_n_n_wf
def dot_S1x1024_S1024x128_S1x128_1_0_0_1_n_n : DotDims S1x1024 S1024x128 S1x128 where
  lhsContracting := [1]
  rhsContracting := [0]
  lhsNonContracting := [0]
  rhsNonContracting := [1]
  lhsBatch := []
  rhsBatch := []
  wf := dot_S1x1024_S1024x128_S1x128_1_0_0_1_n_n_wf
def dot_S1x128_S128x1024_S1x1024_1_0_0_1_n_n : DotDims S1x128 S128x1024 S1x1024 where
  lhsContracting := [1]
  rhsContracting := [0]
  lhsNonContracting := [0]
  rhsNonContracting := [1]
  lhsBatch := []
  rhsBatch := []
  wf := dot_S1x128_S128x1024_S1x1024_1_0_0_1_n_n_wf

abbrev win0_0 : Pipeline.Window sig grid0 :=
  Pipeline.Window.ofSpec (Memref.whole main_v0) S1x32x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x1152x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x1152x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2x1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1x1x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== Proof.Enc.lean ====
/-
  The per-image encoder as one function of the image's block and the parameter arrays, over the extended reals.

  An image is a 1×32×32×128 block; read as a 1024×128 matrix (row = pixel, column = channel) it goes through two
  cells. A cell normalises its input channel by channel (scale and shift rows), lays it in the interior of a
  34×48×128 zero field (rows 1..32, columns 8..39), takes the nine 3×3 taps of that field as nine 1024×128 matrices,
  puts them side by side into a 1024×1152 matrix and multiplies by a 1152×256 weight matrix, adding a bias row; the
  left 128 columns, clipped below at zero, are normalised again and go through a second such product (1152×128); the
  cell's result is the right 128 columns of the first product plus the second product clipped at zero.

  The zero field is kept as the list of stores made into it so far (newest first): each layer's interior store is
  added in front, and a tap reads, at each of its positions, the newest store that reaches the position. The field
  is never emptied between layers, exactly as the two programs keep one buffer for all four layers.

  After the two cells the 1024 rows are averaged with the weight 1/1024 (the exact value of the word 0x3A800000) and
  the 128 averages go through the 128×1024 head product plus its bias row. The average is written in two ways — the
  column sum times the weight, and the sum of the weighted entries — and the two are equal because the weight is a
  nonnegative real number.
-/
import Idealize.ShloMosaic.PureOps.Ideal
import Idealize.ShloMosaic.PureOps.Ideal.Laws
import Idealize.ShloMosaic.Lib.Pipeline.Value
import Idealize.ShloMosaic.Lib.ValueIdx

noncomputable section

namespace Cert.Enc

open Idealize.ShloMosaic

abbrev S1x32x32x128 : Shape := ⟨4, ![1, 32, 32, 128]⟩
abbrev S32x32x128 : Shape := ⟨3, ![32, 32, 128]⟩
abbrev S34x48x128 : Shape := ⟨3, ![34, 48, 128]⟩
abbrev S1024x128 : Shape := ⟨2, ![1024, 128]⟩
abbrev S1024x256 : Shape := ⟨2, ![1024, 256]⟩
abbrev S1024x1152 : Shape := ⟨2, ![1024, 1152]⟩
abbrev S1152x256 : Shape := ⟨2, ![1152, 256]⟩
abbrev S1152x128 : Shape := ⟨2, ![1152, 128]⟩
abbrev S1x256 : Shape := ⟨2, ![1, 256]⟩
abbrev S1x128 : Shape := ⟨2, ![1, 128]⟩
abbrev S4x128 : Shape := ⟨2, ![4, 128]⟩
abbrev S2x1152x256 : Shape := ⟨3, ![2, 1152, 256]⟩
abbrev S1x1152x256 : Shape := ⟨3, ![1, 1152, 256]⟩
abbrev S2x1x256 : Shape := ⟨3, ![2, 1, 256]⟩
abbrev S1x1x256 : Shape := ⟨3, ![1, 1, 256]⟩
abbrev S2x1152x128 : Shape := ⟨3, ![2, 1152, 128]⟩
abbrev S1x1152x128 : Shape := ⟨3, ![1, 1152, 128]⟩
abbrev S2x1x128 : Shape := ⟨3, ![2, 1, 128]⟩
abbrev S1x1x128 : Shape := ⟨3, ![1, 1, 128]⟩
abbrev S128 : Shape := ⟨1, ![128]⟩
abbrev S1x1024 : Shape := ⟨2, ![1, 1024]⟩
abbrev S128x1024 : Shape := ⟨2, ![128, 1024]⟩

/-- An array of extended reals of a given shape. -/
abbrev V (s : Shape) : Type := s.Idx → EReal

/-- The stores made so far into the 34×48×128 field, newest first. -/
abbrev Field : Type := List (View.Piece (Elt Ideal) S34x48x128 .f32)

/-- The interior of the field: rows 1..32, columns 8..39, every channel. -/
abbrev interior : Rect S34x48x128 := Rect.unit (s := S34x48x128) ![1, 8, 0] S32x32x128.size (by decide)
/-- The whole field. -/
abbrev wholeField : Rect S34x48x128 := Rect.unit (s := S34x48x128) ![0, 0, 0] S34x48x128.size (by decide)

/-- The zero field. -/
def zeroField : V S34x48x128 := fun _ => 0

/-- What a load through rectangle `r` reads of the field after the stores `L`. -/
def tapOf (L : Field) (r : Rect S34x48x128) : r.shape.Idx → EReal := fun j => View.canon L (r.toLoadRect.idx j)

/-- One tap as a 1024×128 matrix: pixel-major rows. -/
def tapM (L : Field) (kh kw : Nat) (inb : ∀ a, (![kh, kw, 0] : Fin 3 → Nat) a + S32x32x128.size a ≤ S34x48x128.size a) :
    V S1024x128 :=
  shapeCast (s := S32x32x128) S1024x128 (tapOf L (Rect.unit (s := S34x48x128) ![kh, kw, 0] S32x32x128.size inb)) (by decide)

/-- Nine 1024×128 matrices side by side make a 1024×1152 matrix. -/
theorem nineWide : Shape.Concatenates [S1024x128, S1024x128, S1024x128, S1024x128, S1024x128, S1024x128, S1024x128, S1024x128, S1024x128]
    S1024x1152 1 := by decide

/-- The nine taps side by side: column group `t = 3·kh + kw` holds the tap at rows `kh..kh+31`, columns `7+kw..38+kw`. -/
def patchOf (L : Field) : V S1024x1152 :=
  concatenate S1024x1152 1
    [⟨S1024x128, tapM L 0 7 (by decide)⟩, ⟨S1024x128, tapM L 0 8 (by decide)⟩, ⟨S1024x128, tapM L 0 9 (by decide)⟩,
     ⟨S1024x128, tapM L 1 7 (by decide)⟩, ⟨S1024x128, tapM L 1 8 (by decide)⟩, ⟨S1024x128, tapM L 1 9 (by decide)⟩,
     ⟨S1024x128, tapM L 2 7 (by decide)⟩, ⟨S1024x128, tapM L 2 8 (by decide)⟩, ⟨S1024x128, tapM L 2 9 (by decide)⟩]
    nineWide

/-- Clip below at zero, entry by entry. -/
def relu (X : V S1024x128) : V S1024x128 :=
  maximumf (F := Ideal) (φ := .f32) X (broadcast S1024x128 (Scalar.ofBits (F := Ideal) .f32 0x00000000#32))

/-- Scale and shift channel by channel, then lay the 1024 rows out as 32×32 pixels. -/
def bn (X : V S1024x128) (s h : V S1x128) : V S32x32x128 :=
  shapeCast S32x32x128
    (addf (F := Ideal) (φ := .f32) (mulf (F := Ideal) (φ := .f32) X (broadcastTo S1024x128 s (by decide)))
      (broadcastTo S1024x128 h (by decide)))
    (by decide)

/-- The 3×3 layer with 256 output columns: the patch matrix times the weights, plus the bias row. -/
def conv256 (L : Field) (W : V S1152x256) (B : V S1x256) : V S1024x256 :=
  addf (F := Ideal) (φ := .f32)
    (matmul (F := Ideal) (φ₁ := .f32) (φ₂ := .f32) (DotDims.plain 1024 1152 256) none (patchOf L) W
      (constant S1024x256 .f32 0x00000000#32))
    (broadcastTo S1024x256 B (by decide))

/-- The 3×3 layer with 128 output columns. -/
def conv128 (L : Field) (W : V S1152x128) (B : V S1x128) : V S1024x128 :=
  addf (F := Ideal) (φ := .f32)
    (matmul (F := Ideal) (φ₁ := .f32) (φ₂ := .f32) (DotDims.plain 1024 1152 128) none (patchOf L) W
      (constant S1024x128 .f32 0x00000000#32))
    (broadcastTo S1024x128 B (by decide))

/-- The left and the right 128 columns of a 1024×256 matrix. -/
def lo (Y : V S1024x256) : V S1024x128 := extractStridedSlice S1024x128 ![0, 0] Y (by decide)
def hi (Y : V S1024x256) : V S1024x128 := extractStridedSlice S1024x128 ![0, 128] Y (by decide)

/-- Row `k` of a 4×128 parameter array. -/
def prow (a : V S4x128) (k : Nat) (inb : ∀ b, (![k, 0] : Fin 2 → Nat) b + S1x128.size b ≤ S4x128.size b) : V S1x128 :=
  View.ld (Val := Elt Ideal) (e' := .f32) a (Rect.unit (s := S4x128) ![k, 0] S1x128.size inb)

/-- Cell `k`'s slab of each weight and bias array, as a matrix. -/
def w256 (w : V S2x1152x256) (k : Nat) (inb : ∀ b, (![k, 0, 0] : Fin 3 → Nat) b + S1x1152x256.size b ≤ S2x1152x256.size b) :
    V S1152x256 :=
  shapeCast (s := S1x1152x256) S1152x256 (View.ld (Val := Elt Ideal) (e' := .f32) w (Rect.unit (s := S2x1152x256) ![k, 0, 0] S1x1152x256.size inb)) (by decide)
def b256 (b : V S2x1x256) (k : Nat) (inb : ∀ a, (![k, 0, 0] : Fin 3 → Nat) a + S1x1x256.size a ≤ S2x1x256.size a) : V S1x256 :=
  shapeCast (s := S1x1x256) S1x256 (View.ld (Val := Elt Ideal) (e' := .f32) b (Rect.unit (s := S2x1x256) ![k, 0, 0] S1x1x256.size inb)) (by decide)
def w128 (w : V S2x1152x128) (k : Nat) (inb : ∀ b, (![k, 0, 0] : Fin 3 → Nat) b + S1x1152x128.size b ≤ S2x1152x128.size b) :
    V S1152x128 :=
  shapeCast (s := S1x1152x128) S1152x128 (View.ld (Val := Elt Ideal) (e' := .f32) w (Rect.unit (s := S2x1152x128) ![k, 0, 0] S1x1152x128.size inb)) (by decide)
def b128 (b : V S2x1x128) (k : Nat) (inb : ∀ a, (![k, 0, 0] : Fin 3 → Nat) a + S1x1x128.size a ≤ S2x1x128.size a) : V S1x128 :=
  shapeCast (s := S1x1x128) S1x128 (View.ld (Val := Elt Ideal) (e' := .f32) b (Rect.unit (s := S2x1x128) ![k, 0, 0] S1x1x128.size inb)) (by decide)

/-- The image block as a 1024×128 matrix. -/
def img (x : V S1x32x32x128) : V S1024x128 :=
  shapeCast S1024x128 (shapeCast S32x32x128 x (by decide)) (by decide)

/-! ## The four layers' fields and the two cells -/

/-- The field after the first layer's interior store. -/
def field0 (x : V S1x32x32x128) (sc sh : V S4x128) : Field :=
  [⟨interior, bn (img x) (prow sc 0 (by decide)) (prow sh 0 (by decide))⟩, ⟨wholeField, zeroField⟩]

/-- The first cell's 256-column product. -/
def y0 (x : V S1x32x32x128) (sc sh : V S4x128) (w0 : V S2x1152x256) (b0 : V S2x1x256) : V S1024x256 :=
  conv256 (field0 x sc sh) (w256 w0 0 (by decide)) (b256 b0 0 (by decide))

def field1 (x : V S1x32x32x128) (sc sh : V S4x128) (w0 : V S2x1152x256) (b0 : V S2x1x256) : Field :=
  ⟨interior, bn (relu (lo (y0 x sc sh w0 b0))) (prow sc 1 (by decide)) (prow sh 1 (by decide))⟩ :: field0 x sc sh

/-- The first cell's result. -/
def cell1 (x : V S1x32x32x128) (sc sh : V S4x128) (w0 : V S2x1152x256) (b0 : V S2x1x256) (w1 : V S2x1152x128)
    (b1 : V S2x1x128) : V S1024x128 :=
  addf (F := Ideal) (φ := .f32) (hi (y0 x sc sh w0 b0))
    (relu (conv128 (field1 x sc sh w0 b0) (w128 w1 0 (by decide)) (b128 b1 0 (by decide))))

def field2 (x : V S1x32x32x128) (sc sh : V S4x128) (w0 : V S2x1152x256) (b0 : V S2x1x256) (w1 : V S2x1152x128)
    (b1 : V S2x1x128) : Field :=
  ⟨interior, bn (cell1 x sc sh w0 b0 w1 b1) (prow sc 2 (by decide)) (prow sh 2 (by decide))⟩ :: field1 x sc sh w0 b0

/-- The second cell's 256-column product. -/
def y2 (x : V S1x32x32x128) (sc sh : V S4x128) (w0 : V S2x1152x256) (b0 : V S2x1x256) (w1 : V S2x1152x128)
    (b1 : V S2x1x128) : V S1024x256 :=
  conv256 (field2 x sc sh w0 b0 w1 b1) (w256 w0 1 (by decide)) (b256 b0 1 (by decide))

def field3 (x : V S1x32x32x128) (sc sh : V S4x128) (w0 : V S2x1152x256) (b0 : V S2x1x256) (w1 : V S2x1152x128)
    (b1 : V S2x1x128) : Field :=
  ⟨interior, bn (relu (lo (y2 x sc sh w0 b0 w1 b1))) (prow sc 3 (by decide)) (prow sh 3 (by decide))⟩
    :: field2 x sc sh w0 b0 w1 b1

/-- The image's features: the second cell's result, a 1024×128 matrix. -/
def feat (x : V S1x32x32x128) (sc sh : V S4x128) (w0 : V S2x1152x256) (b0 : V S2x1x256) (w1 : V S2x1152x128)
    (b1 : V S2x1x128) : V S1024x128 :=
  addf (F := Ideal) (φ := .f32) (hi (y2 x sc sh w0 b0 w1 b1))
    (relu (conv128 (field3 x sc sh w0 b0 w1 b1) (w128 w1 1 (by decide)) (b128 b1 1 (by decide))))

/-! ## The average over the pixels and the head -/

/-- The averaging weight: the value of the word 0x3A800000, which is 1/1024. -/
def wavg : EReal := Ideal.ofBits .f32 0x3A800000#32

/-- The average of the 1024 rows, channel by channel, as the column sum times the weight. -/
def pooled (Z : V S1024x128) (c : Fin 128) : EReal := (∑ r : Fin 1024, Z (ValueIdx.ix2 r c)) * wavg

/-- The head: the averages times the 128×1024 matrix, plus the bias row. -/
def logit (p : Fin 128 → EReal) (hw : V S128x1024) (hb : V S1x1024) (n : Fin 1024) : EReal :=
  (∑ c : Fin 128, p c * hw (ValueIdx.ix2 c n)) + hb (ValueIdx.ix2 0 n)

/-! ## The whole batch -/

abbrev S64x128x32x32 : Shape := ⟨4, ![64, 128, 32, 32]⟩
abbrev S64x1024 : Shape := ⟨2, ![64, 1024]⟩

/-- Image `b` of the batch as a 1×32×32×128 block, pixels first and channels last: entry (0, h, w, c) is the
    batch array's entry (b, c, h, w). -/
def xblk (a0 : V S64x128x32x32) (b : Fin 64) : V S1x32x32x128 :=
  fun y => a0 (ValueIdx.ix4 b ⟨(y 3).val, (y 3).isLt⟩ ⟨(y 1).val, (y 1).isLt⟩ ⟨(y 2).val, (y 2).isLt⟩)

/-- The average written the other way: the sum over the rows of the weighted entries. -/
def pooledR (Z : V S1024x128) (c : Fin 128) : EReal := ∑ r : Fin 1024, wavg * Z (ValueIdx.ix2 r c)

/-- The batch's logits: entry (b, n) is the head applied to the averaged features of image `b`. -/
def result (a0 : V S64x128x32x32) (sc sh : V S4x128) (w0 : V S2x1152x256) (b0 : V S2x1x256) (w1 : V S2x1152x128)
    (b1 : V S2x1x128) (hw : V S128x1024) (hb : V S1x1024) : V S64x1024 :=
  fun i => logit (pooled (feat (xblk a0 ⟨(i 0).val, (i 0).isLt⟩) sc sh w0 b0 w1 b1)) hw hb ⟨(i 1).val, (i 1).isLt⟩

/-! ## The two programs' own spellings of the average and the head -/

/-- The rows summed channel by channel, the sums times the weight; as a 1×1×128 block. -/
def poolK (Z : V S1024x128) : V S1x1x128 :=
  shapeCast (s := S1x128) S1x1x128
    (mulf (F := Ideal) (φ := .f32)
      (shapeCast (s := S128) S1x128 (multiReduction (F := Ideal) (φ := .f32) .add [0] S128 Z 0x00000000#32 (by decide) (.inl rfl) rfl) (by decide))
      (broadcast S1x128 (Scalar.ofBits (F := Ideal) .f32 0x3A800000#32)))
    (by decide)

/-- A 1×1024 row of the weight times the features (the average as a matrix product), then the head product plus its
    bias row; a 1×1024 row. -/
def headR (Z : V S1024x128) (hw : V S128x1024) (hb : V S1x1024) : V S1x1024 :=
  addf (F := Ideal) (φ := .f32)
    (matmul (F := Ideal) (φ₁ := .f32) (φ₂ := .f32) (DotDims.plain 1 128 1024) none
      (matmul (F := Ideal) (φ₁ := .f32) (φ₂ := .f32) (DotDims.plain 1 1024 128) none
        (broadcast S1x1024 (Scalar.ofBits (F := Ideal) .f32 0x3A800000#32)) Z (constant S1x128 .f32 0x00000000#32))
      hw (constant S1x1024 .f32 0x00000000#32))
    hb

end Cert.Enc

end
-- ==== Proof.LibPlainProduct.lean ====
/-
  A matrix product into a zero accumulator, read at an entry.

  For the plain dimension numbers (left operand contracted on its last axis, right operand on its first, no batch
  axis) the product of an m×k by a k×n matrix accumulated into the zero matrix has, at row `a` and column `b`, the
  value `∑ c, A (a, c) · B (c, b)` on the extended reals. This is the accumulating-product counterpart of the library's
  `dotGeneral_plain_apply`, with the same proof: the contraction's index set is one axis of extent `k`, re-indexed by
  `Fin k`, and the two operand indices at a contraction index are `(a, c)` and `(c, b)`.
-/
import Idealize.ShloMosaic.PureOps.Ideal.Laws
import Idealize.ShloMosaic.Lib.ValueIdx
import Idealize.ShloMosaic.Lib.StackMember

noncomputable section

namespace Cert.LibPlainProduct

open Idealize.ShloMosaic Idealize.ShloMosaic.ValueIdx

variable {m n : Nat}

/-- The left operand's index at output entry `(a, b)` and contraction coordinate `c` is `(a, c)`. -/
theorem plain_lhsIdx {k : Nat} (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output entry `(a, b)` and contraction coordinate `c` is `(c, b)`. -/
theorem plain_rhsIdx {k : Nat} (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The plain product of an m×k by a k×n matrix accumulated into zero, at entry `(a, b)`, is the sum over the
    contracted coordinate of the products of the entries. At the ideal values. -/
theorem matmul_plain_zero_apply {k : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Cert.LibPlainProduct

end
-- ==== Proof.EncLaws.lean ====
/-
  Three laws of the encoder's last steps, read entry by entry.

  The column sums times the weight, laid out as a 1×1×128 block, hold at (0, 0, c) the weighted column sum of column c.
  The row of logits computed as two matrix products — the constant weight row times the features, then that row times
  the head matrix — plus the bias row holds at (0, n) the head applied to the weighted entries' column sums. The two
  spellings of the average agree because the weight is a nonnegative real number, so multiplication by it distributes
  over every sum of extended reals.
-/
import proofs.«114523_g2000400755396518_pallasbulk_384_2_alg».proof.Proof.Enc
import proofs.«114523_g2000400755396518_pallasbulk_384_2_alg».proof.Proof.LibPlainProduct
import Idealize.ShloMosaic.PureOps.Ideal.Laws
import Idealize.ShloMosaic.Lib.ValueIdx
import Idealize.ShloMosaic.Lib.Pipeline.Value
import Idealize.ShloMosaic.Lib.ValueLayout

noncomputable section

namespace Cert.Enc

open Idealize.ShloMosaic Idealize.ShloMosaic.ValueIdx

/-- The column sums over the rows, read at a channel: the sum over the 1024 rows of that column. -/
theorem colsum_apply (Z : V S1024x128) (h : S1024x128.Reduces [0] S128) (hφ : FKind.Formats .f32)
    (hacc : (0x00000000#32 : BitVec 32) = 0x00000000#32) (c : Fin 128) :
    multiReduction (F := Ideal) (φ := .f32) .add [0] S128 Z 0x00000000#32 h hφ hacc (ix1 c)
      = ∑ r : Fin 1024, Z (ix2 r c) := by
  refine (Ideal.multiReduction_add_single (φ := .f32) Z 0x00000000#32 h hφ hacc (ix1 c)).trans ?_
  refine Finset.sum_congr rfl fun r _ => congrArg Z (funext fun a => Fin.ext ?_)
  match a with
  | ⟨0, _⟩ => rfl
  | ⟨1, _⟩ => rfl

theorem poolK_apply (Z : V S1024x128) (y : S1x1x128.Idx) : poolK Z y = pooled Z ⟨(y 2).val, (y 2).isLt⟩ := by
  unfold poolK pooled
  refine (shapeCast_addUnit_apply ![1, 128] _ _ y).trans ?_
  refine (mulf_apply (φ := .f32) _ _ _).trans ?_
  refine congrArg₂ (· * ·) ?_ rfl
  refine (shapeCast_addUnit_apply ![128] _ _ _).trans ?_
  have e : (fun a : Fin 1 => (fun a : Fin 2 => y a.succ) a.succ) = ix1 (⟨(y 2).val, (y 2).isLt⟩ : Fin 128) := by
    funext a; match a with | ⟨0, _⟩ => rfl
  rw [e]
  exact colsum_apply Z _ _ _ _

/-- The averaging weight is the real number 1/1024. -/
theorem wavg_eq : wavg = (((1 : ℝ) / 1024 : ℝ) : EReal) := by
  unfold wavg
  simp [Ideal.ofBits, Ideal.ieee, -EReal.coe_mul]; norm_num

/-- It is nonnegative … -/
theorem wavg_nonneg : 0 ≤ wavg := by
  rw [wavg_eq]; exact_mod_cast (by norm_num : (0 : ℝ) ≤ 1 / 1024)

/-- … and finite. -/
theorem wavg_ne_top : wavg ≠ ⊤ := by
  rw [wavg_eq]; exact EReal.coe_ne_top _

/-- Multiplication by the weight distributes over every finite sum of extended reals: a nonnegative real factor
    distributes over a sum of two, whatever their signs or infinities. -/
theorem wavg_mul_sum {ι : Type} (s : Finset ι) (f : ι → EReal) : wavg * ∑ i ∈ s, f i = ∑ i ∈ s, wavg * f i := by
  classical
  induction s using Finset.induction_on with
  | empty => simp
  | insert a s ha ih =>
    rw [Finset.sum_insert ha, Finset.sum_insert ha, EReal.left_distrib_of_nonneg_of_ne_top wavg_nonneg wavg_ne_top, ih]

/-- The two spellings of the average agree. -/
theorem pooledR_eq_pooled (Z : V S1024x128) (c : Fin 128) : pooledR Z c = pooled Z c := by
  unfold pooledR pooled
  rw [← wavg_mul_sum, mul_comm]

/-- The row of logits at (0, n): the weight row times the features is, at channel c, the sum over the rows of the
    weighted entries; that row times the head matrix, plus the bias row, is the head at n. -/
theorem headR_apply (Z : V S1024x128) (hw : V S128x1024) (hb : V S1x1024) (y : S1x1024.Idx) :
    headR Z hw hb y = logit (pooledR Z) hw hb ⟨(y 1).val, (y 1).isLt⟩ := by
  obtain ⟨a, n, rfl⟩ : ∃ (a : Fin 1) (n : Fin 1024), y = ix2 a n := ⟨y 0, y 1, eq_ix2 y⟩
  have ha : a = 0 := Subsingleton.elim _ _
  subst ha
  unfold headR logit
  refine (addf_apply (φ := .f32) _ _ _).trans ?_
  refine congrArg₂ (· + ·) ?_ rfl
  refine (Cert.LibPlainProduct.matmul_plain_zero_apply none _ hw 0 n).trans ?_
  refine Finset.sum_congr rfl fun c _ => congrArg (· * hw (ix2 c n)) ?_
  refine (Cert.LibPlainProduct.matmul_plain_zero_apply none _ Z 0 c).trans ?_
  rfl

end Cert.Enc

end
-- ==== Proof.LibCanon.lean ====
/-
  Pieces laid over earlier pieces.

  A buffer's contents after a list of rectangle stores (last first) are, at each index, the payload of the first piece
  whose rectangle holds the index. When the later pieces `L` are all blocks of ONE function `G` of the buffer's index
  (piece `p` at its local index `x` is `G (p.emb x)`), the contents after `L` laid over any earlier pieces `L₀` are `G`
  wherever some piece of `L` reaches and the contents after `L₀` elsewhere — however many pieces, in whatever order.
  This is the form a buffer takes that is first filled whole (with zeros, say) and then partly overwritten tile by tile.
-/
import Idealize.ShloMosaic.Lib.Pipeline.Value

noncomputable section

namespace Cert.LibCanon

open Idealize.ShloMosaic

variable {Val : EltTy → Type} {S : Shape} {e : EltTy}

/-- The contents after the pieces `L` (each a block of `G`) laid over the pieces `L₀`: `G` where `L` reaches,
    the contents after `L₀` elsewhere. -/
theorem canon_append_apply [∀ e, Nonempty (Val e)] (G : S.Idx → Val e) (L₀ : List (View.Piece Val S e)) :
    ∀ (L : List (View.Piece Val S e)) (_ : ∀ p ∈ L, ∀ x : p.1.shape.Idx, p.2 x = G (p.1.emb x)) (y : S.Idx),
      View.canon (L ++ L₀) y = if (∃ p ∈ L, y ∈ p.1.set) then G y else View.canon L₀ y
  | [], _, y => by
    rw [if_neg (by rintro ⟨p, hp, _⟩; simp at hp)]; rfl
  | p :: L, hL, y => by
    by_cases hm : y ∈ p.1.set
    · rw [if_pos ⟨p, by simp, hm⟩]
      obtain ⟨x, rfl⟩ := p.1.exists_idx_of_mem hm
      rw [List.cons_append, show p.1.idx x = p.1.emb x from rfl, View.canon_cons_emb]
      exact hL p (by simp) x
    · rw [List.cons_append, View.canon_cons_of_not_mem _ _ hm,
        canon_append_apply G L₀ L (fun q hq => hL q (by simp [hq])) y]
      refine if_congr ⟨fun ⟨q, hq, hy⟩ => ⟨q, by simp [hq], hy⟩, fun ⟨q, hq, hy⟩ => ?_⟩ rfl rfl
      rcases List.mem_cons.mp hq with rfl | hq'
      · exact absurd hy hm
      · exact ⟨q, hq', hy⟩

/-- Where no piece of `L` reaches, the contents are those after `L₀`. -/
theorem canon_append_of_forall_not_mem [∀ e, Nonempty (Val e)] (L₀ : List (View.Piece Val S e)) :
    ∀ (L : List (View.Piece Val S e)) (y : S.Idx) (_ : ∀ p ∈ L, y ∉ p.1.set), View.canon (L ++ L₀) y = View.canon L₀ y
  | [], _, _ => rfl
  | p :: L, y, h => by
    rw [List.cons_append, View.canon_cons_of_not_mem _ _ (h p (by simp))]
    exact canon_append_of_forall_not_mem L₀ L y fun q hq => h q (by simp [hq])

/-! ## One store at a time, by coordinates

A store through the unit-stride rectangle at offsets `off` of sizes `sz` changes the contents exactly at the indices
`y` with `off a ≤ y a < off a + sz a` on every axis; there the new contents are the payload at `y − off`. A store
that first loads the rectangle's words and stores them back with a sub-box replaced (offsets `start` inside the
rectangle, the sub-box's own shape `U`) changes the contents exactly on the sub-box, `off a + start a ≤ y a <
off a + start a + U.size a`; there the new contents are the replacement at `y − off − start`. -/

section Steps

variable {sig : RefSig} {κ : Kind} {sp : Space}

/-- Off a rectangle a store through it changes nothing. -/
theorem canon_cons_unit_of_not_in [∀ e, Nonempty (Val e)] (off sz : Fin S.rank → Nat) (inb : ∀ a, off a + sz a ≤ S.size a)
    (w : (Rect.unit off sz inb).shape.Idx → Val e) (L : List (View.Piece Val S e)) (y : S.Idx)
    (hnot : ¬ ∀ a : Fin S.rank, off a ≤ (y a).val ∧ (y a).val < off a + sz a) :
    View.canon (⟨Rect.unit off sz inb, w⟩ :: L) y = View.canon L y :=
  View.canon_cons_of_not_mem _ _ (fun hm => hnot ((Rect.mem_set_unit (inb := inb)).mp hm))

/-- On the rectangle the contents are the payload at the local index. -/
theorem canon_cons_unit_of_in [∀ e, Nonempty (Val e)] (off sz : Fin S.rank → Nat) (inb : ∀ a, off a + sz a ≤ S.size a)
    (w : (Rect.unit off sz inb).shape.Idx → Val e) (L : List (View.Piece Val S e)) (y : S.Idx)
    (x : (Rect.unit off sz inb).shape.Idx) (hy : ∀ a : Fin S.rank, (y a).val = off a + (x a).val) :
    View.canon (⟨Rect.unit off sz inb, w⟩ :: L) y = w x := by
  have e : y = (Rect.unit off sz inb).emb x := funext fun a => Fin.ext (by rw [Rect.emb_apply]; simp only [Rect.off_unit, Rect.stride_unit, Nat.one_mul]; exact hy a)
  rw [e, View.canon_cons_emb]

/-- A store that puts back the words it loaded, with a sub-box replaced: off the sub-box nothing changes. -/
theorem canon_cons_updateSlice_of_not_in [∀ e, Nonempty (Val e)] (v : View sig κ sp S e)
    (off sz : Fin S.rank → Nat) (inb : ∀ a, off a + sz a ≤ S.size a) (L : List (View.Piece Val S e)) {U : Shape}
    (u : U.Idx → Val e) (start : Fin S.rank → Nat) (hsl : (Rect.unit off sz inb).shape.Slices start U) (y : S.Idx)
    (hnot : ¬ ∀ a : Fin S.rank, off a + start a ≤ (y a).val ∧ (y a).val < off a + start a + U.size (a.cast hsl.1.symm)) :
    View.canon (⟨Rect.unit off sz inb, updateSlice (v.readCov L (Rect.unit off sz inb).toLoadRect) u start hsl⟩ :: L) y
      = View.canon L y := by
  by_cases hm : y ∈ (Rect.unit off sz inb).set
  · obtain ⟨x, rfl⟩ := (Rect.unit off sz inb).exists_idx_of_mem hm
    rw [show (Rect.unit off sz inb).idx x = (Rect.unit off sz inb).emb x from rfl, View.canon_cons_emb]
    unfold updateSlice
    rw [dif_neg, View.readCov_eq_canon']
    · rfl
    · intro hin
      apply hnot
      intro a
      have h1 := hin a
      have e : (((Rect.unit off sz inb).idx x) a : Nat) = off a + 1 * (x a).val := rfl
      omega
  · exact View.canon_cons_of_not_mem _ _ hm

/-- On the sub-box the contents are the replacement at the local index. -/
theorem canon_cons_updateSlice_of_in [∀ e, Nonempty (Val e)] (v : View sig κ sp S e)
    (off sz : Fin S.rank → Nat) (inb : ∀ a, off a + sz a ≤ S.size a) (L : List (View.Piece Val S e)) {U : Shape}
    (u : U.Idx → Val e) (start : Fin S.rank → Nat) (hsl : (Rect.unit off sz inb).shape.Slices start U) (y : S.Idx)
    (x' : U.Idx) (hy : ∀ a : Fin S.rank, (y a).val = off a + start a + (x' (a.cast hsl.1.symm)).val) :
    View.canon (⟨Rect.unit off sz inb, updateSlice (v.readCov L (Rect.unit off sz inb).toLoadRect) u start hsl⟩ :: L) y
      = u x' := by
  have hm : y ∈ (Rect.unit off sz inb).set := Rect.mem_set_unit.mpr fun a => by
    have h1 := hy a
    have h2 : start a + U.size (a.cast hsl.1.symm) ≤ sz a := hsl.2 a
    have h3 := (x' (a.cast hsl.1.symm)).isLt
    omega
  obtain ⟨x, rfl⟩ := (Rect.unit off sz inb).exists_idx_of_mem hm
  rw [show (Rect.unit off sz inb).idx x = (Rect.unit off sz inb).emb x from rfl, View.canon_cons_emb]
  have hx : ∀ a : Fin S.rank, (x a).val = start a + (x' (a.cast hsl.1.symm)).val := fun a => by
    have h1 := hy a
    have e : (((Rect.unit off sz inb).idx x) a : Nat) = off a + 1 * (x a).val := rfl
    omega
  unfold updateSlice
  rw [dif_pos (fun a => by have := hx a; have := (x' (a.cast hsl.1.symm)).isLt; omega)]
  refine congrArg u (funext fun b => Fin.ext ?_)
  have := hx (b.cast hsl.1)
  show (x (b.cast hsl.1)).val - start (b.cast hsl.1) = (x' b).val
  have e : (b.cast hsl.1).cast hsl.1.symm = b := rfl
  rw [e] at this
  omega

end Steps

end Cert.LibCanon

end
-- ==== Proof.LibNineColumns.lean ====
/-
  Nine column groups side by side.

  A 1024×1152 buffer is written in nine stores, each through the unit-stride rectangle of all 1024 rows and the 128
  columns `128·t … 128·t + 127` (`t = 0 … 8`), with payloads the 1024×128 matrices `T0 … T8`. The contents of a buffer
  after a list of stores (newest first) are, at each index, the payload of the first store whose rectangle holds the
  index. The nine column ranges are disjoint and together hold every column `0 … 1151`, so at the index `(r, c)` the
  contents are `T_t (r, c − 128·t)` with `t = c / 128` — whatever older stores lie underneath. That is also what the
  concatenation of `T0 … T8` along the column axis reads at `(r, c)`: the piece whose span `128·t ≤ c < 128·t + 128`
  holds the column, at the column less the extents `128·t` of the pieces before it. A load through the whole-shape
  rectangle at zero offsets reads index `j` at `j` itself, so the buffer read whole is the concatenation.
-/
import Idealize.ShloMosaic.Lib.Pipeline.Value
import Idealize.ShloMosaic.Lib.ValueIdx
import proofs.«114523_g2000400755396518_pallasbulk_384_2_alg».proof.Proof.LibCanon

noncomputable section

namespace Cert.LibNineColumns

open Idealize.ShloMosaic

/-- The wide buffer: 1024 rows of 1152 columns. -/
abbrev SW : Shape := ⟨2, ![1024, 1152]⟩
/-- One column group: 1024 rows of 128 columns. -/
abbrev SC : Shape := ⟨2, ![1024, 128]⟩

variable {Val : EltTy → Type} {e : EltTy}

/-- The index `(r, c − c₀)` of a column group starting at column `c₀` under the wide buffer's index `(r, c)`. -/
def loc (c₀ : Nat) (j : SW.Idx) (h : (j 1).val < c₀ + 128) : SC.Idx :=
  ValueIdx.ix2 ⟨(j 0).val, (j 0).isLt⟩ ⟨(j 1).val - c₀, by omega⟩

/-- Off the column axis the local index has the wide index's coordinate. -/
theorem loc_off (c₀ : Nat) (j : SW.Idx) (h : (j 1).val < c₀ + 128) :
    ∀ b : Fin SC.rank, b.cast (rfl : SC.rank = SW.rank) ≠ (1 : Fin 2) → ((loc c₀ j h) b).val = (j (b.cast rfl)).val
  | ⟨0, _⟩, _ => rfl
  | ⟨1, _⟩, hne => absurd rfl hne

/-- On the column axis it is the wide index's column less the group's first column. -/
theorem loc_on (c₀ : Nat) (j : SW.Idx) (h0 : c₀ ≤ (j 1).val) (h : (j 1).val < c₀ + 128) :
    c₀ + ((loc c₀ j h) ((1 : Fin 2).cast (rfl : SC.rank = SW.rank).symm)).val = (j 1).val := by
  show c₀ + ((j 1).val - c₀) = (j 1).val
  omega

/-- A load through the whole-shape rectangle at zero offsets reads index `j` at `j`. -/
theorem whole_idx (inbW : ∀ a, (![0, 0] : Fin 2 → Nat) a + SW.size a ≤ SW.size a) (j : SW.Idx) :
    (Rect.unit (s := SW) ![0, 0] SW.size inbW).toLoadRect.idx j = j := by
  funext a
  apply Fin.ext
  match a with
  | ⟨0, _⟩ => show 0 + 1 * (j 0).val = (j 0).val; omega
  | ⟨1, _⟩ => show 0 + 1 * (j 1).val = (j 1).val; omega

/-- A store of a column group changes nothing at an index whose column is outside the group. -/
theorem canon_cons_col_of_not_in [∀ e, Nonempty (Val e)] (c₀ : Nat)
    (inb : ∀ a, (![0, c₀] : Fin 2 → Nat) a + SC.size a ≤ SW.size a) (T : SC.Idx → Val e)
    (L : List (View.Piece Val SW e)) (j : SW.Idx) (h : (j 1).val < c₀ ∨ c₀ + 128 ≤ (j 1).val) :
    View.canon ((⟨Rect.unit (s := SW) ![0, c₀] SC.size inb, T⟩ : View.Piece Val SW e) :: L) j = View.canon L j := by
  refine LibCanon.canon_cons_unit_of_not_in _ _ inb T L j (fun hall => ?_)
  have h1 : c₀ ≤ (j 1).val ∧ (j 1).val < c₀ + 128 := hall (1 : Fin 2)
  omega

/-- At an index whose column is in the group the contents are the group's payload at the local index. -/
theorem canon_cons_col_of_in [∀ e, Nonempty (Val e)] (c₀ : Nat)
    (inb : ∀ a, (![0, c₀] : Fin 2 → Nat) a + SC.size a ≤ SW.size a) (T : SC.Idx → Val e)
    (L : List (View.Piece Val SW e)) (j : SW.Idx) (h0 : c₀ ≤ (j 1).val) (h1 : (j 1).val < c₀ + 128) :
    View.canon ((⟨Rect.unit (s := SW) ![0, c₀] SC.size inb, T⟩ : View.Piece Val SW e) :: L) j = T (loc c₀ j h1) := by
  refine LibCanon.canon_cons_unit_of_in _ _ inb T L j (loc c₀ j h1) (fun a => ?_)
  match a with
  | ⟨0, _⟩ => show (j 0).val = 0 + (j 0).val; omega
  | ⟨1, _⟩ => show (j 1).val = c₀ + ((j 1).val - c₀); omega

/-- A concatenation along the column axis read at an index whose column lies in the span `c₀ … c₀ + 127` of its
    piece `k`, a 1024×128 matrix `T`: `T` at the local index. -/
theorem concatenate_cols_apply (xs : List ((s : Shape) × (s.Idx → Val e)))
    (h : Shape.Concatenates (xs.map (·.1)) SW (1 : Fin 2)) (j : SW.Idx)
    (k : Nat) (hk : k < xs.length) (T : SC.Idx → Val e) (hxk : xs[k] = ⟨SC, T⟩) {c₀ : Nat}
    (hpre : (((xs.take k).map (·.1)).map fun s => if h : s.rank = SW.rank then s.size ((1 : Fin 2).cast h.symm) else 0).sum = c₀)
    (h0 : c₀ ≤ (j 1).val) (h1 : (j 1).val < c₀ + 128) :
    concatenate SW (1 : Fin 2) xs h j = T (loc c₀ j h1) :=
  concatenate_apply_piece (1 : Fin 2) xs h j k hk SC T hxk rfl c₀ hpre (loc c₀ j h1) (loc_off c₀ j h1) (loc_on c₀ j h0 h1)

/-- **Nine column groups, stored newest first over anything, read whole, are the nine matrices side by side.** -/
theorem nineColumns {Val : EltTy → Type} [∀ e, Nonempty (Val e)] {e : EltTy}
      (inb0 : ∀ a, (![0, 0] : Fin 2 → Nat) a + SC.size a ≤ SW.size a)
      (inb1 : ∀ a, (![0, 128] : Fin 2 → Nat) a + SC.size a ≤ SW.size a)
      (inb2 : ∀ a, (![0, 256] : Fin 2 → Nat) a + SC.size a ≤ SW.size a)
      (inb3 : ∀ a, (![0, 384] : Fin 2 → Nat) a + SC.size a ≤ SW.size a)
      (inb4 : ∀ a, (![0, 512] : Fin 2 → Nat) a + SC.size a ≤ SW.size a)
      (inb5 : ∀ a, (![0, 640] : Fin 2 → Nat) a + SC.size a ≤ SW.size a)
      (inb6 : ∀ a, (![0, 768] : Fin 2 → Nat) a + SC.size a ≤ SW.size a)
      (inb7 : ∀ a, (![0, 896] : Fin 2 → Nat) a + SC.size a ≤ SW.size a)
      (inb8 : ∀ a, (![0, 1024] : Fin 2 → Nat) a + SC.size a ≤ SW.size a)
      (inbW : ∀ a, (![0, 0] : Fin 2 → Nat) a + SW.size a ≤ SW.size a)
      (T0 T1 T2 T3 T4 T5 T6 T7 T8 : SC.Idx → Val e) (Lq : List (View.Piece Val SW e))
      (h : Shape.Concatenates [SC, SC, SC, SC, SC, SC, SC, SC, SC] SW 1) :
      (fun j => View.canon
          ((⟨Rect.unit (s := SW) ![0, 1024] SC.size inb8, T8⟩ : View.Piece Val SW e) :: ⟨Rect.unit (s := SW) ![0, 896] SC.size inb7, T7⟩ ::
           ⟨Rect.unit (s := SW) ![0, 768] SC.size inb6, T6⟩ :: ⟨Rect.unit (s := SW) ![0, 640] SC.size inb5, T5⟩ ::
           ⟨Rect.unit (s := SW) ![0, 512] SC.size inb4, T4⟩ :: ⟨Rect.unit (s := SW) ![0, 384] SC.size inb3, T3⟩ ::
           ⟨Rect.unit (s := SW) ![0, 256] SC.size inb2, T2⟩ :: ⟨Rect.unit (s := SW) ![0, 128] SC.size inb1, T1⟩ ::
           ⟨Rect.unit (s := SW) ![0, 0] SC.size inb0, T0⟩ :: Lq)
          ((Rect.unit (s := SW) ![0, 0] SW.size inbW).toLoadRect.idx j))
        = concatenate SW 1 [⟨SC, T0⟩, ⟨SC, T1⟩, ⟨SC, T2⟩, ⟨SC, T3⟩, ⟨SC, T4⟩, ⟨SC, T5⟩, ⟨SC, T6⟩, ⟨SC, T7⟩, ⟨SC, T8⟩] h := by
  refine funext fun (j : SW.Idx) => ?_
  show View.canon _ ((Rect.unit (s := SW) ![0, 0] SW.size inbW).toLoadRect.idx j) = _
  rw [whole_idx inbW j]
  have hlt : (j 1).val < 1152 := (j 1).isLt
  by_cases h8 : 1024 ≤ (j 1).val
  · rw [canon_cons_col_of_in 1024 inb8 T8 _ j h8 (by omega)]
    exact (concatenate_cols_apply [⟨SC, T0⟩, ⟨SC, T1⟩, ⟨SC, T2⟩, ⟨SC, T3⟩, ⟨SC, T4⟩, ⟨SC, T5⟩, ⟨SC, T6⟩, ⟨SC, T7⟩, ⟨SC, T8⟩] h j 8 (by show 8 < 9; omega) T8 rfl (c₀ := 1024) rfl h8 (by omega)).symm
  rw [canon_cons_col_of_not_in 1024 inb8 T8 _ j (Or.inl (by omega))]
  by_cases h7 : 896 ≤ (j 1).val
  · rw [canon_cons_col_of_in 896 inb7 T7 _ j h7 (by omega)]
    exact (concatenate_cols_apply [⟨SC, T0⟩, ⟨SC, T1⟩, ⟨SC, T2⟩, ⟨SC, T3⟩, ⟨SC, T4⟩, ⟨SC, T5⟩, ⟨SC, T6⟩, ⟨SC, T7⟩, ⟨SC, T8⟩] h j 7 (by show 7 < 9; omega) T7 rfl (c₀ := 896) rfl h7 (by omega)).symm
  rw [canon_cons_col_of_not_in 896 inb7 T7 _ j (Or.inl (by omega))]
  by_cases h6 : 768 ≤ (j 1).val
  · rw [canon_cons_col_of_in 768 inb6 T6 _ j h6 (by omega)]
    exact (concatenate_cols_apply [⟨SC, T0⟩, ⟨SC, T1⟩, ⟨SC, T2⟩, ⟨SC, T3⟩, ⟨SC, T4⟩, ⟨SC, T5⟩, ⟨SC, T6⟩, ⟨SC, T7⟩, ⟨SC, T8⟩] h j 6 (by show 6 < 9; omega) T6 rfl (c₀ := 768) rfl h6 (by omega)).symm
  rw [canon_cons_col_of_not_in 768 inb6 T6 _ j (Or.inl (by omega))]
  by_cases h5 : 640 ≤ (j 1).val
  · rw [canon_cons_col_of_in 640 inb5 T5 _ j h5 (by omega)]
    exact (concatenate_cols_apply [⟨SC, T0⟩, ⟨SC, T1⟩, ⟨SC, T2⟩, ⟨SC, T3⟩, ⟨SC, T4⟩, ⟨SC, T5⟩, ⟨SC, T6⟩, ⟨SC, T7⟩, ⟨SC, T8⟩] h j 5 (by show 5 < 9; omega) T5 rfl (c₀ := 640) rfl h5 (by omega)).symm
  rw [canon_cons_col_of_not_in 640 inb5 T5 _ j (Or.inl (by omega))]
  by_cases h4 : 512 ≤ (j 1).val
  · rw [canon_cons_col_of_in 512 inb4 T4 _ j h4 (by omega)]
    exact (concatenate_cols_apply [⟨SC, T0⟩, ⟨SC, T1⟩, ⟨SC, T2⟩, ⟨SC, T3⟩, ⟨SC, T4⟩, ⟨SC, T5⟩, ⟨SC, T6⟩, ⟨SC, T7⟩, ⟨SC, T8⟩] h j 4 (by show 4 < 9; omega) T4 rfl (c₀ := 512) rfl h4 (by omega)).symm
  rw [canon_cons_col_of_not_in 512 inb4 T4 _ j (Or.inl (by omega))]
  by_cases h3 : 384 ≤ (j 1).val
  · rw [canon_cons_col_of_in 384 inb3 T3 _ j h3 (by omega)]
    exact (concatenate_cols_apply [⟨SC, T0⟩, ⟨SC, T1⟩, ⟨SC, T2⟩, ⟨SC, T3⟩, ⟨SC, T4⟩, ⟨SC, T5⟩, ⟨SC, T6⟩, ⟨SC, T7⟩, ⟨SC, T8⟩] h j 3 (by show 3 < 9; omega) T3 rfl (c₀ := 384) rfl h3 (by omega)).symm
  rw [canon_cons_col_of_not_in 384 inb3 T3 _ j (Or.inl (by omega))]
  by_cases h2 : 256 ≤ (j 1).val
  · rw [canon_cons_col_of_in 256 inb2 T2 _ j h2 (by omega)]
    exact (concatenate_cols_apply [⟨SC, T0⟩, ⟨SC, T1⟩, ⟨SC, T2⟩, ⟨SC, T3⟩, ⟨SC, T4⟩, ⟨SC, T5⟩, ⟨SC, T6⟩, ⟨SC, T7⟩, ⟨SC, T8⟩] h j 2 (by show 2 < 9; omega) T2 rfl (c₀ := 256) rfl h2 (by omega)).symm
  rw [canon_cons_col_of_not_in 256 inb2 T2 _ j (Or.inl (by omega))]
  by_cases h1 : 128 ≤ (j 1).val
  · rw [canon_cons_col_of_in 128 inb1 T1 _ j h1 (by omega)]
    exact (concatenate_cols_apply [⟨SC, T0⟩, ⟨SC, T1⟩, ⟨SC, T2⟩, ⟨SC, T3⟩, ⟨SC, T4⟩, ⟨SC, T5⟩, ⟨SC, T6⟩, ⟨SC, T7⟩, ⟨SC, T8⟩] h j 1 (by show 1 < 9; omega) T1 rfl (c₀ := 128) rfl h1 (by omega)).symm
  rw [canon_cons_col_of_not_in 128 inb1 T1 _ j (Or.inl (by omega))]
  rw [canon_cons_col_of_in 0 inb0 T0 _ j (Nat.zero_le _) (by omega)]
  exact (concatenate_cols_apply [⟨SC, T0⟩, ⟨SC, T1⟩, ⟨SC, T2⟩, ⟨SC, T3⟩, ⟨SC, T4⟩, ⟨SC, T5⟩, ⟨SC, T6⟩, ⟨SC, T7⟩, ⟨SC, T8⟩] h j 0 (by show 0 < 9; omega) T0 rfl (c₀ := 0) rfl (Nat.zero_le _) (by omega)).symm

end Cert.LibNineColumns

end
-- ==== Proof.KBody.lean ====
/-
  The kernel's encoder body read as a value.

  At one grid point the body normalises the image block, stores it into the interior of a zeroed 34×48×128 field,
  copies the nine 3×3 taps of the field into the nine 128-column groups of a 1024×1152 buffer, reads that buffer
  back whole and multiplies it by the layer's weights; it does this four times (two cells of two layers), each time
  storing the next layer's input into the same interior and overwriting the same nine column groups. What the
  buffer holds when it is read back is therefore the nine newest taps side by side, whatever was stored before; and
  a tap reads the newest interior store over the zero fill. The contents the body's run found are named stage by
  stage below and identified with the specification's fields, products and cells; the last stage is the column sums
  of the second cell's result times the averaging weight.

  The kernel keeps the field and the buffer in a 16-bit format; an extended real has no format, so the only trace
  of it here is the element-type index of the store lists, which `canon16` changes.
-/
import proofs.«114523_g2000400755396518_pallasbulk_384_2_alg».proof.Proof.Gen.KernelIdeal.Frame
import proofs.«114523_g2000400755396518_pallasbulk_384_2_alg».proof.Proof.Enc
import Idealize.ShloMosaic.Lib.WholeRead
import proofs.«114523_g2000400755396518_pallasbulk_384_2_alg».proof.Proof.LibNineColumns

set_option maxRecDepth 16384

noncomputable section

namespace Cert.KernelIdeal.Body

open Idealize.ShloMosaic Cert.KernelIdeal Cert.KernelIdeal.Gen

/-! ## Loads of the staged blocks, and the store lists' element type -/

/-- A load from a whole staging buffer that holds `X` reads `X` at the load's indices. -/
theorem readAt_unread_fun {sig : RefSig} {κ : Kind} {sp : Space} {s : Shape} {e : EltTy} {m : Memref sig κ sp s e}
    (h : m.IsWhole) (X : s.Idx → Elt Ideal e) (B : LoadRect s) :
    View.readAt (Elt Ideal) m.view B (h.unread X) = fun x => X (B.idx x) :=
  funext (Memref.IsWhole.readAt_unread h X B)

/-- The contents a store list leaves do not depend on the format its entries are labelled with. -/
theorem canon16 {S : Shape} (L : List (View.Piece (Elt Ideal) S .bf16)) :
    @View.canon S .bf16 (Elt Ideal) _ L = @View.canon S .f32 (Elt Ideal) _ L := by
  induction L with
  | nil => rfl
  | cons p L ih => rw [View.canon_cons, View.canon_cons (e := .f32), ih]

/-- A tap load from the field after the stores `L`. -/
theorem tap_eq (v : View sig .tc .vmem S34x48x128 .bf16) (L : Cert.Enc.Field) (r : Rect S34x48x128) :
    View.readCov (Val := Elt Ideal) v L r.toLoadRect = Cert.Enc.tapOf L r := by
  unfold Cert.Enc.tapOf
  rw [View.readCov_eq_canon', canon16]

/-! ## The payloads against the specification's functions -/

theorem zero_eq : k0_pay5 (F := Ideal) = Cert.Enc.zeroField := by
  unfold k0_pay5 Cert.Enc.zeroField
  simp only [shapeCast_self]
  funext y
  simp [broadcast, Scalar.ofBits, Ideal.ofBits, Ideal.ieee]

theorem bn0_eq (x0 : Vec Ideal S1x32x32x128 .bf16) (s h : Vec Ideal S1x128 .f32) :
    k0_pay8 (F := Ideal) x0 s h = Cert.Enc.bn (Cert.Enc.img x0) s h := by
  unfold k0_pay8 Cert.Enc.bn Cert.Enc.img
  simp only [shapeCast_self]
  rfl

section Run
variable (c : Dev nD)
  (arg1 : Memref sig .tc .vmem S1x32x32x128 .bf16) (harg1 : arg1.IsWhole) (arg2 : Memref sig .tc .vmem S4x128 .f32) (harg2 : arg2.IsWhole)
  (arg3 : Memref sig .tc .vmem S4x128 .f32) (harg3 : arg3.IsWhole) (arg4 : Memref sig .tc .vmem S2x1152x256 .bf16) (harg4 : arg4.IsWhole)
  (arg5 : Memref sig .tc .vmem S2x1x256 .f32) (harg5 : arg5.IsWhole) (arg6 : Memref sig .tc .vmem S2x1152x128 .bf16) (harg6 : arg6.IsWhole)
  (arg7 : Memref sig .tc .vmem S2x1x128 .f32) (harg7 : arg7.IsWhole)
  (arg9 : Memref sig .tc .vmem S34x48x128 .bf16) (arg10 : Memref sig .tc .vmem S1024x1152 .bf16)
  (x0 : Vec Ideal S1x32x32x128 .bf16) (x1 x2 : Vec Ideal S4x128 .f32) (x3 : Vec Ideal S2x1152x256 .bf16) (x4 : Vec Ideal S2x1x256 .f32)
  (x5 : Vec Ideal S2x1152x128 .bf16) (x6 : Vec Ideal S2x1x128 .f32)

/-! ## The first layer -/

/-- The field after the zero fill and the first interior store. -/
theorem HS0_2_eq : kernelRun0_A.sl.HS0_2 (F := Ideal) c arg1 harg1 arg2 harg2 arg3 harg3 x0 x1 x2 = Cert.Enc.field0 x0 x1 x2 := by
  unfold kernelRun0_A.sl.HS0_2 Cert.Enc.field0
  rw [readAt_unread_fun harg1, readAt_unread_fun harg2, readAt_unread_fun harg3, zero_eq, bn0_eq]
  rw [show (fun x => x0 ((Rect.unit (s := S1x32x32x128) ![0, 0, 0, 0] S1x32x32x128.size inb_S1x32x32x128_S1x32x32x128_0_0_0_0).toLoadRect.idx x)) = x0 from
    View.ld_unit_zero (S := S1x32x32x128) (funext fun a => by fin_cases a <;> rfl) _ x0]
  rfl

/-- The buffer read back after the first nine tap stores: the first field's taps side by side. -/
theorem v68_eq : kernelRun0_A.sl.v68 (F := Ideal) c arg1 harg1 arg2 harg2 arg3 harg3 arg9 arg10 x0 x1 x2 = Cert.Enc.patchOf (Cert.Enc.field0 x0 x1 x2) := by
  unfold kernelRun0_A.sl.v68 kernelRun0_A.sl.HS1_9 kernelRun0_A.sl.r_2 kernelRun0_A.sl.v23 kernelRun0_A.sl.v28 kernelRun0_A.sl.v33 kernelRun0_A.sl.v38 kernelRun0_A.sl.v43 kernelRun0_A.sl.v48 kernelRun0_A.sl.v53 kernelRun0_A.sl.v58 kernelRun0_A.sl.v63
  rw [HS0_2_eq]
  simp only [tap_eq]
  unfold k0_pay9 k0_pay10 k0_pay11 k0_pay12 k0_pay13 k0_pay14 k0_pay15 k0_pay16 k0_pay17 k0_pay18
  simp only [shapeCast_self]
  rw [View.readCov_eq_canon']
  refine (Cert.LibNineColumns.nineColumns _ _ _ _ _ _ _ _ _ _ _ _ _ _ _ _ _ _ _ _ Cert.Enc.nineWide).trans ?_
  unfold Cert.Enc.patchOf Cert.Enc.tapM
  rfl

/-- The first layer's 256-column product. -/
theorem r_3_eq : kernelRun0_A.sl.r_3 (F := Ideal) c arg1 harg1 arg2 harg2 arg3 harg3 arg4 harg4 arg5 harg5 arg9 arg10 x0 x1 x2 x3 x4 = Cert.Enc.y0 x0 x1 x2 x3 x4 := by
  unfold kernelRun0_A.sl.r_3 kernelRun0_A.sl.r kernelRun0_A.sl.r_1
  rw [v68_eq, readAt_unread_fun harg4, readAt_unread_fun harg5]
  unfold Cert.Enc.y0 Cert.Enc.conv256 Cert.Enc.w256 Cert.Enc.b256 k0_pay19 k0_pay6 k0_pay7
  rfl

/-! ## The second layer -/

/-- The field after the second interior store: the left half of the product, clipped and normalised. -/
theorem HS0_3_eq : kernelRun0_A.sl.HS0_3 (F := Ideal) c arg1 harg1 arg2 harg2 arg3 harg3 arg4 harg4 arg5 harg5 arg9 arg10 x0 x1 x2 x3 x4 = Cert.Enc.field1 x0 x1 x2 x3 x4 := by
  unfold kernelRun0_A.sl.HS0_3 kernelRun0_A.sl.r_6 kernelRun0_A.sl.r kernelRun0_A.sl.r_1
  rw [HS0_2_eq, v68_eq, readAt_unread_fun harg4, readAt_unread_fun harg5, readAt_unread_fun harg2, readAt_unread_fun harg3]
  unfold Cert.Enc.field1 Cert.Enc.y0 Cert.Enc.conv256 Cert.Enc.w256 Cert.Enc.b256 Cert.Enc.bn Cert.Enc.relu Cert.Enc.lo Cert.Enc.prow
    k0_pay23 k0_pay22 k0_pay19 k0_pay6 k0_pay7
  simp only [shapeCast_self]
  rfl

/-- The buffer read back after the second nine tap stores: the newest nine cover every column, so the older ones do not show. -/
theorem v135_eq : kernelRun0_A.sl.v135 (F := Ideal) c arg1 harg1 arg2 harg2 arg3 harg3 arg4 harg4 arg5 harg5 arg9 arg10 x0 x1 x2 x3 x4 = Cert.Enc.patchOf (Cert.Enc.field1 x0 x1 x2 x3 x4) := by
  unfold kernelRun0_A.sl.v135 kernelRun0_A.sl.HS1_18 kernelRun0_A.sl.r_7 kernelRun0_A.sl.v90 kernelRun0_A.sl.v95 kernelRun0_A.sl.v100 kernelRun0_A.sl.v105 kernelRun0_A.sl.v110 kernelRun0_A.sl.v115 kernelRun0_A.sl.v120 kernelRun0_A.sl.v125 kernelRun0_A.sl.v130
  rw [HS0_3_eq]
  simp only [tap_eq]
  unfold k0_pay24 k0_pay25 k0_pay26 k0_pay27 k0_pay28 k0_pay29 k0_pay30 k0_pay31 k0_pay32
  simp only [shapeCast_self]
  rw [View.readCov_eq_canon']
  refine (Cert.LibNineColumns.nineColumns _ _ _ _ _ _ _ _ _ _ _ _ _ _ _ _ _ _ _ _ Cert.Enc.nineWide).trans ?_
  unfold Cert.Enc.patchOf Cert.Enc.tapM
  rfl

/-- The first cell's result: the right half of the first product plus the second product clipped at zero. -/
theorem r_8_eq : kernelRun0_A.sl.r_8 (F := Ideal) c arg1 harg1 arg2 harg2 arg3 harg3 arg4 harg4 arg5 harg5 arg6 harg6 arg7 harg7 arg9 arg10 x0 x1 x2 x3 x4 x5 x6 = Cert.Enc.cell1 x0 x1 x2 x3 x4 x5 x6 := by
  unfold kernelRun0_A.sl.r_8 kernelRun0_A.sl.r_4 kernelRun0_A.sl.r_5
  rw [r_3_eq, v135_eq, readAt_unread_fun harg6, readAt_unread_fun harg7]
  unfold Cert.Enc.cell1 Cert.Enc.conv128 Cert.Enc.w128 Cert.Enc.b128 Cert.Enc.relu Cert.Enc.hi k0_pay33 k0_pay20 k0_pay21
  rfl

/-! ## The second cell -/

theorem HS0_4_eq : kernelRun0_A.sl.HS0_4 (F := Ideal) c arg1 harg1 arg2 harg2 arg3 harg3 arg4 harg4 arg5 harg5 arg6 harg6 arg7 harg7 arg9 arg10 x0 x1 x2 x3 x4 x5 x6 = Cert.Enc.field2 x0 x1 x2 x3 x4 x5 x6 := by
  unfold kernelRun0_A.sl.HS0_4
  rw [HS0_3_eq, r_8_eq, readAt_unread_fun harg2, readAt_unread_fun harg3]
  unfold Cert.Enc.field2 Cert.Enc.bn Cert.Enc.prow k0_pay36
  simp only [shapeCast_self]
  rfl

theorem v203_eq : kernelRun0_A.sl.v203 (F := Ideal) c arg1 harg1 arg2 harg2 arg3 harg3 arg4 harg4 arg5 harg5 arg6 harg6 arg7 harg7 arg9 arg10 x0 x1 x2 x3 x4 x5 x6 = Cert.Enc.patchOf (Cert.Enc.field2 x0 x1 x2 x3 x4 x5 x6) := by
  unfold kernelRun0_A.sl.v203 kernelRun0_A.sl.HS1_27 kernelRun0_A.sl.r_11 kernelRun0_A.sl.v158 kernelRun0_A.sl.v163 kernelRun0_A.sl.v168 kernelRun0_A.sl.v173 kernelRun0_A.sl.v178 kernelRun0_A.sl.v183 kernelRun0_A.sl.v188 kernelRun0_A.sl.v193 kernelRun0_A.sl.v198
  rw [HS0_4_eq]
  simp only [tap_eq]
  unfold k0_pay37 k0_pay38 k0_pay39 k0_pay40 k0_pay41 k0_pay42 k0_pay43 k0_pay44 k0_pay45 k0_pay46
  simp only [shapeCast_self]
  rw [View.readCov_eq_canon']
  refine (Cert.LibNineColumns.nineColumns _ _ _ _ _ _ _ _ _ _ _ _ _ _ _ _ _ _ _ _ Cert.Enc.nineWide).trans ?_
  unfold Cert.Enc.patchOf Cert.Enc.tapM
  rfl

theorem r_12_eq : kernelRun0_A.sl.r_12 (F := Ideal) c arg1 harg1 arg2 harg2 arg3 harg3 arg4 harg4 arg5 harg5 arg6 harg6 arg7 harg7 arg9 arg10 x0 x1 x2 x3 x4 x5 x6 = Cert.Enc.y2 x0 x1 x2 x3 x4 x5 x6 := by
  unfold kernelRun0_A.sl.r_12 kernelRun0_A.sl.r_9 kernelRun0_A.sl.r_10
  rw [v203_eq, readAt_unread_fun harg4, readAt_unread_fun harg5]
  unfold Cert.Enc.y2 Cert.Enc.conv256 Cert.Enc.w256 Cert.Enc.b256 k0_pay47 k0_pay34 k0_pay35
  rfl

theorem HS0_5_eq : kernelRun0_A.sl.HS0_5 (F := Ideal) c arg1 harg1 arg2 harg2 arg3 harg3 arg4 harg4 arg5 harg5 arg6 harg6 arg7 harg7 arg9 arg10 x0 x1 x2 x3 x4 x5 x6 = Cert.Enc.field3 x0 x1 x2 x3 x4 x5 x6 := by
  unfold kernelRun0_A.sl.HS0_5 kernelRun0_A.sl.r_9 kernelRun0_A.sl.r_10
  rw [HS0_4_eq, v203_eq, readAt_unread_fun harg4, readAt_unread_fun harg5, readAt_unread_fun harg2, readAt_unread_fun harg3]
  unfold Cert.Enc.field3 Cert.Enc.y2 Cert.Enc.conv256 Cert.Enc.w256 Cert.Enc.b256 Cert.Enc.bn Cert.Enc.relu Cert.Enc.lo Cert.Enc.prow
    k0_pay50 k0_pay47 k0_pay34 k0_pay35
  simp only [shapeCast_self]
  rfl

theorem v270_eq : kernelRun0_A.sl.v270 (F := Ideal) c arg1 harg1 arg2 harg2 arg3 harg3 arg4 harg4 arg5 harg5 arg6 harg6 arg7 harg7 arg9 arg10 x0 x1 x2 x3 x4 x5 x6 = Cert.Enc.patchOf (Cert.Enc.field3 x0 x1 x2 x3 x4 x5 x6) := by
  unfold kernelRun0_A.sl.v270 kernelRun0_A.sl.HS1_36 kernelRun0_A.sl.r_15 kernelRun0_A.sl.v225 kernelRun0_A.sl.v230 kernelRun0_A.sl.v235 kernelRun0_A.sl.v240 kernelRun0_A.sl.v245 kernelRun0_A.sl.v250 kernelRun0_A.sl.v255 kernelRun0_A.sl.v260 kernelRun0_A.sl.v265
  rw [HS0_5_eq]
  simp only [tap_eq]
  unfold k0_pay51 k0_pay52 k0_pay53 k0_pay54 k0_pay55 k0_pay56 k0_pay57 k0_pay1 k0_pay2 k0_pay3
  simp only [shapeCast_self]
  rw [View.readCov_eq_canon']
  refine (Cert.LibNineColumns.nineColumns _ _ _ _ _ _ _ _ _ _ _ _ _ _ _ _ _ _ _ _ Cert.Enc.nineWide).trans ?_
  unfold Cert.Enc.patchOf Cert.Enc.tapM
  rfl

/-! ## What the body leaves in its output block -/

/-- The run's one store into the output block: the column sums of the second cell's result times the weight. -/
theorem witness_eq (i : grid0.Coords) (arg8 : Memref sig .tc .vmem S1x1x128 .f32) (harg8 : arg8.IsWhole) (harg9 : arg9.IsWhole)
    (harg10 : arg10.IsWhole) :
    (kernelRun0_A (F := Ideal) c i arg1 harg1 arg2 harg2 arg3 harg3 arg4 harg4 arg5 harg5 arg6 harg6 arg7 harg7 arg8 harg8 arg9 harg9 arg10 harg10
        x0 x1 x2 x3 x4 x5 x6).1
      = [⟨Rect.unit (s := S1x1x128) ![0, 0, 0] S1x1x128.size inb_S1x1x128_S1x1x128_0_0_0, Cert.Enc.poolK (Cert.Enc.feat x0 x1 x2 x3 x4 x5 x6)⟩] := by
  unfold kernelRun0_A
  dsimp only
  rw [r_12_eq, v270_eq]
  unfold kernelRun0_A.sl.r_13 kernelRun0_A.sl.r_14
  rw [readAt_unread_fun harg6, readAt_unread_fun harg7]
  unfold k0_pay4 k0_pay48 k0_pay49 Cert.Enc.poolK Cert.Enc.feat Cert.Enc.conv128 Cert.Enc.w128 Cert.Enc.b128 Cert.Enc.relu Cert.Enc.hi
  rfl

/-- The output block after the body, whatever it held before. -/
theorem out_eq (i : grid0.Coords) (arg8 : Memref sig .tc .vmem S1x1x128 .f32) (harg8 : arg8.IsWhole) (harg9 : arg9.IsWhole)
    (harg10 : arg10.IsWhole) :
    out0_A_7 (F := Ideal) c i arg1 harg1 arg2 harg2 arg3 harg3 arg4 harg4 arg5 harg5 arg6 harg6 arg7 harg7 arg8 harg8 arg9 harg9 arg10 harg10
        x0 x1 x2 x3 x4 x5 x6
      = Cert.Enc.poolK (Cert.Enc.feat x0 x1 x2 x3 x4 x5 x6) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4 x5 x6),
    witness_eq]
  exact View.canon_unit_zero (funext fun a => by fin_cases a <;> rfl) _ _

end Run
end Cert.KernelIdeal.Body
end
-- ==== Proof.RBody.lean ====
/-
  The reference program's kernel body read as a value.

  The body keeps one 34×48×128 field and makes five stores into it: the zero fill, then one interior store per
  layer. Each layer loads the nine 3×3 taps of the field as it then stands, puts them side by side and multiplies
  by that layer's weights. Stage by stage, the list of stores made so far is the specification's field after the
  same layer, every tap load reads the newest store at each position, and every value the body computes from the
  taps is the specification's function of the same field. The last value is the head of the image's features, and
  the body's one store into its output block leaves exactly that row.
-/
import proofs.«114523_g2000400755396518_pallasbulk_384_2_alg».proof.Proof.Gen.ReferenceIdeal.Frame
import proofs.«114523_g2000400755396518_pallasbulk_384_2_alg».proof.Proof.Enc

set_option maxRecDepth 16384

noncomputable section

namespace Cert.ReferenceIdeal.Body

open Idealize.ShloMosaic Cert.ReferenceIdeal Cert.ReferenceIdeal.Gen

/-! ## Generic facts -/

theorem hz2 : (![0, 0] : Fin 2 → Nat) = fun _ => 0 := by funext a; fin_cases a <;> rfl
theorem hz3 : (![0, 0, 0] : Fin 3 → Nat) = fun _ => 0 := by funext a; fin_cases a <;> rfl
theorem hz4 : (![0, 0, 0, 0] : Fin 4 → Nat) = fun _ => 0 := by funext a; fin_cases a <;> rfl

/-- A load of a staged block through a rectangle reads the block at the rectangle's indices. -/
theorem load_eq {S : Shape} (m : Memref sig .tc .vmem S .f32) (h : m.IsWhole) (X : Vec Ideal S .f32) (r : Rect S) :
    View.readAt (Elt Ideal) m.view r.toLoadRect (h.unread X) = View.ld X r := by
  rw [View.readAt_eq_ld, h.read_unread]

/-- A load from the field after the stores `L` reads the newest store at each position. -/
theorem tap_eq (v : View sig .tc .vmem S34x48x128 .f32) (L : Enc.Field) (r : Rect S34x48x128) :
    v.readCov L r.toLoadRect = Enc.tapOf L r := by
  rw [View.readCov_eq_canon']; rfl

/-! ## The payloads -/

theorem pay2_eq : k0_pay2 (F := Ideal) = Enc.zeroField := by
  unfold k0_pay2 Enc.zeroField
  simp only [shapeCast_self]
  funext y
  simp [broadcast, Scalar.ofBits, Ideal.ofBits, Ideal.ieee]

theorem pay5_eq (x : Vec Ideal S1x32x32x128 .f32) (s h : Vec Ideal S1x128 .f32) :
    k0_pay5 (F := Ideal) x s h = Enc.bn (Enc.img x) s h := by
  unfold k0_pay5 Enc.bn Enc.img
  simp only [shapeCast_self]

set_option maxHeartbeats 400000 in
/-- The first layer's product over the nine taps of a field. -/
theorem pay9_eq (W : Enc.V Enc.S1152x256) (B : Enc.V Enc.S1x256) (L : Enc.Field) :
    k0_pay9 (F := Ideal) W B
      (Enc.tapM L 0 7 inb_S34x48x128_S32x32x128_0_7_0)
      (Enc.tapM L 0 8 inb_S34x48x128_S32x32x128_0_8_0)
      (Enc.tapM L 0 9 inb_S34x48x128_S32x32x128_0_9_0)
      (Enc.tapOf L (Rect.unit (s := S34x48x128) ![1, 7, 0] S32x32x128.size inb_S34x48x128_S32x32x128_1_7_0))
      (Enc.tapOf L (Rect.unit (s := S34x48x128) ![1, 8, 0] S32x32x128.size inb_S34x48x128_S32x32x128_1_8_0))
      (Enc.tapOf L (Rect.unit (s := S34x48x128) ![1, 9, 0] S32x32x128.size inb_S34x48x128_S32x32x128_1_9_0))
      (Enc.tapOf L (Rect.unit (s := S34x48x128) ![2, 7, 0] S32x32x128.size inb_S34x48x128_S32x32x128_2_7_0))
      (Enc.tapOf L (Rect.unit (s := S34x48x128) ![2, 8, 0] S32x32x128.size inb_S34x48x128_S32x32x128_2_8_0))
      (Enc.tapOf L (Rect.unit (s := S34x48x128) ![2, 9, 0] S32x32x128.size inb_S34x48x128_S32x32x128_2_9_0))
      = Enc.conv256 L W B := by
  unfold k0_pay9 Enc.conv256 Enc.patchOf Enc.tapM
  rfl

set_option maxHeartbeats 400000 in
theorem pay10_eq (W : Enc.V Enc.S1152x256) (B : Enc.V Enc.S1x256) (L : Enc.Field) :
    k0_pay10 (F := Ideal) W B
      (Enc.tapM L 0 7 inb_S34x48x128_S32x32x128_0_7_0)
      (Enc.tapM L 0 8 inb_S34x48x128_S32x32x128_0_8_0)
      (Enc.tapM L 0 9 inb_S34x48x128_S32x32x128_0_9_0)
      (Enc.tapOf L (Rect.unit (s := S34x48x128) ![1, 7, 0] S32x32x128.size inb_S34x48x128_S32x32x128_1_7_0))
      (Enc.tapOf L (Rect.unit (s := S34x48x128) ![1, 8, 0] S32x32x128.size inb_S34x48x128_S32x32x128_1_8_0))
      (Enc.tapOf L (Rect.unit (s := S34x48x128) ![1, 9, 0] S32x32x128.size inb_S34x48x128_S32x32x128_1_9_0))
      (Enc.tapOf L (Rect.unit (s := S34x48x128) ![2, 7, 0] S32x32x128.size inb_S34x48x128_S32x32x128_2_7_0))
      (Enc.tapOf L (Rect.unit (s := S34x48x128) ![2, 8, 0] S32x32x128.size inb_S34x48x128_S32x32x128_2_8_0))
      (Enc.tapOf L (Rect.unit (s := S34x48x128) ![2, 9, 0] S32x32x128.size inb_S34x48x128_S32x32x128_2_9_0))
      = Enc.hi (Enc.conv256 L W B) := by
  unfold k0_pay10
  rw [pay9_eq]
  rfl

theorem pay14_eq (X : Enc.V Enc.S1024x128) :
    k0_pay14 (F := Ideal) X = shapeCast S32x32x128 X shapeCasts_S1024x128_S32x32x128 := by
  unfold k0_pay14
  exact shapeCast_self _ _

set_option maxHeartbeats 400000 in
theorem pay13_eq (W : Enc.V Enc.S1152x256) (B : Enc.V Enc.S1x256) (L : Enc.Field) (s h : Enc.V Enc.S1x128) :
    k0_pay14 (F := Ideal) (k0_pay13 (F := Ideal) W B
      (Enc.tapM L 0 7 inb_S34x48x128_S32x32x128_0_7_0)
      (Enc.tapM L 0 8 inb_S34x48x128_S32x32x128_0_8_0)
      (Enc.tapM L 0 9 inb_S34x48x128_S32x32x128_0_9_0)
      (Enc.tapOf L (Rect.unit (s := S34x48x128) ![1, 7, 0] S32x32x128.size inb_S34x48x128_S32x32x128_1_7_0))
      (Enc.tapOf L (Rect.unit (s := S34x48x128) ![1, 8, 0] S32x32x128.size inb_S34x48x128_S32x32x128_1_8_0))
      (Enc.tapOf L (Rect.unit (s := S34x48x128) ![1, 9, 0] S32x32x128.size inb_S34x48x128_S32x32x128_1_9_0))
      (Enc.tapOf L (Rect.unit (s := S34x48x128) ![2, 7, 0] S32x32x128.size inb_S34x48x128_S32x32x128_2_7_0))
      (Enc.tapOf L (Rect.unit (s := S34x48x128) ![2, 8, 0] S32x32x128.size inb_S34x48x128_S32x32x128_2_8_0))
      (Enc.tapOf L (Rect.unit (s := S34x48x128) ![2, 9, 0] S32x32x128.size inb_S34x48x128_S32x32x128_2_9_0))
      s h)
      = Enc.bn (Enc.relu (Enc.lo (Enc.conv256 L W B))) s h := by
  rw [pay14_eq]
  unfold k0_pay13
  rw [pay9_eq]
  rfl

set_option maxHeartbeats 400000 in
/-- The second layer's product over the nine taps of a field. -/
theorem pay15_eq (W : Enc.V Enc.S1152x128) (B : Enc.V Enc.S1x128) (L : Enc.Field) :
    k0_pay15 (F := Ideal) W B
      (Enc.tapOf L (Rect.unit (s := S34x48x128) ![0, 7, 0] S32x32x128.size inb_S34x48x128_S32x32x128_0_7_0))
      (Enc.tapOf L (Rect.unit (s := S34x48x128) ![0, 8, 0] S32x32x128.size inb_S34x48x128_S32x32x128_0_8_0))
      (Enc.tapOf L (Rect.unit (s := S34x48x128) ![0, 9, 0] S32x32x128.size inb_S34x48x128_S32x32x128_0_9_0))
      (Enc.tapOf L (Rect.unit (s := S34x48x128) ![1, 7, 0] S32x32x128.size inb_S34x48x128_S32x32x128_1_7_0))
      (Enc.tapOf L (Rect.unit (s := S34x48x128) ![1, 8, 0] S32x32x128.size inb_S34x48x128_S32x32x128_1_8_0))
      (Enc.tapOf L (Rect.unit (s := S34x48x128) ![1, 9, 0] S32x32x128.size inb_S34x48x128_S32x32x128_1_9_0))
      (Enc.tapOf L (Rect.unit (s := S34x48x128) ![2, 7, 0] S32x32x128.size inb_S34x48x128_S32x32x128_2_7_0))
      (Enc.tapOf L (Rect.unit (s := S34x48x128) ![2, 8, 0] S32x32x128.size inb_S34x48x128_S32x32x128_2_8_0))
      (Enc.tapOf L (Rect.unit (s := S34x48x128) ![2, 9, 0] S32x32x128.size inb_S34x48x128_S32x32x128_2_9_0))
      = Enc.conv128 L W B := by
  unfold k0_pay15 Enc.conv128 Enc.patchOf Enc.tapM
  rfl

set_option maxHeartbeats 400000 in
/-- A cell's result, normalised for the next layer. -/
theorem pay19_eq (A Cv : Enc.V Enc.S1024x128) (s h : Enc.V Enc.S1x128) :
    k0_pay19 (F := Ideal) A Cv (k0_pay16 (F := Ideal)) s h
      = Enc.bn (addf (F := Ideal) (φ := .f32) A (Enc.relu Cv)) s h := by
  unfold k0_pay19 k0_pay16 Enc.bn Enc.relu
  simp only [shapeCast_self]

set_option maxHeartbeats 400000 in
/-- The second cell's first product. -/
theorem pay26_eq (W : Enc.V Enc.S1152x256) (B : Enc.V Enc.S1x256) (L : Enc.Field) :
    k0_pay26 (F := Ideal) W B
      (Enc.tapM L 0 7 inb_S34x48x128_S32x32x128_0_7_0)
      (Enc.tapM L 0 8 inb_S34x48x128_S32x32x128_0_8_0)
      (Enc.tapM L 0 9 inb_S34x48x128_S32x32x128_0_9_0)
      (Enc.tapM L 1 7 inb_S34x48x128_S32x32x128_1_7_0)
      (Enc.tapM L 1 8 inb_S34x48x128_S32x32x128_1_8_0)
      (Enc.tapM L 1 9 inb_S34x48x128_S32x32x128_1_9_0)
      (Enc.tapOf L (Rect.unit (s := S34x48x128) ![2, 7, 0] S32x32x128.size inb_S34x48x128_S32x32x128_2_7_0))
      (Enc.tapOf L (Rect.unit (s := S34x48x128) ![2, 8, 0] S32x32x128.size inb_S34x48x128_S32x32x128_2_8_0))
      (Enc.tapOf L (Rect.unit (s := S34x48x128) ![2, 9, 0] S32x32x128.size inb_S34x48x128_S32x32x128_2_9_0))
      = Enc.conv256 L W B := by
  unfold k0_pay26 Enc.conv256 Enc.patchOf Enc.tapM
  rfl

set_option maxHeartbeats 400000 in
theorem pay27_eq (W : Enc.V Enc.S1152x256) (B : Enc.V Enc.S1x256) (L : Enc.Field) :
    k0_pay27 (F := Ideal) W B
      (Enc.tapM L 0 7 inb_S34x48x128_S32x32x128_0_7_0)
      (Enc.tapM L 0 8 inb_S34x48x128_S32x32x128_0_8_0)
      (Enc.tapM L 0 9 inb_S34x48x128_S32x32x128_0_9_0)
      (Enc.tapM L 1 7 inb_S34x48x128_S32x32x128_1_7_0)
      (Enc.tapM L 1 8 inb_S34x48x128_S32x32x128_1_8_0)
      (Enc.tapM L 1 9 inb_S34x48x128_S32x32x128_1_9_0)
      (Enc.tapOf L (Rect.unit (s := S34x48x128) ![2, 7, 0] S32x32x128.size inb_S34x48x128_S32x32x128_2_7_0))
      (Enc.tapOf L (Rect.unit (s := S34x48x128) ![2, 8, 0] S32x32x128.size inb_S34x48x128_S32x32x128_2_8_0))
      (Enc.tapOf L (Rect.unit (s := S34x48x128) ![2, 9, 0] S32x32x128.size inb_S34x48x128_S32x32x128_2_9_0))
      = Enc.hi (Enc.conv256 L W B) := by
  unfold k0_pay27
  rw [pay26_eq]
  rfl

set_option maxHeartbeats 400000 in
theorem pay30_eq (W : Enc.V Enc.S1152x256) (B : Enc.V Enc.S1x256) (L : Enc.Field) (s h : Enc.V Enc.S1x128) :
    k0_pay30 (F := Ideal) W B
      (Enc.tapM L 0 7 inb_S34x48x128_S32x32x128_0_7_0)
      (Enc.tapM L 0 8 inb_S34x48x128_S32x32x128_0_8_0)
      (Enc.tapM L 0 9 inb_S34x48x128_S32x32x128_0_9_0)
      (Enc.tapM L 1 7 inb_S34x48x128_S32x32x128_1_7_0)
      (Enc.tapM L 1 8 inb_S34x48x128_S32x32x128_1_8_0)
      (Enc.tapM L 1 9 inb_S34x48x128_S32x32x128_1_9_0)
      (Enc.tapOf L (Rect.unit (s := S34x48x128) ![2, 7, 0] S32x32x128.size inb_S34x48x128_S32x32x128_2_7_0))
      (Enc.tapOf L (Rect.unit (s := S34x48x128) ![2, 8, 0] S32x32x128.size inb_S34x48x128_S32x32x128_2_8_0))
      (Enc.tapOf L (Rect.unit (s := S34x48x128) ![2, 9, 0] S32x32x128.size inb_S34x48x128_S32x32x128_2_9_0))
      s h
      = Enc.bn (Enc.relu (Enc.lo (Enc.conv256 L W B))) s h := by
  unfold k0_pay30
  rw [pay26_eq]
  simp only [shapeCast_self]
  rfl

set_option maxHeartbeats 400000 in
/-- The second cell's second product, the cell's result, the average as a product and the head. -/
theorem pay32_eq (Hi : Enc.V Enc.S1024x128) (W : Enc.V Enc.S1152x128) (B : Enc.V Enc.S1x128) (L : Enc.Field)
    (hw : Enc.V Enc.S128x1024) (hb : Enc.V Enc.S1x1024) :
    k0_pay32 (F := Ideal) Hi W B
      (Enc.tapM L 0 7 inb_S34x48x128_S32x32x128_0_7_0)
      (Enc.tapOf L (Rect.unit (s := S34x48x128) ![0, 8, 0] S32x32x128.size inb_S34x48x128_S32x32x128_0_8_0))
      (Enc.tapOf L (Rect.unit (s := S34x48x128) ![0, 9, 0] S32x32x128.size inb_S34x48x128_S32x32x128_0_9_0))
      (Enc.tapOf L (Rect.unit (s := S34x48x128) ![1, 7, 0] S32x32x128.size inb_S34x48x128_S32x32x128_1_7_0))
      (Enc.tapOf L (Rect.unit (s := S34x48x128) ![1, 8, 0] S32x32x128.size inb_S34x48x128_S32x32x128_1_8_0))
      (Enc.tapOf L (Rect.unit (s := S34x48x128) ![1, 9, 0] S32x32x128.size inb_S34x48x128_S32x32x128_1_9_0))
      (Enc.tapOf L (Rect.unit (s := S34x48x128) ![2, 7, 0] S32x32x128.size inb_S34x48x128_S32x32x128_2_7_0))
      (Enc.tapOf L (Rect.unit (s := S34x48x128) ![2, 8, 0] S32x32x128.size inb_S34x48x128_S32x32x128_2_8_0))
      (Enc.tapOf L (Rect.unit (s := S34x48x128) ![2, 9, 0] S32x32x128.size inb_S34x48x128_S32x32x128_2_9_0))
      hw hb
      = Enc.headR (addf (F := Ideal) (φ := .f32) Hi (Enc.relu (Enc.conv128 L W B))) hw hb := by
  unfold k0_pay32 Enc.headR Enc.relu Enc.conv128 Enc.patchOf Enc.tapM
  rfl

variable (c : Dev nD) (i : grid0.Coords)
  (arg1 : Memref sig .tc .vmem S1x32x32x128 .f32) (harg1 : arg1.IsWhole)
  (arg2 : Memref sig .tc .vmem S4x128 .f32) (harg2 : arg2.IsWhole)
  (arg3 : Memref sig .tc .vmem S4x128 .f32) (harg3 : arg3.IsWhole)
  (arg4 : Memref sig .tc .vmem S2x1152x256 .f32) (harg4 : arg4.IsWhole)
  (arg5 : Memref sig .tc .vmem S2x1x256 .f32) (harg5 : arg5.IsWhole)
  (arg6 : Memref sig .tc .vmem S2x1152x128 .f32) (harg6 : arg6.IsWhole)
  (arg7 : Memref sig .tc .vmem S2x1x128 .f32) (harg7 : arg7.IsWhole)
  (arg8 : Memref sig .tc .vmem S128x1024 .f32) (harg8 : arg8.IsWhole)
  (arg9 : Memref sig .tc .vmem S1x1024 .f32) (harg9 : arg9.IsWhole)
  (arg10 : Memref sig .tc .vmem S1x1x1024 .f32) (harg10 : arg10.IsWhole)
  (arg11 : Memref sig .tc .vmem S34x48x128 .f32) (harg11 : arg11.IsWhole)
  (x0 : Vec Ideal S1x32x32x128 .f32) (x1 x2 : Vec Ideal S4x128 .f32) (x3 : Vec Ideal S2x1152x256 .f32)
  (x4 : Vec Ideal S2x1x256 .f32) (x5 : Vec Ideal S2x1152x128 .f32) (x6 : Vec Ideal S2x1x128 .f32)
  (x7 : Vec Ideal S128x1024 .f32) (x8 : Vec Ideal S1x1024 .f32)

/-! ## The stages -/

set_option maxHeartbeats 400000 in
theorem HS0_2_eq : kernelRun0_A.sl.HS0_2 (F := Ideal) c arg1 harg1 arg2 harg2 arg3 harg3 x0 x1 x2 = Enc.field0 x0 x1 x2 := by
  delta kernelRun0_A.sl.HS0_2
  rw [load_eq, load_eq, load_eq, View.ld_unit_zero (S := S1x32x32x128) hz4, pay5_eq, pay2_eq]
  rfl

set_option maxHeartbeats 400000 in
theorem r_eq : kernelRun0_A.sl.r (F := Ideal) c arg4 harg4 x3 = Enc.w256 x3 0 (by decide) := by
  delta kernelRun0_A.sl.r
  rw [load_eq]
  rfl

set_option maxHeartbeats 400000 in
theorem r_1_eq : kernelRun0_A.sl.r_1 (F := Ideal) c arg5 harg5 x4 = Enc.b256 x4 0 (by decide) := by
  delta kernelRun0_A.sl.r_1
  rw [load_eq]
  rfl

set_option maxHeartbeats 400000 in
theorem r_2_eq : kernelRun0_A.sl.r_2 (F := Ideal) c arg1 harg1 arg2 harg2 arg3 harg3 arg11 x0 x1 x2 = (Enc.tapM (Enc.field0 x0 x1 x2) 0 7 inb_S34x48x128_S32x32x128_0_7_0) := by
  delta kernelRun0_A.sl.r_2 kernelRun0_A.sl.v21
  rw [HS0_2_eq, tap_eq]
  rfl

set_option maxHeartbeats 400000 in
theorem r_3_eq : kernelRun0_A.sl.r_3 (F := Ideal) c arg1 harg1 arg2 harg2 arg3 harg3 arg11 x0 x1 x2 = (Enc.tapM (Enc.field0 x0 x1 x2) 0 8 inb_S34x48x128_S32x32x128_0_8_0) := by
  delta kernelRun0_A.sl.r_3 kernelRun0_A.sl.v23
  rw [HS0_2_eq, tap_eq]
  rfl

set_option maxHeartbeats 400000 in
theorem r_4_eq : kernelRun0_A.sl.r_4 (F := Ideal) c arg1 harg1 arg2 harg2 arg3 harg3 arg11 x0 x1 x2 = (Enc.tapM (Enc.field0 x0 x1 x2) 0 9 inb_S34x48x128_S32x32x128_0_9_0) := by
  delta kernelRun0_A.sl.r_4 kernelRun0_A.sl.v25
  rw [HS0_2_eq, tap_eq]
  rfl

set_option maxHeartbeats 400000 in
theorem r_5_eq : kernelRun0_A.sl.r_5 (F := Ideal) c arg1 harg1 arg2 harg2 arg3 harg3 arg4 harg4 arg5 harg5 arg11 x0 x1 x2 x3 x4 = Enc.hi (Enc.y0 x0 x1 x2 x3 x4) := by
  delta kernelRun0_A.sl.r_5 kernelRun0_A.sl.v27 kernelRun0_A.sl.v29 kernelRun0_A.sl.v31 kernelRun0_A.sl.v33 kernelRun0_A.sl.v35 kernelRun0_A.sl.v37
  rw [r_eq, r_1_eq, r_2_eq, r_3_eq, r_4_eq, HS0_2_eq]
  simp only [tap_eq]
  exact pay10_eq _ _ _

set_option maxHeartbeats 400000 in
theorem HS0_3_eq : kernelRun0_A.sl.HS0_3 (F := Ideal) c arg1 harg1 arg2 harg2 arg3 harg3 arg4 harg4 arg5 harg5 arg11 x0 x1 x2 x3 x4 = Enc.field1 x0 x1 x2 x3 x4 := by
  delta kernelRun0_A.sl.HS0_3 kernelRun0_A.sl.r_8 kernelRun0_A.sl.v27 kernelRun0_A.sl.v29 kernelRun0_A.sl.v31 kernelRun0_A.sl.v33 kernelRun0_A.sl.v35 kernelRun0_A.sl.v37
  rw [r_eq, r_1_eq, r_2_eq, r_3_eq, r_4_eq, HS0_2_eq, load_eq, load_eq]
  simp only [tap_eq]
  rw [pay13_eq]
  rfl

set_option maxHeartbeats 400000 in
theorem r_6_eq : kernelRun0_A.sl.r_6 (F := Ideal) c arg6 harg6 x5 = Enc.w128 x5 0 (by decide) := by
  delta kernelRun0_A.sl.r_6
  rw [load_eq]
  rfl

set_option maxHeartbeats 400000 in
theorem r_7_eq : kernelRun0_A.sl.r_7 (F := Ideal) c arg7 harg7 x6 = Enc.b128 x6 0 (by decide) := by
  delta kernelRun0_A.sl.r_7
  rw [load_eq]
  rfl

set_option maxHeartbeats 400000 in
theorem r_9_eq : kernelRun0_A.sl.r_9 (F := Ideal) c arg1 harg1 arg2 harg2 arg3 harg3 arg4 harg4 arg5 harg5 arg6 harg6 arg7 harg7 arg11 x0 x1 x2 x3 x4 x5 x6
    = Enc.conv128 (Enc.field1 x0 x1 x2 x3 x4) (Enc.w128 x5 0 (by decide)) (Enc.b128 x6 0 (by decide)) := by
  delta kernelRun0_A.sl.r_9 kernelRun0_A.sl.v61 kernelRun0_A.sl.v63 kernelRun0_A.sl.v65 kernelRun0_A.sl.v67 kernelRun0_A.sl.v69 kernelRun0_A.sl.v71 kernelRun0_A.sl.v73 kernelRun0_A.sl.v75 kernelRun0_A.sl.v77
  rw [r_6_eq, r_7_eq, HS0_3_eq]
  simp only [tap_eq]
  exact pay15_eq _ _ _

set_option maxHeartbeats 400000 in
theorem HS0_4_eq : kernelRun0_A.sl.HS0_4 (F := Ideal) c arg1 harg1 arg2 harg2 arg3 harg3 arg4 harg4 arg5 harg5 arg6 harg6 arg7 harg7 arg11 x0 x1 x2 x3 x4 x5 x6 = Enc.field2 x0 x1 x2 x3 x4 x5 x6 := by
  delta kernelRun0_A.sl.HS0_4
  rw [r_5_eq, r_9_eq, HS0_3_eq, load_eq, load_eq, pay19_eq]
  rfl

set_option maxHeartbeats 400000 in
theorem r_10_eq : kernelRun0_A.sl.r_10 (F := Ideal) c arg4 harg4 x3 = Enc.w256 x3 1 (by decide) := by
  delta kernelRun0_A.sl.r_10
  rw [load_eq]
  rfl

set_option maxHeartbeats 400000 in
theorem r_11_eq : kernelRun0_A.sl.r_11 (F := Ideal) c arg5 harg5 x4 = Enc.b256 x4 1 (by decide) := by
  delta kernelRun0_A.sl.r_11
  rw [load_eq]
  rfl

set_option maxHeartbeats 400000 in
theorem r_12_eq : kernelRun0_A.sl.r_12 (F := Ideal) c arg1 harg1 arg2 harg2 arg3 harg3 arg4 harg4 arg5 harg5 arg6 harg6 arg7 harg7 arg11 x0 x1 x2 x3 x4 x5 x6 = (Enc.tapM (Enc.field2 x0 x1 x2 x3 x4 x5 x6) 0 7 inb_S34x48x128_S32x32x128_0_7_0) := by
  delta kernelRun0_A.sl.r_12 kernelRun0_A.sl.v100
  rw [HS0_4_eq, tap_eq]
  rfl

set_option maxHeartbeats 400000 in
theorem r_13_eq : kernelRun0_A.sl.r_13 (F := Ideal) c arg1 harg1 arg2 harg2 arg3 harg3 arg4 harg4 arg5 harg5 arg6 harg6 arg7 harg7 arg11 x0 x1 x2 x3 x4 x5 x6 = (Enc.tapM (Enc.field2 x0 x1 x2 x3 x4 x5 x6) 0 8 inb_S34x48x128_S32x32x128_0_8_0) := by
  delta kernelRun0_A.sl.r_13 kernelRun0_A.sl.v102
  rw [HS0_4_eq, tap_eq]
  rfl

set_option maxHeartbeats 400000 in
theorem r_14_eq : kernelRun0_A.sl.r_14 (F := Ideal) c arg1 harg1 arg2 harg2 arg3 harg3 arg4 harg4 arg5 harg5 arg6 harg6 arg7 harg7 arg11 x0 x1 x2 x3 x4 x5 x6 = (Enc.tapM (Enc.field2 x0 x1 x2 x3 x4 x5 x6) 0 9 inb_S34x48x128_S32x32x128_0_9_0) := by
  delta kernelRun0_A.sl.r_14 kernelRun0_A.sl.v104
  rw [HS0_4_eq, tap_eq]
  rfl

set_option maxHeartbeats 400000 in
theorem r_15_eq : kernelRun0_A.sl.r_15 (F := Ideal) c arg1 harg1 arg2 harg2 arg3 harg3 arg4 harg4 arg5 harg5 arg6 harg6 arg7 harg7 arg11 x0 x1 x2 x3 x4 x5 x6 = (Enc.tapM (Enc.field2 x0 x1 x2 x3 x4 x5 x6) 1 7 inb_S34x48x128_S32x32x128_1_7_0) := by
  delta kernelRun0_A.sl.r_15 kernelRun0_A.sl.v106
  rw [HS0_4_eq, tap_eq]
  rfl

set_option maxHeartbeats 400000 in
theorem r_16_eq : kernelRun0_A.sl.r_16 (F := Ideal) c arg1 harg1 arg2 harg2 arg3 harg3 arg4 harg4 arg5 harg5 arg6 harg6 arg7 harg7 arg11 x0 x1 x2 x3 x4 x5 x6 = (Enc.tapM (Enc.field2 x0 x1 x2 x3 x4 x5 x6) 1 8 inb_S34x48x128_S32x32x128_1_8_0) := by
  delta kernelRun0_A.sl.r_16 kernelRun0_A.sl.v108
  rw [HS0_4_eq, tap_eq]
  rfl

set_option maxHeartbeats 400000 in
theorem r_17_eq : kernelRun0_A.sl.r_17 (F := Ideal) c arg1 harg1 arg2 harg2 arg3 harg3 arg4 harg4 arg5 harg5 arg6 harg6 arg7 harg7 arg11 x0 x1 x2 x3 x4 x5 x6 = (Enc.tapM (Enc.field2 x0 x1 x2 x3 x4 x5 x6) 1 9 inb_S34x48x128_S32x32x128_1_9_0) := by
  delta kernelRun0_A.sl.r_17 kernelRun0_A.sl.v110
  rw [HS0_4_eq, tap_eq]
  rfl

set_option maxHeartbeats 400000 in
theorem r_18_eq : kernelRun0_A.sl.r_18 (F := Ideal) c arg1 harg1 arg2 harg2 arg3 harg3 arg4 harg4 arg5 harg5 arg6 harg6 arg7 harg7 arg11 x0 x1 x2 x3 x4 x5 x6 = Enc.hi (Enc.y2 x0 x1 x2 x3 x4 x5 x6) := by
  delta kernelRun0_A.sl.r_18 kernelRun0_A.sl.v112 kernelRun0_A.sl.v114 kernelRun0_A.sl.v116
  rw [r_10_eq, r_11_eq, r_12_eq, r_13_eq, r_14_eq, r_15_eq, r_16_eq, r_17_eq, HS0_4_eq]
  simp only [tap_eq]
  exact pay27_eq _ _ _

set_option maxHeartbeats 400000 in
theorem HS0_5_eq : kernelRun0_A.sl.HS0_5 (F := Ideal) c arg1 harg1 arg2 harg2 arg3 harg3 arg4 harg4 arg5 harg5 arg6 harg6 arg7 harg7 arg11 x0 x1 x2 x3 x4 x5 x6 = Enc.field3 x0 x1 x2 x3 x4 x5 x6 := by
  delta kernelRun0_A.sl.HS0_5 kernelRun0_A.sl.v112 kernelRun0_A.sl.v114 kernelRun0_A.sl.v116
  rw [r_10_eq, r_11_eq, r_12_eq, r_13_eq, r_14_eq, r_15_eq, r_16_eq, r_17_eq, HS0_4_eq, load_eq, load_eq]
  simp only [tap_eq]
  rw [pay30_eq]
  rfl

set_option maxHeartbeats 400000 in
theorem r_19_eq : kernelRun0_A.sl.r_19 (F := Ideal) c arg6 harg6 x5 = Enc.w128 x5 1 (by decide) := by
  delta kernelRun0_A.sl.r_19
  rw [load_eq]
  rfl

set_option maxHeartbeats 400000 in
theorem r_20_eq : kernelRun0_A.sl.r_20 (F := Ideal) c arg7 harg7 x6 = Enc.b128 x6 1 (by decide) := by
  delta kernelRun0_A.sl.r_20
  rw [load_eq]
  rfl

set_option maxHeartbeats 400000 in
theorem r_21_eq : kernelRun0_A.sl.r_21 (F := Ideal) c arg1 harg1 arg2 harg2 arg3 harg3 arg4 harg4 arg5 harg5 arg6 harg6 arg7 harg7 arg11 x0 x1 x2 x3 x4 x5 x6 = (Enc.tapM (Enc.field3 x0 x1 x2 x3 x4 x5 x6) 0 7 inb_S34x48x128_S32x32x128_0_7_0) := by
  delta kernelRun0_A.sl.r_21 kernelRun0_A.sl.v140
  rw [HS0_5_eq, tap_eq]
  rfl

set_option maxHeartbeats 400000 in
theorem r_22_eq : kernelRun0_A.sl.r_22 (F := Ideal) c arg1 harg1 arg2 harg2 arg3 harg3 arg4 harg4 arg5 harg5 arg6 harg6 arg7 harg7 arg8 harg8 arg9 harg9 arg11 x0 x1 x2 x3 x4 x5 x6 x7 x8
    = Enc.headR (Enc.feat x0 x1 x2 x3 x4 x5 x6) x7 x8 := by
  delta kernelRun0_A.sl.r_22 kernelRun0_A.sl.v142 kernelRun0_A.sl.v144 kernelRun0_A.sl.v146 kernelRun0_A.sl.v148 kernelRun0_A.sl.v150 kernelRun0_A.sl.v152 kernelRun0_A.sl.v154 kernelRun0_A.sl.v156
  rw [r_18_eq, r_19_eq, r_20_eq, r_21_eq, HS0_5_eq, load_eq, load_eq,
    View.ld_unit_zero (S := S128x1024) hz2, View.ld_unit_zero (S := S1x1024) hz2]
  simp only [tap_eq]
  exact pay32_eq _ _ _ _ _ _

/-! ## The run's piece and the output block -/

set_option maxHeartbeats 400000 in
/-- The one piece the run leaves in the output block: the head of the image's features. -/
theorem witness_eq :
    (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7 x8).1
      = [⟨Rect.unit (s := S1x1x1024) ![0, 0, 0] S1x1x1024.size inb_S1x1x1024_S1x1x1024_0_0_0,
          k0_pay1 (F := Ideal) (Enc.headR (Enc.feat x0 x1 x2 x3 x4 x5 x6) x7 x8)⟩] := by
  unfold kernelRun0_A
  dsimp only
  rw [r_22_eq]

set_option maxHeartbeats 400000 in
/-- What the reference's body leaves in its output block. -/
theorem out_eq :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8
      = (shapeCast S1x1x1024 (Enc.headR (Enc.feat x0 x1 x2 x3 x4 x5 x6) x7 x8) shapeCasts_S1x1024_S1x1x1024 :
          Vec Ideal S1x1x1024 .f32) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8), witness_eq, View.canon_unit_zero hz3]
  rfl

end Cert.ReferenceIdeal.Body
end
-- ==== Proof.KRun.lean ====
import proofs.«114523_g2000400755396518_pallasbulk_384_2_alg».proof.Proof.Gen.KernelIdeal.Frame
import proofs.«114523_g2000400755396518_pallasbulk_384_2_alg».proof.Proof.Enc
import proofs.«114523_g2000400755396518_pallasbulk_384_2_alg».proof.Proof.LibPlainProduct
import Idealize.ShloMosaic.Lib.Pipeline.Value
import Idealize.ShloMosaic.Lib.ValueIdx
import Idealize.ShloMosaic.PureOps.Ideal.Laws

/-! The kernel program's run read as a value: the array its entry function returns, in terms of what each
    grid point's body leaves in its output block, without opening what the body computes. -/

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the entry function terminates, nothing faulting; the result array ends at the
    last boundary's contents and the argument arrays as launched. -/
theorem run_raw : θ_run (defs (F := Ideal)) (onTc (τ := τ) (main (F := Ideal))) ⟨m, fun _ => 0, ρ⟩ (fun r => ∀ c : Dev nD,
      r.2.mem ((c.tc : Thread nD τ).loc main_v6) = Gen.W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := Ideal)) Gen.adm (Gen.pdats m ρ) () cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W4 m ρ c) s')
      isplitl [Hh] <;> iassumption)
    (hQ := fun s h c =>
      ⟨h c _ (Gen.mem_uc main_v6 (by decide)),
       (h c _ (Gen.mem_uc main_arg0 (by decide))).trans (Gen.W4_main_arg0 m ρ c),
       (h c _ (Gen.mem_uc main_arg1 (by decide))).trans (Gen.W4_main_arg1 m ρ c),
       (h c _ (Gen.mem_uc main_arg2 (by decide))).trans (Gen.W4_main_arg2 m ρ c),
       (h c _ (Gen.mem_uc main_arg3 (by decide))).trans (Gen.W4_main_arg3 m ρ c),
       (h c _ (Gen.mem_uc main_arg4 (by decide))).trans (Gen.W4_main_arg4 m ρ c),
       (h c _ (Gen.mem_uc main_arg5 (by decide))).trans (Gen.W4_main_arg5 m ρ c),
       (h c _ (Gen.mem_uc main_arg6 (by decide))).trans (Gen.W4_main_arg6 m ρ c),
       (h c _ (Gen.mem_uc main_arg7 (by decide))).trans (Gen.W4_main_arg7 m ρ c),
       (h c _ (Gen.mem_uc main_arg8 (by decide))).trans (Gen.W4_main_arg8 m ρ c)⟩)

/-- The head's payload at entry (b, n): the row of the left operand times the column of the right one, plus the bias
    row's entry. -/
theorem head_apply (x0 : Vec Ideal S64x128 .f32) (x1 : Vec Ideal S128x1024 .f32) (x2 : Vec Ideal S1x1024 .f32)
    (b : Fin 64) (n : Fin 1024) :
    k1_pay1 x0 x1 x2 (ix2 b n) = (∑ k : Fin 128, x0 (ix2 b k) * x1 (ix2 k n)) + x2 (ix2 0 n) := by
  unfold k1_pay1
  rw [addf_apply, shapeCast_self]
  have hd : dot_S64x128_S128x1024_S64x1024_1_0_0_1_n_n = DotDims.plain 64 128 1024 := rfl
  rw [hd, Cert.LibPlainProduct.matmul_plain_zero_apply]
  rw [broadcastTo_apply x2 _ (ix2 b n) (ix2 0 n) (fun a => by
    match a with
    | ⟨0, _⟩ => rfl
    | ⟨1, _⟩ => rfl)]

/-- The index maps of region 0 at each of its 64 points: the image window's and the output window's block index is
    the point on the leading axis and 0 on the others. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_7.index t (0 : Fin 3) = t.val ∧ win0_7.index t (1 : Fin 3) = 0 ∧ win0_7.index t (2 : Fin 3) = 0 :=
  (by decide +kernel : ∀ t : Fin grid0.N, _)

/-- The six parameter windows stay at block 0 on every axis, at every point. -/
theorem idx_params : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0) :=
  (by decide +kernel : ∀ t : Fin grid0.N, _)

/-! ## Region 0's entry contents: the arguments as launched, the three converted copies -/

theorem V1_arg1 (c : Dev nD) : V1 m ρ c main_arg1 = m ((c.tc : Thread nD τ).loc main_arg1) := by
  show StableHlo.after hostOps0 _ (Proc.devRef .tc main_arg1) = _
  after_results
  try rfl
theorem V1_arg2 (c : Dev nD) : V1 m ρ c main_arg2 = m ((c.tc : Thread nD τ).loc main_arg2) := by
  show StableHlo.after hostOps0 _ (Proc.devRef .tc main_arg2) = _
  after_results
  try rfl
theorem V1_arg4 (c : Dev nD) : V1 m ρ c main_arg4 = m ((c.tc : Thread nD τ).loc main_arg4) := by
  show StableHlo.after hostOps0 _ (Proc.devRef .tc main_arg4) = _
  after_results
  try rfl
theorem V1_arg6 (c : Dev nD) : V1 m ρ c main_arg6 = m ((c.tc : Thread nD τ).loc main_arg6) := by
  show StableHlo.after hostOps0 _ (Proc.devRef .tc main_arg6) = _
  after_results
  try rfl
/-- The weight copies: a change of float format, the identity on the extended reals. -/
theorem V1_v2 (c : Dev nD) : V1 m ρ c main_v2 = m ((c.tc : Thread nD τ).loc main_arg3) := by
  show StableHlo.after hostOps0 _ (Proc.devRef .tc main_v2) = _
  after_results
  try rfl
theorem V1_v3 (c : Dev nD) : V1 m ρ c main_v3 = m ((c.tc : Thread nD τ).loc main_arg5) := by
  show StableHlo.after hostOps0 _ (Proc.devRef .tc main_v3) = _
  after_results
  try rfl
/-- The image copy: the batch with its channel axis moved last (then a change of float format). -/
theorem V1_v1 (c : Dev nD) : (V1 m ρ c main_v1 : S64x32x32x128.Idx → EReal)
    = transpose S64x32x32x128 [0, 2, 3, 1] (m ((c.tc : Thread nD τ).loc main_arg0) : S64x128x32x32.Idx → EReal) transposes_S64x128x32x32_S64x32x32x128_0_2_3_1 := by
  show StableHlo.after hostOps0 _ (Proc.devRef .tc main_v1) = _
  after_results
  try rfl

/-! ## The input windows' blocks at a point -/

/-- The scale rows: the whole array at every point. -/
theorem iblk_p1 (c : Dev nD) (t : Fin cfg0.N) : iblk0 (F := Ideal) (V1 m ρ) c 1 t = m ((c.tc : Thread nD τ).loc main_arg1) := by
  obtain ⟨e0, e1⟩ := (idx_params t).1
  funext y
  unfold iblk0
  rw [View.read_apply]
  show V1 m ρ c main_arg1 (((cfg0.win 1).blk t).view.emb y) = _
  rw [V1_arg1]
  congr 1
  funext a; apply Fin.ext
  match a with
  | ⟨0, _⟩ => show win0_1.index t (0 : Fin 2) * 4 + 1 * (y 0).val = (y 0).val; omega
  | ⟨1, _⟩ => show win0_1.index t (1 : Fin 2) * 128 + 1 * (y 1).val = (y 1).val; omega

/-- The shift rows: the whole array at every point. -/
theorem iblk_p2 (c : Dev nD) (t : Fin cfg0.N) : iblk0 (F := Ideal) (V1 m ρ) c 2 t = m ((c.tc : Thread nD τ).loc main_arg2) := by
  obtain ⟨e0, e1⟩ := (idx_params t).2.1
  funext y
  unfold iblk0
  rw [View.read_apply]
  show V1 m ρ c main_arg2 (((cfg0.win 2).blk t).view.emb y) = _
  rw [V1_arg2]
  congr 1
  funext a; apply Fin.ext
  match a with
  | ⟨0, _⟩ => show win0_2.index t (0 : Fin 2) * 4 + 1 * (y 0).val = (y 0).val; omega
  | ⟨1, _⟩ => show win0_2.index t (1 : Fin 2) * 128 + 1 * (y 1).val = (y 1).val; omega

/-- The first layers' weights, through their converted copy: the whole array at every point. -/
theorem iblk_p3 (c : Dev nD) (t : Fin cfg0.N) : iblk0 (F := Ideal) (V1 m ρ) c 3 t = m ((c.tc : Thread nD τ).loc main_arg3) := by
  obtain ⟨e0, e1, e2⟩ := (idx_params t).2.2.1
  funext y
  unfold iblk0
  rw [View.read_apply]
  show V1 m ρ c main_v2 (((cfg0.win 3).blk t).view.emb y) = _
  rw [V1_v2]
  congr 1
  funext a; apply Fin.ext
  match a with
  | ⟨0, _⟩ => show win0_3.index t (0 : Fin 3) * 2 + 1 * (y 0).val = (y 0).val; omega
  | ⟨1, _⟩ => show win0_3.index t (1 : Fin 3) * 1152 + 1 * (y 1).val = (y 1).val; omega
  | ⟨2, _⟩ => show win0_3.index t (2 : Fin 3) * 256 + 1 * (y 2).val = (y 2).val; omega

/-- The first layers' bias rows: the whole array at every point. -/
theorem iblk_p4 (c : Dev nD) (t : Fin cfg0.N) : iblk0 (F := Ideal) (V1 m ρ) c 4 t = m ((c.tc : Thread nD τ).loc main_arg4) := by
  obtain ⟨e0, e1, e2⟩ := (idx_params t).2.2.2.1
  funext y
  unfold iblk0
  rw [View.read_apply]
  show V1 m ρ c main_arg4 (((cfg0.win 4).blk t).view.emb y) = _
  rw [V1_arg4]
  congr 1
  funext a; apply Fin.ext
  match a with
  | ⟨0, _⟩ => show win0_4.index t (0 : Fin 3) * 2 + 1 * (y 0).val = (y 0).val; omega
  | ⟨1, _⟩ => show win0_4.index t (1 : Fin 3) * 1 + 1 * (y 1).val = (y 1).val; omega
  | ⟨2, _⟩ => show win0_4.index t (2 : Fin 3) * 256 + 1 * (y 2).val = (y 2).val; omega

/-- The second layers' weights, through their converted copy: the whole array at every point. -/
theorem iblk_p5 (c : Dev nD) (t : Fin cfg0.N) : iblk0 (F := Ideal) (V1 m ρ) c 5 t = m ((c.tc : Thread nD τ).loc main_arg5) := by
  obtain ⟨e0, e1, e2⟩ := (idx_params t).2.2.2.2.1
  funext y
  unfold iblk0
  rw [View.read_apply]
  show V1 m ρ c main_v3 (((cfg0.win 5).blk t).view.emb y) = _
  rw [V1_v3]
  congr 1
  funext a; apply Fin.ext
  match a with
  | ⟨0, _⟩ => show win0_5.index t (0 : Fin 3) * 2 + 1 * (y 0).val = (y 0).val; omega
  | ⟨1, _⟩ => show win0_5.index t (1 : Fin 3) * 1152 + 1 * (y 1).val = (y 1).val; omega
  | ⟨2, _⟩ => show win0_5.index t (2 : Fin 3) * 128 + 1 * (y 2).val = (y 2).val; omega

/-- The second layers' bias rows: the whole array at every point. -/
theorem iblk_p6 (c : Dev nD) (t : Fin cfg0.N) : iblk0 (F := Ideal) (V1 m ρ) c 6 t = m ((c.tc : Thread nD τ).loc main_arg6) := by
  obtain ⟨e0, e1, e2⟩ := (idx_params t).2.2.2.2.2
  funext y
  unfold iblk0
  rw [View.read_apply]
  show V1 m ρ c main_arg6 (((cfg0.win 6).blk t).view.emb y) = _
  rw [V1_arg6]
  congr 1
  funext a; apply Fin.ext
  match a with
  | ⟨0, _⟩ => show win0_6.index t (0 : Fin 3) * 2 + 1 * (y 0).val = (y 0).val; omega
  | ⟨1, _⟩ => show win0_6.index t (1 : Fin 3) * 1 + 1 * (y 1).val = (y 1).val; omega
  | ⟨2, _⟩ => show win0_6.index t (2 : Fin 3) * 128 + 1 * (y 2).val = (y 2).val; omega

/-- The image window's block at point `t` is image `t` of the batch, pixels first and channels last: entry
    (0, h, w, ch) of the block is entry (t, ch, h, w) of the batch array. -/
theorem iblk_x (c : Dev nD) (t : Fin cfg0.N) :
    iblk0 (F := Ideal) (V1 m ρ) c 0 t = Cert.Enc.xblk (m ((c.tc : Thread nD τ).loc main_arg0)) ⟨t.val, t.isLt⟩ := by
  obtain ⟨e0, e1, e2, e3, -⟩ := idx_facts t
  funext y
  unfold iblk0
  rw [View.read_apply]
  show (V1 m ρ c main_v1 : S64x32x32x128.Idx → EReal) (((cfg0.win 0).blk t).view.emb y) = _
  rw [V1_v1]
  have h0 : (y 0).val < 1 := (y 0).isLt
  have h1 : (y 1).val < 32 := (y 1).isLt
  have h2 : (y 2).val < 32 := (y 2).isLt
  have h3 : (y 3).val < 128 := (y 3).isLt
  rw [transpose_apply _ _ _ _ (ix4 (⟨t.val, t.isLt⟩ : Fin 64) (⟨(y 3).val, h3⟩ : Fin 128) (⟨(y 1).val, h1⟩ : Fin 32) (⟨(y 2).val, h2⟩ : Fin 32)) (fun b => by
    match b with
    | ⟨0, _⟩ => show t.val = win0_0.index t (0 : Fin 4) * 1 + 1 * (y 0).val; omega
    | ⟨1, _⟩ => show (y 1).val = win0_0.index t (1 : Fin 4) * 32 + 1 * (y 1).val; omega
    | ⟨2, _⟩ => show (y 2).val = win0_0.index t (2 : Fin 4) * 32 + 1 * (y 2).val; omega
    | ⟨3, _⟩ => show (y 3).val = win0_0.index t (3 : Fin 4) * 128 + 1 * (y 3).val; omega)]
  rfl

/-! ## Region 0: from the points' blocks to the pooled array -/

/-- A coordinate below 64 is a point of region 0's grid. -/
theorem lt_N0 {k : Nat} (h : k < 64) : k < cfg0.N := by rw [show cfg0.N = 64 from N_0]; exact h

/-- The pooled array: row `b` holds, channel by channel, what grid point `b`'s body left in its 1×1×128 block. -/
def pooledArr (c : Dev nD) : Buf (Elt Ideal) ((c.tc : Thread nD τ).loc main_v4) :=
  fun i => outsAt0 (F := Ideal) (V1 m ρ) c ⟨(i 0).val, lt_N0 (i 0).isLt⟩ (ix3 0 0 ⟨(i 2).val, (i 2).isLt⟩)

/-- What a point's body leaves, at equal points and equal entries. -/
theorem outs_congr (V : (c : Dev nD) → (b : Ref sig .tc) → Buf (Elt Ideal) ((c : Thread nD τ).loc b)) (c : Dev nD)
    {t t' : Fin cfg0.N} (ht : t' = t) {y y' : S1x1x128.Idx} (hy : y' = y) :
    outsAt0 (F := Ideal) V c t' y' = outsAt0 (F := Ideal) V c t y := by subst ht; subst hy; rfl

/-- What point `t` writes back is row `t` of the pooled array. -/
theorem flushed7 (c : Dev nD) (t : Fin cfg0.N) :
    (dat0 (V1 m ρ) c).flushed 7 t = ((cfg0.win 7).blk t).view.read (Elt Ideal) (pooledArr m ρ c) := by
  obtain ⟨-, -, -, -, e0, e1, e2⟩ := idx_facts t
  show (cfg0.win 7).cut (grid0.coords t) ((dat0 (V1 m ρ) c).after 7 t) = _
  rw [after0_7]
  funext y
  rw [View.read_apply]
  show outsAt0 (F := Ideal) (V1 m ρ) c t y = pooledArr m ρ c (((cfg0.win 7).blk t).view.emb y)
  unfold pooledArr
  have h0 : (y 0).val < 1 := (y 0).isLt
  have h1 : (y 1).val < 1 := (y 1).isLt
  refine (outs_congr (V1 m ρ) c (Fin.ext ?_) (funext fun a => Fin.ext ?_)).symm
  · show win0_7.index t (0 : Fin 3) * 1 + 1 * (y 0).val = t.val; omega
  · match a with
    | ⟨0, _⟩ => show 0 = (y 0).val; omega
    | ⟨1, _⟩ => show 0 = (y 1).val; omega
    | ⟨2, _⟩ => show win0_7.index t (2 : Fin 3) * 128 + 1 * (y 2).val = (y 2).val; omega

/-- The pooled array after region 0: every row is some point's block. -/
theorem pooled_final (c : Dev nD) : (dat0 (V1 m ρ) c).arrAt 7 cfg0.N = pooledArr m ρ c :=
  (dat0 (V1 m ρ) c).arrAt_eq_of_cover 7 (pooledArr m ρ c) (fun t _ => flushed7 m ρ c t) (fun i => by
    have hi0 : (i 0).val < 64 := (i 0).isLt
    have hi1 : (i 1).val < 1 := (i 1).isLt
    have hi2 : (i 2).val < 128 := (i 2).isLt
    refine ⟨⟨(i 0).val, lt_N0 hi0⟩, flush0_7 _, ?_⟩
    obtain ⟨-, -, -, -, e0', e1, e2⟩ := idx_facts ⟨(i 0).val, lt_N0 hi0⟩
    have e0 : win0_7.index ⟨(i 0).val, lt_N0 hi0⟩ (0 : Fin 3) = (i 0).val := e0'
    show i ∈ ((View.whole main_v4).slice (win0_7.rect ⟨(i 0).val, lt_N0 hi0⟩)).set
    rw [View.set_slice_whole, Rect.mem_set_unit]
    intro a
    match a with
    | ⟨0, _⟩ => show win0_7.index ⟨(i 0).val, lt_N0 hi0⟩ (0 : Fin 3) * 1 ≤ (i 0).val ∧ (i 0).val < win0_7.index ⟨(i 0).val, lt_N0 hi0⟩ (0 : Fin 3) * 1 + 1; rw [e0]; omega
    | ⟨1, _⟩ => show win0_7.index ⟨(i 0).val, lt_N0 hi0⟩ (1 : Fin 3) * 1 ≤ (i 1).val ∧ (i 1).val < win0_7.index ⟨(i 0).val, lt_N0 hi0⟩ (1 : Fin 3) * 1 + 1; rw [e1]; omega
    | ⟨2, _⟩ => show win0_7.index ⟨(i 0).val, lt_N0 hi0⟩ (2 : Fin 3) * 128 ≤ (i 2).val ∧ (i 2).val < win0_7.index ⟨(i 0).val, lt_N0 hi0⟩ (2 : Fin 3) * 128 + 128; rw [e2]; omega)

/-! ## Region 1's entry contents -/

/-- The head's left operand: the pooled array with its unit axis dropped. -/
theorem V3_v5 (c : Dev nD) : (V3 m ρ c main_v5 : S64x128.Idx → EReal)
    = shapeCast S64x128 (pooledArr m ρ c : S64x1x128.Idx → EReal) shapeCasts_S64x1x128_S64x128 := by
  show StableHlo.after hostOps1 _ (Proc.devRef .tc main_v5) = _
  after_results
  rw [show W2 m ρ c (Proc.devRef .tc main_v4) = pooledArr m ρ c from (W2_arr m ρ c 7).trans (pooled_final m ρ c)]
  try rfl

/-- The head's weights and bias row reach region 1 as launched. -/
theorem V3_arg7 (c : Dev nD) : V3 m ρ c main_arg7 = m ((c.tc : Thread nD τ).loc main_arg7) :=
  ((W4_arr m ρ c 1).trans (((dat1 (V3 m ρ) c).arrAt_in 1 rfl _).trans (A_eq1 (V3 m ρ) c 1))).symm.trans (W4_main_arg7 m ρ c)
theorem V3_arg8 (c : Dev nD) : V3 m ρ c main_arg8 = m ((c.tc : Thread nD τ).loc main_arg8) :=
  ((W4_arr m ρ c 2).trans (((dat1 (V3 m ρ) c).arrAt_in 2 rfl _).trans (A_eq1 (V3 m ρ) c 2))).symm.trans (W4_main_arg8 m ρ c)

/-! ## Region 1's blocks: one point, each block its whole array -/

theorem iblk1_0 (V : (c : Dev nD) → (b : Ref sig .tc) → Buf (Elt Ideal) ((c : Thread nD τ).loc b)) (c : Dev nD) (t : Fin cfg1.N) :
    iblk1 (F := Ideal) V c 0 t = V c main_v5 := by
  funext y
  unfold iblk1
  rw [View.read_apply]
  show V c main_v5 (((cfg1.win 0).blk t).view.emb y) = _
  congr 1
  funext a; apply Fin.ext
  match a with
  | ⟨0, _⟩ => show 0 * 64 + 1 * (y 0).val = (y 0).val; omega
  | ⟨1, _⟩ => show 0 * 128 + 1 * (y 1).val = (y 1).val; omega
theorem iblk1_1 (V : (c : Dev nD) → (b : Ref sig .tc) → Buf (Elt Ideal) ((c : Thread nD τ).loc b)) (c : Dev nD) (t : Fin cfg1.N) :
    iblk1 (F := Ideal) V c 1 t = V c main_arg7 := by
  funext y
  unfold iblk1
  rw [View.read_apply]
  show V c main_arg7 (((cfg1.win 1).blk t).view.emb y) = _
  congr 1
  funext a; apply Fin.ext
  match a with
  | ⟨0, _⟩ => show 0 * 128 + 1 * (y 0).val = (y 0).val; omega
  | ⟨1, _⟩ => show 0 * 1024 + 1 * (y 1).val = (y 1).val; omega
theorem iblk1_2 (V : (c : Dev nD) → (b : Ref sig .tc) → Buf (Elt Ideal) ((c : Thread nD τ).loc b)) (c : Dev nD) (t : Fin cfg1.N) :
    iblk1 (F := Ideal) V c 2 t = V c main_arg8 := by
  funext y
  unfold iblk1
  rw [View.read_apply]
  show V c main_arg8 (((cfg1.win 2).blk t).view.emb y) = _
  congr 1
  funext a; apply Fin.ext
  match a with
  | ⟨0, _⟩ => show 0 * 1 + 1 * (y 0).val = (y 0).val; omega
  | ⟨1, _⟩ => show 0 * 1024 + 1 * (y 1).val = (y 1).val; omega

/-! ## The result array -/

theorem hz2 : (![0, 0] : Fin 2 → Nat) = fun _ => 0 := funext fun a => by fin_cases a <;> rfl

/-- The head's payload on a 64×1×128 array with its unit axis dropped, at entry (b, n): the head applied to row `b`. -/
theorem head_eq (P : S64x1x128.Idx → EReal) (hw : S128x1024.Idx → EReal) (hb : S1x1024.Idx → EReal) (b : Fin 64) (n : Fin 1024) :
    k1_pay1 (F := Ideal) (shapeCast S64x128 P shapeCasts_S64x1x128_S64x128) hw hb (ix2 b n)
      = Cert.Enc.logit (fun ch : Fin 128 => P (ix3 b 0 ch)) hw hb n := by
  rw [head_apply]
  unfold Cert.Enc.logit
  congr 1
  refine Finset.sum_congr rfl fun k _ => ?_
  congr 1
  exact shapeCast_apply _ _ (ix2 b k) (ix3 b 0 k) (by
    rw [Shape.rowMajor_val_three, Shape.rowMajor_val_two]
    show (b.val * 1 + 0) * 128 + k.val = b.val * 128 + k.val
    omega)

/-- Row `b` of the pooled array, channel by channel, is what point `b`'s body left. -/
theorem pooled_row (c : Dev nD) (b : Fin 64) (ch : Fin 128) :
    (pooledArr m ρ c : S64x1x128.Idx → EReal) (ix3 b 0 ch)
      = outsAt0 (F := Ideal) (V1 m ρ) c ⟨b.val, lt_N0 b.isLt⟩ (ix3 0 0 ch) := by
  unfold pooledArr
  exact outs_congr (V1 m ρ) c (Fin.ext rfl) (funext fun a => by
    match a with
    | ⟨0, _⟩ => rfl
    | ⟨1, _⟩ => rfl
    | ⟨2, _⟩ => rfl)

/-- The entry function's result at (b, n): the head applied to what grid point `b`'s body left in its 1×1×128 block. -/
def res (c : Dev nD) : Buf (Elt Ideal) ((c.tc : Thread nD τ).loc main_v6) :=
  fun i => Cert.Enc.logit (fun ch : Fin 128 => outsAt0 (F := Ideal) (V1 m ρ) c ⟨(i 0).val, lt_N0 (i 0).isLt⟩ (ix3 0 0 ch))
    (m ((c.tc : Thread nD τ).loc main_arg7)) (m ((c.tc : Thread nD τ).loc main_arg8)) ⟨(i 1).val, (i 1).isLt⟩

/-- The result at an entry, over the pooled array's row. -/
theorem res_row (c : Dev nD) (b : Fin 64) (n : Fin 1024) :
    res m ρ c (ix2 b n)
      = Cert.Enc.logit (fun ch : Fin 128 => (pooledArr m ρ c : S64x1x128.Idx → EReal) (ix3 b 0 ch))
          (m ((c.tc : Thread nD τ).loc main_arg7)) (m ((c.tc : Thread nD τ).loc main_arg8)) n := by
  simp only [pooled_row]
  unfold res
  rfl

/-- Region 1's payload on its entry contents, entry by entry, is the result. -/
theorem payload_eq_res (c : Dev nD) (y : S64x1024.Idx) :
    k1_pay1 (F := Ideal) (shapeCast S64x128 (pooledArr m ρ c : S64x1x128.Idx → EReal) shapeCasts_S64x1x128_S64x128)
        (m ((c.tc : Thread nD τ).loc main_arg7)) (m ((c.tc : Thread nD τ).loc main_arg8)) y
      = res m ρ c y := by
  obtain ⟨b, n, rfl⟩ : ∃ (b : Fin 64) (n : Fin 1024), y = ix2 b n := ⟨y 0, y 1, eq_ix2 y⟩
  rw [res_row]
  exact head_eq _ _ _ b n

/-- Region 1's output window has one point and its block is the whole array: read through the block, an array is itself. -/
theorem read_blk3 (c : Dev nD) (G : Buf (Elt Ideal) ((c.tc : Thread nD τ).loc main_v6)) (t : Fin cfg1.N) :
    ((cfg1.win 3).blk t).view.read (Elt Ideal) G = G := by
  funext y
  rw [View.read_apply]
  show G (((cfg1.win 3).blk t).view.emb y) = G y
  congr 1
  funext a; apply Fin.ext
  match a with
  | ⟨0, _⟩ => show 0 * 64 + 1 * (y 0).val = (y 0).val; omega
  | ⟨1, _⟩ => show 0 * 1024 + 1 * (y 1).val = (y 1).val; omega

/-- The window is uncut: what is written back is all of what the body left. -/
theorem cut3 (X : Vec Ideal S64x1024 .f32) (t : Fin cfg1.N) : (cfg1.win 3).cut (grid1.coords t) X = X := rfl

/-- What region 1's one point writes back is the whole result. -/
theorem flushed3 (c : Dev nD) (t : Fin cfg1.N) :
    (dat1 (V3 m ρ) c).flushed 3 t = ((cfg1.win 3).blk t).view.read (Elt Ideal) (res m ρ c) := by
  rw [read_blk3]
  show (cfg1.win 3).cut (grid1.coords t) ((dat1 (V3 m ρ) c).after 3 t) = _
  rw [after1_3, iblk1_0, iblk1_1, iblk1_2]
  unfold out1_3
  rw [View.canon_unit_zero hz2]
  simp only [View.ld_unit_zero (S := S64x128) hz2, View.ld_unit_zero (S := S128x1024) hz2, View.ld_unit_zero (S := S1x1024) hz2]
  rw [V3_arg7, V3_arg8, V3_v5, cut3]
  exact funext fun y => payload_eq_res m ρ c y

/-- The last boundary's contents at the result array: region 1's one block covers it. -/
theorem W4_v6 (c : Dev nD) : W4 m ρ c (Proc.devRef .tc main_v6) = res m ρ c :=
  (W4_arr m ρ c 3).trans ((dat1 (V3 m ρ) c).arrAt_eq_of_cover 3 (res m ρ c) (fun t _ => flushed3 m ρ c t) (fun i => by
    have hi0 : (i 0).val < 64 := (i 0).isLt
    have hi1 : (i 1).val < 1024 := (i 1).isLt
    refine ⟨t1_0, flush1_3 _, ?_⟩
    show i ∈ ((View.whole main_v6).slice (win1_3.rect t1_0)).set
    rw [View.set_slice_whole, Rect.mem_set_unit]
    intro a
    match a with
    | ⟨0, _⟩ => show 0 * 64 ≤ (i 0).val ∧ (i 0).val < 0 * 64 + 64; omega
    | ⟨1, _⟩ => show 0 * 1024 ≤ (i 1).val ∧ (i 1).val < 0 * 1024 + 1024; omega))

/-! ## The run, read -/

/-- Every weakly fair execution of the entry function terminates, nothing faulting; the result array ends holding, at
    (b, n), the head applied to what grid point `b`'s body left in its block, and the argument arrays end as launched. -/
theorem run : θ_run (defs (F := Ideal)) (onTc (τ := τ) (main (F := Ideal))) ⟨m, fun _ => 0, ρ⟩ (fun r => ∀ c : Dev nD,
      r.2.mem ((c.tc : Thread nD τ).loc main_v6) = res m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (W4_v6 m ρ c), (h c).2⟩) (run_raw m ρ)

end Cert.KernelIdeal.RunValue

end
-- ==== Proof.RRun.lean ====
/-
  The reference program's run, read as a value.

  The program transposes the batch to pixels-first, channels-last, runs one body per image over a grid of 64 points,
  and reshapes the 64×1×1024 array of the bodies' output blocks to 64×1024. Point t's output block is row t of that
  array (block index (t, 0, 0), block shape 1×1×1024) and the 64 blocks cover it, so the array after the run holds at
  (b, 0, n) what point b's body left at (0, 0, n); the reshape moves that entry to (b, n).

  The body's inputs: the image window's block at point t is image t of the transposed batch — entry (0, h, w, ch) is
  the batch's entry (t, ch, h, w) —, and each parameter window's block is its whole argument array at every point
  (block index zero, block shape the array's).

  What the body computes from its blocks stays unopened here.
-/
import proofs.«114523_g2000400755396518_pallasbulk_384_2_alg».proof.Proof.Gen.ReferenceIdeal.Frame
import Idealize.ShloMosaic.Lib.Pipeline.Value
import Idealize.ShloMosaic.Lib.ValueIdx
import proofs.«114523_g2000400755396518_pallasbulk_384_2_alg».proof.Proof.Enc

noncomputable section

open Idealize.ShloMosaic Idealize.ShloMosaic.TcCoe Idealize.SL.Sem Idealize.ShloMosaic.ValueIdx
open Idealize.ShloMosaic.Pipeline (Dat)

namespace Cert.ReferenceIdeal.RunValue

open Cert.ReferenceIdeal Cert.ReferenceIdeal.Gen

variable (m : (ℓ : Loc nD τ sig) → Buf (Elt Ideal) ℓ) (ρ : Dev nD → PrngReg)

/-! ## The output array after the run -/

/-- A number below 64 is a grid point. -/
theorem lt_N {k : Nat} (h : k < 64) : k < cfg0.N := by
  rw [show cfg0.N = 64 from N_0]; exact h

/-- What grid point b's body leaves in its output block at (0, 0, n). -/
def row (c : Dev nD) (b : Fin 64) (n : Fin 1024) : EReal :=
  Gen.outsAt0 (F := Ideal) m c ⟨b.val, lt_N b.isLt⟩ (ix3 0 0 n)

/-- The same entry named from the point and the block's own index. -/
theorem row_eq (c : Dev nD) (t : Fin cfg0.N) (y : S1x1x1024.Idx) (b : Fin 64) (n : Fin 1024)
    (hb : b.val = t.val) (hn : n.val = (y 2).val) :
    row m c b n = Gen.outsAt0 (F := Ideal) m c t y := by
  have ht : (⟨b.val, lt_N b.isLt⟩ : Fin cfg0.N) = t := Fin.ext hb
  have hy : (ix3 0 0 n : S1x1x1024.Idx) = y := by
    funext a; apply Fin.ext
    match a with
    | ⟨0, _⟩ => show 0 = (y 0).val; have h : (y 0).val < 1 := (y 0).isLt; omega
    | ⟨1, _⟩ => show 0 = (y 1).val; have h : (y 1).val < 1 := (y 1).isLt; omega
    | ⟨2, _⟩ => exact hn
  unfold row
  rw [ht, hy]

/-- The region's output array after the run: entry (b, 0, n) is what point b left at (0, 0, n). -/
def G (c : Dev nD) : Buf (Elt Ideal) ((c.tc : Thread nD τ).loc main_v1) :=
  fun (i : S64x1x1024.Idx) => row m c ⟨(i 0).val, (i 0).isLt⟩ ⟨(i 2).val, (i 2).isLt⟩

/-- The output window's block index at point t is (t, 0, 0). -/
theorem idx9 : ∀ t : Fin cfg0.N, win0_9.index t (0 : Fin 3) = t.val ∧ win0_9.index t (1 : Fin 3) = 0
    ∧ win0_9.index t (2 : Fin 3) = 0 :=
  (by decide +kernel : ∀ t : Fin grid0.N, _)

/-- A block of the output window read at point t: contents X of the staging block are block t of an array Gf as soon as
    X at (0, 0, n) is Gf at (t, 0, n). -/
theorem blk9_read (c : Dev nD) (t : Fin cfg0.N) (X : Vec Ideal S1x1x1024 .f32)
    (Gf : Buf (Elt Ideal) ((c.tc : Thread nD τ).loc main_v1))
    (h : ∀ (y : S1x1x1024.Idx) (i : S64x1x1024.Idx), (i 0).val = t.val → (i 2).val = (y 2).val → X y = Gf i) :
    (cfg0.win 9).cut (grid0.coords t) X = ((cfg0.win 9).blk t).view.read (Elt Ideal) Gf := by
  obtain ⟨e0, e1, e2⟩ := idx9 t
  funext y
  rw [View.read_apply]
  show X ((cfg0.win 9).xinj (grid0.coords t) y) = Gf (((cfg0.win 9).blk t).view.emb y)
  refine h _ _ ?_ ?_
  · show win0_9.index t (0 : Fin 3) * 1 + 1 * (y 0).val = t.val
    have h : (y 0).val < 1 := (y 0).isLt
    omega
  · show win0_9.index t (2 : Fin 3) * 1024 + 1 * (y 2).val = (y 2).val
    omega

/-- What point t writes back is block t of G. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  refine blk9_read c t _ _ fun y i h0 h2 => ?_
  exact (row_eq m c t y ⟨(i 0).val, (i 0).isLt⟩ ⟨(i 2).val, (i 2).isLt⟩ h0 h2).symm

/-- Every index of the output array lies in the block of the point named by its first coordinate. -/
theorem cover (c : Dev nD) (i : ((cfg0.win 9).arr.view.loc (c.tc : Thread nD τ)).2.ty.Idx) :
    ∃ t : Fin cfg0.N, (cfg0.win 9).flush t = true ∧ i ∈ ((cfg0.win 9).blk t).view.set := by
  have h0 : ((i : S64x1x1024.Idx) 0).val < 64 := (i 0).isLt
  have h1 : ((i : S64x1x1024.Idx) 1).val < 1 := (i 1).isLt
  have h2 : ((i : S64x1x1024.Idx) 2).val < 1024 := (i 2).isLt
  obtain ⟨t, ht⟩ : ∃ t : Fin cfg0.N, t.val = ((i : S64x1x1024.Idx) 0).val := ⟨⟨_, lt_N h0⟩, rfl⟩
  obtain ⟨e0, e1, e2⟩ := idx9 t
  refine ⟨t, flush0_9 t, ?_⟩
  show i ∈ ((View.whole main_v1).slice (win0_9.rect t)).set
  rw [View.set_slice_whole, Rect.mem_set_unit]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1 ≤ (i 1).val ∧ (i 1).val < win0_9.index t (1 : Fin 3) * 1 + 1; omega
  | ⟨2, _⟩ => show win0_9.index t (2 : Fin 3) * 1024 ≤ (i 2).val ∧ (i 2).val < win0_9.index t (2 : Fin 3) * 1024 + 1024; omega

/-- The output array after the run is G. -/
theorem final (c : Dev nD) : (dats m 0 c).arrAt 9 cfg0.N = G m c :=
  (dats m 0 c).arrAt_eq_of_cover 9 (G m c) (fun t _ => flushed_eq m c t) (cover c)

/-- What @main's result holds at (b, n): what grid point b's body left in its 1×1×1024 output block, at (0, 0, n). -/
def res (m : (ℓ : Loc nD τ sig) → Buf (Elt Ideal) ℓ) (c : Dev nD) : Buf (Elt Ideal) ((c.tc : Thread nD τ).loc main_v2) :=
  fun (i : S64x1024.Idx) => Gen.outsAt0 (F := Ideal) m c ⟨(i 0).val, lt_N (i 0).isLt⟩ (ix3 0 0 ⟨(i 1).val, (i 1).isLt⟩)

/-- A 64×1×1024 array reshaped to 64×1024 holds at (b, n) what the array holds at (b, 0, n). -/
theorem reshape_rows (A : S64x1x1024.Idx → EReal) (B : S64x1024.Idx → EReal)
    (h : ∀ i : S64x1024.Idx, A (ix3 (⟨(i 0).val, (i 0).isLt⟩ : Fin 64) (0 : Fin 1) (⟨(i 1).val, (i 1).isLt⟩ : Fin 1024)) = B i) :
    shapeCast S64x1024 A shapeCasts_S64x1x1024_S64x1024 = B := by
  funext i
  refine (shapeCast_apply A _ i (ix3 (⟨(i 0).val, (i 0).isLt⟩ : Fin 64) (0 : Fin 1) (⟨(i 1).val, (i 1).isLt⟩ : Fin 1024)) ?_).trans (h i)
  rw [Shape.rowMajor_val_three, Shape.rowMajor_val_two]
  show ((i 0).val * 1 + 0) * 1024 + (i 1).val = (i 0).val * 1024 + (i 1).val
  omega

set_option maxHeartbeats 400000 in
/-- The line after the region reshapes the 64×1×1024 output array to 64×1024. -/
theorem tail_v2 (c : Dev nD) :
    Pipeline.afterTail₀ cfgs (dats m) 0 (V0 m) [hostOps1] c main_v2 = res m c := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = G m c := (Pipeline.withArrays_arr spec0 launch0.win.arr_inj c _ _ 9).trans (final m c)
  rw [e]
  show shapeCast S64x1024 (G m c) shapeCasts_S64x1x1024_S64x1024 = res m c
  refine reshape_rows (G m c) (res m c) fun i => ?_
  show row m c _ _ = _
  exact row_eq m c ⟨(i 0).val, lt_N (i 0).isLt⟩ (ix3 0 0 ⟨(i 1).val, (i 1).isLt⟩) _ _ rfl rfl

/-- The run, read: @main's result holds, at (b, n), what point b's body left at (0, 0, n); the arguments end unchanged. -/
theorem run : θ_run (defs (F := Ideal)) (onTc (τ := τ) (main (F := Ideal))) ⟨m, fun _ => 0, ρ⟩ (fun r => ∀ c : Dev nD,
      r.2.mem ((c.tc : Thread nD τ).loc main_v2) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v2 (Pipeline.mem_restRefs_of main_v2 (by decide) (by decide))).trans (tail_v2 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

/-! ## The input blocks -/

/-- The image window's block index at point t is (t, 0, 0, 0). -/
theorem idx0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

/-- The region finds, as the image window's array, the batch transposed to pixels-first, channels-last. -/
theorem V_v0 (c : Dev nD) : (V m c main_v0 : S64x32x32x128.Idx → EReal)
    = transpose S64x32x32x128 [0, 2, 3, 1] (m ((c.tc : Thread nD τ).loc main_arg0)) transposes_S64x128x32x32_S64x32x32x128_0_2_3_1 := by
  show StableHlo.after hostOps0 (fun b => m (c, b)) (Proc.devRef .tc main_v0) = _
  after_results

/-- A block of the image window read at point t: it is Y as soon as the array at (t, h, w, ch) is Y at (0, h, w, ch). -/
theorem blk0_read (c : Dev nD) (t : Fin cfg0.N) (A : Buf (Elt Ideal) ((c.tc : Thread nD τ).loc main_v0))
    (Y : S1x32x32x128.Idx → EReal)
    (h : ∀ (y : S1x32x32x128.Idx) (i : S64x32x32x128.Idx), (i 0).val = t.val → (i 1).val = (y 1).val →
      (i 2).val = (y 2).val → (i 3).val = (y 3).val → A i = Y y) :
    ((cfg0.win 0).blk t).view.read (Elt Ideal) A = Y := by
  obtain ⟨e0, e1, e2, e3⟩ := idx0 t
  funext y
  rw [View.read_apply]
  show A (((cfg0.win 0).blk t).view.emb y) = Y y
  refine h _ _ ?_ ?_ ?_ ?_
  · show win0_0.index t (0 : Fin 4) * 1 + 1 * (y 0).val = t.val
    have h : (y 0).val < 1 := (y 0).isLt
    omega
  · show win0_0.index t (1 : Fin 4) * 32 + 1 * (y 1).val = (y 1).val
    omega
  · show win0_0.index t (2 : Fin 4) * 32 + 1 * (y 2).val = (y 2).val
    omega
  · show win0_0.index t (3 : Fin 4) * 128 + 1 * (y 3).val = (y 3).val
    omega

/-- The transposed batch at (b, h, w, ch) is the batch at (b, ch, h, w). -/
theorem transposed_apply (a0 : S64x128x32x32.Idx → EReal) (i : S64x32x32x128.Idx) (k : S64x128x32x32.Idx)
    (h0 : (k 0).val = (i 0).val) (h1 : (k 2).val = (i 1).val) (h2 : (k 3).val = (i 2).val) (h3 : (k 1).val = (i 3).val) :
    transpose S64x32x32x128 [0, 2, 3, 1] a0 transposes_S64x128x32x32_S64x32x32x128_0_2_3_1 i = a0 k := by
  refine transpose_apply _ a0 _ i k fun b => ?_
  match b with
  | ⟨0, _⟩ => exact h0
  | ⟨1, _⟩ => exact h1
  | ⟨2, _⟩ => exact h2
  | ⟨3, _⟩ => exact h3

set_option maxHeartbeats 400000 in
/-- The image window's block at point t is image t of the batch, pixels first and channels last. -/
theorem iblk_x (c : Dev nD) (t : Fin cfg0.N) :
    Gen.iblk (F := Ideal) m c 0 t = Cert.Enc.xblk (m ((c.tc : Thread nD τ).loc main_arg0)) ⟨t.val, by rw [← N_0]; exact t.isLt⟩ := by
  unfold Gen.iblk
  show ((cfg0.win 0).blk t).view.read (Elt Ideal) (V m c main_v0) = _
  rw [V_v0]
  refine blk0_read c t _ _ fun y i h0 h1 h2 h3 => ?_
  unfold Cert.Enc.xblk
  refine transposed_apply _ i _ ?_ ?_ ?_ ?_
  · exact h0.symm
  · exact h1.symm
  · exact h2.symm
  · exact h3.symm

/-! ## The parameter windows: each block is the whole array -/

/-- Window 1 (the scale rows) sits at block index zero at every point. -/
theorem idx1 : ∀ t : Fin cfg0.N, win0_1.index t (0 : Fin 2) = 0 ∧ win0_1.index t (1 : Fin 2) = 0 :=
  (by decide +kernel : ∀ t : Fin grid0.N, _)

/-- So its block, read off any contents of its array, is those contents. -/
theorem whole1 (c : Dev nD) (t : Fin cfg0.N) (A : Buf (Elt Ideal) ((c.tc : Thread nD τ).loc main_arg1)) :
    ((cfg0.win 1).blk t).view.read (Elt Ideal) A = A := by
  obtain ⟨e0, e1⟩ := idx1 t
  funext y
  rw [View.read_apply]
  show A (((cfg0.win 1).blk t).view.emb y) = A y
  refine congrArg A (funext fun a => Fin.ext ?_)
  match a with
  | ⟨0, _⟩ => show win0_1.index t (0 : Fin 2) * 4 + 1 * (y 0).val = (y 0).val; omega
  | ⟨1, _⟩ => show win0_1.index t (1 : Fin 2) * 128 + 1 * (y 1).val = (y 1).val; omega

/-- Window 1's block at every point is the argument array itself (the scale rows). -/
theorem iblk_p1 (c : Dev nD) (t : Fin cfg0.N) :
    Gen.iblk (F := Ideal) m c 1 t = m ((c.tc : Thread nD τ).loc main_arg1) := by
  unfold Gen.iblk
  show ((cfg0.win 1).blk t).view.read (Elt Ideal) (V m c main_arg1) = _
  rw [V_main_arg1]
  exact whole1 c t _

/-- Window 2 (the shift rows) sits at block index zero at every point. -/
theorem idx2 : ∀ t : Fin cfg0.N, win0_2.index t (0 : Fin 2) = 0 ∧ win0_2.index t (1 : Fin 2) = 0 :=
  (by decide +kernel : ∀ t : Fin grid0.N, _)

/-- So its block, read off any contents of its array, is those contents. -/
theorem whole2 (c : Dev nD) (t : Fin cfg0.N) (A : Buf (Elt Ideal) ((c.tc : Thread nD τ).loc main_arg2)) :
    ((cfg0.win 2).blk t).view.read (Elt Ideal) A = A := by
  obtain ⟨e0, e1⟩ := idx2 t
  funext y
  rw [View.read_apply]
  show A (((cfg0.win 2).blk t).view.emb y) = A y
  refine congrArg A (funext fun a => Fin.ext ?_)
  match a with
  | ⟨0, _⟩ => show win0_2.index t (0 : Fin 2) * 4 + 1 * (y 0).val = (y 0).val; omega
  | ⟨1, _⟩ => show win0_2.index t (1 : Fin 2) * 128 + 1 * (y 1).val = (y 1).val; omega

/-- Window 2's block at every point is the argument array itself (the shift rows). -/
theorem iblk_p2 (c : Dev nD) (t : Fin cfg0.N) :
    Gen.iblk (F := Ideal) m c 2 t = m ((c.tc : Thread nD τ).loc main_arg2) := by
  unfold Gen.iblk
  show ((cfg0.win 2).blk t).view.read (Elt Ideal) (V m c main_arg2) = _
  rw [V_main_arg2]
  exact whole2 c t _

/-- Window 3 (the 256-column weights) sits at block index zero at every point. -/
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)

/-- So its block, read off any contents of its array, is those contents. -/
theorem whole3 (c : Dev nD) (t : Fin cfg0.N) (A : Buf (Elt Ideal) ((c.tc : Thread nD τ).loc main_arg3)) :
    ((cfg0.win 3).blk t).view.read (Elt Ideal) A = A := by
  obtain ⟨e0, e1, e2⟩ := idx3 t
  funext y
  rw [View.read_apply]
  show A (((cfg0.win 3).blk t).view.emb y) = A y
  refine congrArg A (funext fun a => Fin.ext ?_)
  match a with
  | ⟨0, _⟩ => show win0_3.index t (0 : Fin 3) * 2 + 1 * (y 0).val = (y 0).val; omega
  | ⟨1, _⟩ => show win0_3.index t (1 : Fin 3) * 1152 + 1 * (y 1).val = (y 1).val; omega
  | ⟨2, _⟩ => show win0_3.index t (2 : Fin 3) * 256 + 1 * (y 2).val = (y 2).val; omega

/-- Window 3's block at every point is the argument array itself (the 256-column weights). -/
theorem iblk_p3 (c : Dev nD) (t : Fin cfg0.N) :
    Gen.iblk (F := Ideal) m c 3 t = m ((c.tc : Thread nD τ).loc main_arg3) := by
  unfold Gen.iblk
  show ((cfg0.win 3).blk t).view.read (Elt Ideal) (V m c main_arg3) = _
  rw [V_main_arg3]
  exact whole3 c t _

/-- Window 4 (the 256-column biases) sits at block index zero at every point. -/
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)

/-- So its block, read off any contents of its array, is those contents. -/
theorem whole4 (c : Dev nD) (t : Fin cfg0.N) (A : Buf (Elt Ideal) ((c.tc : Thread nD τ).loc main_arg4)) :
    ((cfg0.win 4).blk t).view.read (Elt Ideal) A = A := by
  obtain ⟨e0, e1, e2⟩ := idx4 t
  funext y
  rw [View.read_apply]
  show A (((cfg0.win 4).blk t).view.emb y) = A y
  refine congrArg A (funext fun a => Fin.ext ?_)
  match a with
  | ⟨0, _⟩ => show win0_4.index t (0 : Fin 3) * 2 + 1 * (y 0).val = (y 0).val; omega
  | ⟨1, _⟩ => show win0_4.index t (1 : Fin 3) * 1 + 1 * (y 1).val = (y 1).val; omega
  | ⟨2, _⟩ => show win0_4.index t (2 : Fin 3) * 256 + 1 * (y 2).val = (y 2).val; omega

/-- Window 4's block at every point is the argument array itself (the 256-column biases). -/
theorem iblk_p4 (c : Dev nD) (t : Fin cfg0.N) :
    Gen.iblk (F := Ideal) m c 4 t = m ((c.tc : Thread nD τ).loc main_arg4) := by
  unfold Gen.iblk
  show ((cfg0.win 4).blk t).view.read (Elt Ideal) (V m c main_arg4) = _
  rw [V_main_arg4]
  exact whole4 c t _

/-- Window 5 (the 128-column weights) sits at block index zero at every point. -/
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

/-- So its block, read off any contents of its array, is those contents. -/
theorem whole5 (c : Dev nD) (t : Fin cfg0.N) (A : Buf (Elt Ideal) ((c.tc : Thread nD τ).loc main_arg5)) :
    ((cfg0.win 5).blk t).view.read (Elt Ideal) A = A := by
  obtain ⟨e0, e1, e2⟩ := idx5 t
  funext y
  rw [View.read_apply]
  show A (((cfg0.win 5).blk t).view.emb y) = A y
  refine congrArg A (funext fun a => Fin.ext ?_)
  match a with
  | ⟨0, _⟩ => show win0_5.index t (0 : Fin 3) * 2 + 1 * (y 0).val = (y 0).val; omega
  | ⟨1, _⟩ => show win0_5.index t (1 : Fin 3) * 1152 + 1 * (y 1).val = (y 1).val; omega
  | ⟨2, _⟩ => show win0_5.index t (2 : Fin 3) * 128 + 1 * (y 2).val = (y 2).val; omega

/-- Window 5's block at every point is the argument array itself (the 128-column weights). -/
theorem iblk_p5 (c : Dev nD) (t : Fin cfg0.N) :
    Gen.iblk (F := Ideal) m c 5 t = m ((c.tc : Thread nD τ).loc main_arg5) := by
  unfold Gen.iblk
  show ((cfg0.win 5).blk t).view.read (Elt Ideal) (V m c main_arg5) = _
  rw [V_main_arg5]
  exact whole5 c t _

/-- Window 6 (the 128-column biases) sits at block index zero at every point. -/
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)

/-- So its block, read off any contents of its array, is those contents. -/
theorem whole6 (c : Dev nD) (t : Fin cfg0.N) (A : Buf (Elt Ideal) ((c.tc : Thread nD τ).loc main_arg6)) :
    ((cfg0.win 6).blk t).view.read (Elt Ideal) A = A := by
  obtain ⟨e0, e1, e2⟩ := idx6 t
  funext y
  rw [View.read_apply]
  show A (((cfg0.win 6).blk t).view.emb y) = A y
  refine congrArg A (funext fun a => Fin.ext ?_)
  match a with
  | ⟨0, _⟩ => show win0_6.index t (0 : Fin 3) * 2 + 1 * (y 0).val = (y 0).val; omega
  | ⟨1, _⟩ => show win0_6.index t (1 : Fin 3) * 1 + 1 * (y 1).val = (y 1).val; omega
  | ⟨2, _⟩ => show win0_6.index t (2 : Fin 3) * 128 + 1 * (y 2).val = (y 2).val; omega

/-- Window 6's block at every point is the argument array itself (the 128-column biases). -/
theorem iblk_p6 (c : Dev nD) (t : Fin cfg0.N) :
    Gen.iblk (F := Ideal) m c 6 t = m ((c.tc : Thread nD τ).loc main_arg6) := by
  unfold Gen.iblk
  show ((cfg0.win 6).blk t).view.read (Elt Ideal) (V m c main_arg6) = _
  rw [V_main_arg6]
  exact whole6 c t _

/-- Window 7 (the head matrix) sits at block index zero at every point. -/
theorem idx7 : ∀ t : Fin cfg0.N, win0_7.index t (0 : Fin 2) = 0 ∧ win0_7.index t (1 : Fin 2) = 0 :=
  (by decide +kernel : ∀ t : Fin grid0.N, _)

/-- So its block, read off any contents of its array, is those contents. -/
theorem whole7 (c : Dev nD) (t : Fin cfg0.N) (A : Buf (Elt Ideal) ((c.tc : Thread nD τ).loc main_arg7)) :
    ((cfg0.win 7).blk t).view.read (Elt Ideal) A = A := by
  obtain ⟨e0, e1⟩ := idx7 t
  funext y
  rw [View.read_apply]
  show A (((cfg0.win 7).blk t).view.emb y) = A y
  refine congrArg A (funext fun a => Fin.ext ?_)
  match a with
  | ⟨0, _⟩ => show win0_7.index t (0 : Fin 2) * 128 + 1 * (y 0).val = (y 0).val; omega
  | ⟨1, _⟩ => show win0_7.index t (1 : Fin 2) * 1024 + 1 * (y 1).val = (y 1).val; omega

/-- Window 7's block at every point is the argument array itself (the head matrix). -/
theorem iblk_p7 (c : Dev nD) (t : Fin cfg0.N) :
    Gen.iblk (F := Ideal) m c 7 t = m ((c.tc : Thread nD τ).loc main_arg7) := by
  unfold Gen.iblk
  show ((cfg0.win 7).blk t).view.read (Elt Ideal) (V m c main_arg7) = _
  rw [V_main_arg7]
  exact whole7 c t _

/-- Window 8 (the head's bias row) sits at block index zero at every point. -/
theorem idx8 : ∀ t : Fin cfg0.N, win0_8.index t (0 : Fin 2) = 0 ∧ win0_8.index t (1 : Fin 2) = 0 :=
  (by decide +kernel : ∀ t : Fin grid0.N, _)

/-- So its block, read off any contents of its array, is those contents. -/
theorem whole8 (c : Dev nD) (t : Fin cfg0.N) (A : Buf (Elt Ideal) ((c.tc : Thread nD τ).loc main_arg8)) :
    ((cfg0.win 8).blk t).view.read (Elt Ideal) A = A := by
  obtain ⟨e0, e1⟩ := idx8 t
  funext y
  rw [View.read_apply]
  show A (((cfg0.win 8).blk t).view.emb y) = A y
  refine congrArg A (funext fun a => Fin.ext ?_)
  match a with
  | ⟨0, _⟩ => show win0_8.index t (0 : Fin 2) * 1 + 1 * (y 0).val = (y 0).val; omega
  | ⟨1, _⟩ => show win0_8.index t (1 : Fin 2) * 1024 + 1 * (y 1).val = (y 1).val; omega

/-- Window 8's block at every point is the argument array itself (the head's bias row). -/
theorem iblk_p8 (c : Dev nD) (t : Fin cfg0.N) :
    Gen.iblk (F := Ideal) m c 8 t = m ((c.tc : Thread nD τ).loc main_arg8) := by
  unfold Gen.iblk
  show ((cfg0.win 8).blk t).view.read (Elt Ideal) (V m c main_arg8) = _
  rw [V_main_arg8]
  exact whole8 c t _

end Cert.ReferenceIdeal.RunValue

end
-- ==== Proof.lean ====
/-
  The certificate: the two idealized programs return the same batch of logits.

  Each program runs the same two-cell 3×3 encoder on every image (Proof/Enc.lean states it once, over the extended
  reals), averages the 1024 pixels and applies the 128×1024 head. The kernel does the average as column sums times
  the weight 1/1024 inside its first call and the head for the whole batch in a second call; the reference does the
  average as a product with a constant weight row and the head per image, inside its one call. The two averages agree
  because the weight is a nonnegative real number (Proof/EncLaws.lean). What each grid point's body leaves is read off
  the runs in Proof/KBody.lean and Proof/RBody.lean; how the blocks make up the returned arrays in Proof/KRun.lean and
  Proof/RRun.lean. No rewrite was applied to the kernel, so `preserves` is trivial; the frames are the generated ones.
-/
import proofs.«114523_g2000400755396518_pallasbulk_384_2_alg».proof.Defs
import proofs.«114523_g2000400755396518_pallasbulk_384_2_alg».proof.Proof.Gen.Kernel
import proofs.«114523_g2000400755396518_pallasbulk_384_2_alg».proof.Proof.Gen.Kernel.Skeleton
import proofs.«114523_g2000400755396518_pallasbulk_384_2_alg».proof.Proof.Gen.Kernel.Launch
import proofs.«114523_g2000400755396518_pallasbulk_384_2_alg».proof.Proof.Gen.Kernel.Points
import proofs.«114523_g2000400755396518_pallasbulk_384_2_alg».proof.Proof.Gen.Kernel.Frame
import proofs.«114523_g2000400755396518_pallasbulk_384_2_alg».proof.Proof.Gen.KernelIdeal
import proofs.«114523_g2000400755396518_pallasbulk_384_2_alg».proof.Proof.Gen.KernelIdeal.Skeleton
import proofs.«114523_g2000400755396518_pallasbulk_384_2_alg».proof.Proof.Gen.KernelIdeal.Launch
import proofs.«114523_g2000400755396518_pallasbulk_384_2_alg».proof.Proof.Gen.KernelIdeal.Points
import proofs.«114523_g2000400755396518_pallasbulk_384_2_alg».proof.Proof.Gen.KernelIdeal.Frame
import proofs.«114523_g2000400755396518_pallasbulk_384_2_alg».proof.Proof.Gen.ReferenceIdeal
import proofs.«114523_g2000400755396518_pallasbulk_384_2_alg».proof.Proof.Gen.ReferenceIdeal.Skeleton
import proofs.«114523_g2000400755396518_pallasbulk_384_2_alg».proof.Proof.Gen.ReferenceIdeal.Launch
import proofs.«114523_g2000400755396518_pallasbulk_384_2_alg».proof.Proof.Gen.ReferenceIdeal.Points
import proofs.«114523_g2000400755396518_pallasbulk_384_2_alg».proof.Proof.Gen.ReferenceIdeal.Frame
import proofs.«114523_g2000400755396518_pallasbulk_384_2_alg».proof.Proof.Gen.Pre_finite_inputs
import proofs.«114523_g2000400755396518_pallasbulk_384_2_alg».proof.Proof.EncLaws
import proofs.«114523_g2000400755396518_pallasbulk_384_2_alg».proof.Proof.KBody
import proofs.«114523_g2000400755396518_pallasbulk_384_2_alg».proof.Proof.RBody
import proofs.«114523_g2000400755396518_pallasbulk_384_2_alg».proof.Proof.KRun
import proofs.«114523_g2000400755396518_pallasbulk_384_2_alg».proof.Proof.RRun
import Idealize.ShloMosaic.Adequacy
import Idealize.ShloMosaic.Init

set_option maxRecDepth 16384

noncomputable section

namespace Cert.Proof

open Idealize.ShloMosaic Idealize.SL.Sem

/-! ## The two returned arrays are the specification's -/

/-- The kernel's returned array: at (b, n) the head of the averaged features of image b. The body at point b leaves
    the column sums times the weight (Proof/KBody.lean) of the features of block b, which is image b with the channels
    last (Proof/KRun.lean); the second call multiplies by the head matrix and adds the bias row. -/
theorem kernel_res (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.RunValue.res m ρ c = Cert.Enc.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) := by
  funext i
  unfold Cert.KernelIdeal.RunValue.res Cert.Enc.result
  refine congrArg (fun p => Cert.Enc.logit p _ _ _) (funext fun ch => ?_)
  unfold Cert.KernelIdeal.Gen.outsAt0
  rw [Cert.KernelIdeal.Body.out_eq, Cert.KernelIdeal.RunValue.iblk_x, Cert.KernelIdeal.RunValue.iblk_p1, Cert.KernelIdeal.RunValue.iblk_p2, Cert.KernelIdeal.RunValue.iblk_p3,
    Cert.KernelIdeal.RunValue.iblk_p4, Cert.KernelIdeal.RunValue.iblk_p5, Cert.KernelIdeal.RunValue.iblk_p6]
  exact Cert.Enc.poolK_apply _ _

/-- The reference's returned array: the same, its average written as the sum of the weighted entries — equal to the
    weighted sum because the weight is a nonnegative real number. -/
theorem reference_res (m' : (ℓ : Loc Cert.ReferenceIdeal.nD Cert.ReferenceIdeal.τ Cert.ReferenceIdeal.sig) → Buf (Elt Ideal) ℓ) (c : Dev Cert.ReferenceIdeal.nD) :
    Cert.ReferenceIdeal.RunValue.res m' c = Cert.Enc.result
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) := by
  funext i
  unfold Cert.ReferenceIdeal.RunValue.res Cert.Enc.result Cert.ReferenceIdeal.Gen.outsAt0
  rw [Cert.ReferenceIdeal.Body.out_eq, Cert.ReferenceIdeal.RunValue.iblk_x, Cert.ReferenceIdeal.RunValue.iblk_p1, Cert.ReferenceIdeal.RunValue.iblk_p2, Cert.ReferenceIdeal.RunValue.iblk_p3,
    Cert.ReferenceIdeal.RunValue.iblk_p4, Cert.ReferenceIdeal.RunValue.iblk_p5, Cert.ReferenceIdeal.RunValue.iblk_p6, Cert.ReferenceIdeal.RunValue.iblk_p7, Cert.ReferenceIdeal.RunValue.iblk_p8]
  refine (shapeCast_addUnit_apply ![1, 1024] _ _ _).trans ?_
  refine (Cert.Enc.headR_apply _ _ _ _).trans ?_
  unfold Cert.Enc.logit
  simp only [Cert.Enc.pooledR_eq_pooled]
  rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- From memories that agree on the nine arguments both programs end with the specification's logits of those
    arguments. -/
theorem algebraic : Cert.algebraic_KernelIdeal_ReferenceIdeal := by
  intro m ρ m' ρ' _ hagree
  refine ⟨fun c => Cert.Enc.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run (Cert.KernelIdeal.defs (F := Ideal)) _ _).mono (fun r h c => ⟨(h c).1.trans (kernel_res m ρ c), (h c).2⟩)
      (Cert.KernelIdeal.RunValue.run m ρ)
  · refine (θ_run (Cert.ReferenceIdeal.defs (F := Ideal)) _ _).mono (fun r h c => ⟨(h c).1.trans ?_, (h c).2⟩)
      (Cert.ReferenceIdeal.RunValue.run m' ρ')
    rw [reference_res]
    obtain ⟨h0, h1, h2, h3, h4, h5, h6, h7, h8⟩ := hagree c
    rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
